-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x10 .f32) (main_arg12 : FVec F S10 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg11
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S64x64 .f32) (main_arg7 : FVec F S64 .f32) (main_arg8 : FVec F S64x64 .f32) (main_arg9 : FVec F S128x64 .f32) (main_arg10 : FVec F S64 .f32) (main_arg11 : FVec F S64x10 .f32) (main_arg12 : FVec F S10 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S128x64 .f32) (main_arg6 : FVec F S64x64 .f32) (main_arg7 : FVec F S64 .f32) (main_arg8 : FVec F S64x64 .f32) (main_arg9 : FVec F S128x64 .f32) (main_arg10 : FVec F S64 .f32) (main_arg11 : FVec F S64x10 .f32) (main_arg12 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S256 : Shape := ⟨1, ![256]⟩
abbrev S256x1 : Shape := ⟨2, ![256, 1]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S1x64 : Shape := ⟨2, ![1, 64]⟩
abbrev S256x64 : Shape := ⟨2, ![256, 64]⟩
abbrev S256x128 : Shape := ⟨2, ![256, 128]⟩
abbrev S256x10 : Shape := ⟨2, ![256, 10]⟩
abbrev S1x10 : Shape := ⟨2, ![1, 10]⟩

abbrev nBuf : Space → Nat
  | .hbm => 90
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S128x64, .f32⟩
  | .hbm, ⟨10, _⟩ => ⟨S64, .f32⟩
  | .hbm, ⟨11, _⟩ => ⟨S64x10, .f32⟩
  | .hbm, ⟨12, _⟩ => ⟨S10, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S800000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .f32⟩
  | .hbm, ⟨31, _⟩ => ⟨S50000, .f32⟩
  | .hbm, ⟨32, _⟩ => ⟨S_, .f32⟩
  | .hbm, ⟨33, _⟩ => ⟨S256, .f32⟩
  | .hbm, ⟨34, _⟩ => ⟨S50000x1, .i32⟩
  | .hbm, ⟨35, _⟩ => ⟨S256, .f32⟩
  | .hbm, ⟨36, _⟩ => ⟨S_, .f32⟩
  | .hbm, ⟨37, _⟩ => ⟨S256, .f32⟩
  | .hbm, ⟨38, _⟩ => ⟨S256, .f32⟩
  | .hbm, ⟨39, _⟩ => ⟨S_, .f32⟩
  | .hbm, ⟨40, _⟩ => ⟨S256, .f32⟩
  | .hbm, ⟨41, _⟩ => ⟨S256, .f32⟩
  | .hbm, ⟨42, _⟩ => ⟨S256x1, .f32⟩
  | .hbm, ⟨43, _⟩ => ⟨S50000x64, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x64, .f32⟩
  | .hbm, ⟨53, _⟩ => ⟨S_, .f32⟩
  | .hbm, ⟨54, _⟩ => ⟨S50000x64, .f32⟩
  | .hbm, ⟨55, _⟩ => ⟨S800000x1, .i32⟩
  | .hbm, ⟨56, _⟩ => ⟨S50000x64, .f32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S_, .f32⟩
  | .hbm, ⟨61, _⟩ => ⟨S256x64, .f32⟩
  | .hbm, ⟨62, _⟩ => ⟨S50000x1, .i32⟩
  | .hbm, ⟨63, _⟩ => ⟨S256x64, .f32⟩
  | .hbm, ⟨64, _⟩ => ⟨S256x64, .f32⟩
  | .hbm, ⟨65, _⟩ => ⟨S256x64, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x64, .f32⟩
  | .hbm, ⟨75, _⟩ => ⟨S_, .f32⟩
  | .hbm, ⟨76, _⟩ => ⟨S50000x64, .f32⟩
  | .hbm, ⟨77, _⟩ => ⟨S800000x1, .i32⟩
  | .hbm, ⟨78, _⟩ => ⟨S50000x64, .f32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S256x64, .f32⟩
  | .hbm, ⟨84, _⟩ => ⟨S50000x1, .i32⟩
  | .hbm, ⟨85, _⟩ => ⟨S256x64, .f32⟩
  | .hbm, ⟨86, _⟩ => ⟨S256x64, .f32⟩
  | .hbm, ⟨87, _⟩ => ⟨S256x64, .f32⟩
  | .hbm, ⟨88, _⟩ => ⟨S256x128, .f32⟩
  | .hbm, ⟨89, _⟩ => ⟨S256x10, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x128, .f32⟩
  | .local _ .vmem, ⟨8, _⟩ => ⟨S5000x128, .f32⟩
  | .local _ .vmem, ⟨9, _⟩ => ⟨S64, .f32⟩
  | .local _ .vmem, ⟨10, _⟩ => ⟨S128x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | .local _ .vmem, ⟨22, _⟩ => ⟨S256x128, .f32⟩
  | .local _ .vmem, ⟨23, _⟩ => ⟨S128x64, .f32⟩
  | .local _ .vmem, ⟨24, _⟩ => ⟨S64, .f32⟩
  | .local _ .vmem, ⟨25, _⟩ => ⟨S64x10, .f32⟩
  | .local _ .vmem, ⟨26, _⟩ => ⟨S10, .f32⟩
  | .local _ .vmem, ⟨27, _⟩ => ⟨S256x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_cst_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_5 : Ref sig .tc := ⟨.hbm, 36, rfl⟩
abbrev main_v17 : Ref sig .tc := ⟨.hbm, 37, rfl⟩
abbrev main_v18 : Ref sig .tc := ⟨.hbm, 38, rfl⟩
abbrev main_cst_6 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_10 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_12 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem1_0 : DmaSem sig := 23
abbrev cc3_sem2_0 : DmaSem sig := 24
abbrev cc3_sem3_0 : DmaSem sig := 25
abbrev cc3_sem4_0 : DmaSem sig := 26
abbrev cc3_sem5_0 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  bcast_S_S256x64 : S_.BroadcastsInDim S256x64 (![] : Fin 0 → Fin S256x64.rank)
  bcast_S256x1_S256x64_0_1 : S256x1.BroadcastsInDim S256x64 (![0, 1] : Fin 2 → Fin S256x64.rank)
  inb_S64x64_S64x64_0_0 : ∀ a, (![0, 0] : Fin 2 → Nat) a + S64x64.size a ≤ S64x64.size a
  h_S64x64 : 0 < S64x64.numel
  concatenates_S256x64_S256x64_S256x128_d1 : Shape.Concatenates [S256x64, S256x64] S256x128 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x64_S256x64 : S1x64.Broadcasts S256x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S256x10 : S1x10.Broadcasts S256x10
  reduces_S256x10_S256 : S256x10.Reduces [1] S256
  shapeCasts_S256_S256x1 : S256.ShapeCasts S256x1
  broadcasts_S256x1_S256x10 : S256x1.Broadcasts S256x10
  inb_S256x10_S256x10_0_0 : ∀ a, (![0, 0] : Fin 2 → Nat) a + S256x10.size a ≤ S256x10.size a
  h_S256x10 : 0 < S256x10.numel
  scatter_S50000_S800000x1_S800000_n_0_0_1_wf : ScatterDims.WF S50000 S800000x1 S800000 [] [0] [0] 1
  scatter_S256_S50000x1_S50000_n_0_0_1_wf : ScatterDims.WF S256 S50000x1 S50000 [] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S256x64_S50000x1_S50000x64_1_0_0_1_wf : ScatterDims.WF S256x64 S50000x1 S50000x64 [1] [0] [0] 1
  dot_S5000x64_S64x64_S5000x64_1_0_0_1_n_n_wf : DotDims.WF S5000x64 S64x64 S5000x64 [1] [0] [0] [1] [] []
  dot_S256x128_S128x64_S256x64_1_0_0_1_n_n_wf : DotDims.WF S256x128 S128x64 S256x64 [1] [0] [0] [1] [] []
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S256x128.size a
  hwx3_0 : ∀ i : grid3.Coords, EltTy.bits .f32 = 32 ∨ (Rect.block (s := S256x128) S256x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x10.size a ≤ S64x10.size a
  hwx3_3 : ∀ i : grid3.Coords, EltTy.bits .f32 = 32 ∨ (Rect.block (s := S64x10) S64x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S10.size a ≤ S10.size a
  hwx3_4 : ∀ i : grid3.Coords, EltTy.bits .f32 = 32 ∨ (Rect.block (s := S10) S10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x10.size a ≤ S256x10.size a
  hwx3_5 : ∀ i : grid3.Coords, EltTy.bits .f32 = 32 ∨ (Rect.block (s := S256x10) S256x10.size (cc3_transform_5 i) (hinb3_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v22) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S256x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S64x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg12) S10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v60) S256x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x64 : Shape := ⟨2, ![50000, 64]⟩
abbrev S1x64 : Shape := ⟨2, ![1, 64]⟩
abbrev S256x64 : Shape := ⟨2, ![256, 64]⟩
abbrev S256 : Shape := ⟨1, ![256]⟩
abbrev S256x1 : Shape := ⟨2, ![256, 1]⟩
abbrev S800000x64 : Shape := ⟨2, ![800000, 64]⟩
abbrev S256x128 : Shape := ⟨2, ![256, 128]⟩
abbrev S256x10 : Shape := ⟨2, ![256, 10]⟩
abbrev S1x10 : Shape := ⟨2, ![1, 10]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S128x64, .f32⟩
  | 6 => ⟨S64x64, .f32⟩
  | 7 => ⟨S64, .f32⟩
  | 8 => ⟨S64x64, .f32⟩
  | 9 => ⟨S128x64, .f32⟩
  | 10 => ⟨S64, .f32⟩
  | 11 => ⟨S64x10, .f32⟩
  | 12 => ⟨S10, .f32⟩
  | 13 => ⟨S1x800000, .i32⟩
  | 14 => ⟨S800000, .i32⟩
  | 15 => ⟨S1x800000, .i32⟩
  | 16 => ⟨S800000, .i32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x128, .f32⟩
  | 26 => ⟨S_, .f32⟩
  | 27 => ⟨S50000x128, .f32⟩
  | 28 => ⟨S800000x1, .i32⟩
  | 29 => ⟨S50000x128, .f32⟩
  | 30 => ⟨S_, .f32⟩
  | 31 => ⟨S800000, .f32⟩
  | 32 => ⟨S_, .f32⟩
  | 33 => ⟨S50000, .f32⟩
  | 34 => ⟨S800000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S50000x64, .f32⟩
  | 43 => ⟨S1x64, .f32⟩
  | 44 => ⟨S50000x64, .f32⟩
  | 45 => ⟨S50000x64, .f32⟩
  | 46 => ⟨S50000x64, .f32⟩
  | 47 => ⟨S50000x64, .f32⟩
  | 48 => ⟨S_, .f32⟩
  | 49 => ⟨S50000x64, .f32⟩
  | 50 => ⟨S50000x64, .f32⟩
  | 51 => ⟨S_, .f32⟩
  | 52 => ⟨S256x64, .f32⟩
  | 53 => ⟨S50000x1, .i32⟩
  | 54 => ⟨S256x64, .f32⟩
  | 55 => ⟨S_, .f32⟩
  | 56 => ⟨S50000, .f32⟩
  | 57 => ⟨S_, .f32⟩
  | 58 => ⟨S256, .f32⟩
  | 59 => ⟨S50000x1, .i32⟩
  | 60 => ⟨S256, .f32⟩
  | 61 => ⟨S_, .f32⟩
  | 62 => ⟨S256, .f32⟩
  | 63 => ⟨S256, .f32⟩
  | 64 => ⟨S256x1, .f32⟩
  | 65 => ⟨S256x64, .f32⟩
  | 66 => ⟨S256x64, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x64, .f32⟩
  | 76 => ⟨S_, .f32⟩
  | 77 => ⟨S50000x64, .f32⟩
  | 78 => ⟨S800000x1, .i32⟩
  | 79 => ⟨S50000x64, .f32⟩
  | 80 => ⟨S_, .f32⟩
  | 81 => ⟨S800000, .f32⟩
  | 82 => ⟨S_, .f32⟩
  | 83 => ⟨S50000, .f32⟩
  | 84 => ⟨S800000x1, .i32⟩
  | 85 => ⟨S50000, .f32⟩
  | 86 => ⟨S_, .f32⟩
  | 87 => ⟨S50000, .f32⟩
  | 88 => ⟨S50000, .f32⟩
  | 89 => ⟨S50000x1, .f32⟩
  | 90 => ⟨S50000x64, .f32⟩
  | 91 => ⟨S50000x64, .f32⟩
  | 92 => ⟨S50000x64, .f32⟩
  | 93 => ⟨S1x64, .f32⟩
  | 94 => ⟨S50000x64, .f32⟩
  | 95 => ⟨S50000x64, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S_, .f32⟩
  | 102 => ⟨S256x64, .f32⟩
  | 103 => ⟨S50000x1, .i32⟩
  | 104 => ⟨S256x64, .f32⟩
  | 105 => ⟨S_, .f32⟩
  | 106 => ⟨S50000, .f32⟩
  | 107 => ⟨S_, .f32⟩
  | 108 => ⟨S256, .f32⟩
  | 109 => ⟨S50000x1, .i32⟩
  | 110 => ⟨S256, .f32⟩
  | 111 => ⟨S_, .f32⟩
  | 112 => ⟨S256, .f32⟩
  | 113 => ⟨S256, .f32⟩
  | 114 => ⟨S256x1, .f32⟩
  | 115 => ⟨S256x64, .f32⟩
  | 116 => ⟨S256x64, .f32⟩
  | 117 => ⟨S256x128, .f32⟩
  | 118 => ⟨S256x64, .f32⟩
  | 119 => ⟨S1x64, .f32⟩
  | 120 => ⟨S256x64, .f32⟩
  | 121 => ⟨S256x64, .f32⟩
  | 122 => ⟨S_, .f32⟩
  | 123 => ⟨S256x64, .f32⟩
  | 124 => ⟨S256x64, .f32⟩
  | 125 => ⟨S256x10, .f32⟩
  | 126 => ⟨S1x10, .f32⟩
  | 127 => ⟨S256x10, .f32⟩
  | _ => ⟨S50000x128, .f32⟩

abbrev hbmTy0_1 (i : Nat) : BufTy := match i % 128 with
  | 0 => ⟨S256x10, .f32⟩
  | 1 => ⟨S_, .f32⟩
  | 2 => ⟨S256, .f32⟩
  | 3 => ⟨S_, .f32⟩
  | 4 => ⟨S256, .f32⟩
  | 5 => ⟨S256, .f32⟩
  | 6 => ⟨S256x1, .f32⟩
  | 7 => ⟨S256x10, .f32⟩
  | 8 => ⟨S256x10, .f32⟩
  | 9 => ⟨S256x10, .f32⟩
  | 10 => ⟨S_, .f32⟩
  | 11 => ⟨S256, .f32⟩
  | 12 => ⟨S256x1, .f32⟩
  | 13 => ⟨S256x1, .f32⟩
  | 14 => ⟨S256x10, .f32⟩
  | 15 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_c_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_11 : Ref sig .tc := ⟨.hbm, 80, rfl⟩
abbrev main_v52 : Ref sig .tc := ⟨.hbm, 81, rfl⟩
abbrev main_cst_12 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_13 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call1_cst : Ref sig .tc := ⟨.hbm, 98, rfl⟩
abbrev main_call1_v0 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_15 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_17 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_call2_cst : Ref sig .tc := ⟨.hbm, 122, rfl⟩
abbrev main_call2_v0 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v90 : Ref sig .tc := ⟨.hbm, 143, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S256x64 : S_.BroadcastsInDim S256x64 (![] : Fin 0 → Fin S256x64.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  bcast_S50000x1_S50000x64_0_1 : S50000x1.BroadcastsInDim S50000x64 (![0, 1] : Fin 2 → Fin S50000x64.rank)
  concatenates_S256x64_S256x64_S256x128_d1 : Shape.Concatenates [S256x64, S256x64] S256x128 1
  bcast_S1x64_S256x64_0_1 : S1x64.BroadcastsInDim S256x64 (![0, 1] : Fin 2 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  reducesTo_S256x10_S256_d1 : S256x10.ReducesTo [1] S256
  h_S_ : 0 < S_.numel
  bcast_S256x1_S256x10_0_1 : S256x1.BroadcastsInDim S256x10 (![0, 1] : Fin 2 → Fin S256x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x64_S50000x64_1_0_0_1_n_n_wf : DotDims.WF S50000x128 S128x64 S50000x64 [1] [0] [0] [1] [] []
  scatter_S256x64_S50000x1_S50000x64_1_0_0_1_wf : ScatterDims.WF S256x64 S50000x1 S50000x64 [1] [0] [0] 1
  scatter_S256_S50000x1_S50000_n_0_0_1_wf : ScatterDims.WF S256 S50000x1 S50000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S256x128_S128x64_S256x64_1_0_0_1_n_n_wf : DotDims.WF S256x128 S128x64 S256x64 [1] [0] [0] [1] [] []
  dot_S256x64_S64x10_S256x10_1_0_0_1_n_n_wf : DotDims.WF S256x64 S64x10 S256x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.KernelRun.lean ====
/-
  The idealized kernel program's run, with its result named.

  Every weakly fair execution of the program's entry function on the TensorCores, from any memory with zero counters,
  terminates without fault; in every final state the result buffer holds the last boundary's contents there (the fold
  of the buffer contents through the entry function's segments, read at the result's reference), and each of the
  thirteen argument buffers holds what it held at the launch.
-/
import proofs.«136951_j35622458753573_2_alg».proof.Proof.Gen.KernelIdeal.Frame
import Idealize.ShloMosaic.PureOps.Ideal

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

-- matching this conclusion against the launch lemma's needs unification to unfold plain definitions inside the type
-- of a metavariable; the option allows that for this one declaration
set_option backward.isDefEq.respectTransparency.types false in
/-- The run of the entry function at the idealized values: it terminates, the result buffer ends at the last
    boundary's contents, and every argument buffer ends as launched. -/
theorem kernel_run_named (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v60) = Gen.W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.KVal

end
-- ==== Proof.Spec.lean ====
/-
  The dense pieces of a two-layer graph network, as whole-array functions over the extended reals.

  `proj X W` is the matrix product of the rows of X with a weight matrix W: entry (i, j) is Σ_k X (i, k) · W (k, j).
  `layer P b X W` is a graph layer's dense part: entry (i, j) is max ((P (i, j) + b j) + Σ_k X (i, k) · W (k, j)) 0,
  where P is the aggregated neighbour term (already multiplied by its weights), b the bias and X · W the node's own
  term. Both depend on the row-tiled operands (X, P) only through row i, so a block of consecutive rows of the result
  is the same function of the corresponding block of rows of the operands. The extents are arbitrary.
-/
import Idealize.ShloMosaic.PureOps.Ideal
import Idealize.ShloMosaic.Lib.ValueIdx

noncomputable section

open scoped BigOperators

namespace Cert.Gnn

open Idealize.ShloMosaic Idealize.ShloMosaic.ValueIdx

variable {M K N : Nat}

/-- Rows times a weight matrix: entry (i, j) is the sum over k of X (i, k) · W (k, j). -/
def proj (X : FVec Ideal ⟨2, ![M, K]⟩ .f32) (W : FVec Ideal ⟨2, ![K, N]⟩ .f32) : FVec Ideal ⟨2, ![M, N]⟩ .f32 :=
  fun j => ∑ k : Fin K, X (ix2 (j 0) k) * W (ix2 k (j 1))

/-- A graph layer's dense part: the aggregated term plus the bias plus the node's own rows times the root weights,
    cut off below at zero. -/
def layer (P : FVec Ideal ⟨2, ![M, N]⟩ .f32) (b : FVec Ideal ⟨1, ![N]⟩ .f32) (X : FVec Ideal ⟨2, ![M, K]⟩ .f32)
    (W : FVec Ideal ⟨2, ![K, N]⟩ .f32) : FVec Ideal ⟨2, ![M, N]⟩ .f32 :=
  fun j => max ((P j + b (ix1 (j 1))) + ∑ k : Fin K, X (ix2 (j 0) k) * W (ix2 k (j 1))) 0

theorem proj_apply (X : FVec Ideal ⟨2, ![M, K]⟩ .f32) (W : FVec Ideal ⟨2, ![K, N]⟩ .f32) (p : Fin M) (q : Fin N) :
    proj X W (ix2 p q) = ∑ k : Fin K, X (ix2 p k) * W (ix2 k q) := rfl

theorem layer_apply (P : FVec Ideal ⟨2, ![M, N]⟩ .f32) (b : FVec Ideal ⟨1, ![N]⟩ .f32) (X : FVec Ideal ⟨2, ![M, K]⟩ .f32)
    (W : FVec Ideal ⟨2, ![K, N]⟩ .f32) (p : Fin M) (q : Fin N) :
    layer P b X W (ix2 p q) = max ((P (ix2 p q) + b (ix1 q)) + ∑ k : Fin K, X (ix2 p k) * W (ix2 k q)) 0 := rfl

end Cert.Gnn

end
-- ==== Proof.KDefs.lean ====
/-
  The host arithmetic between the kernel's four dense stages, as pure functions over the extended reals.

  From the edge array (row 0: source node of each edge, row 1: destination node) and the batch vector (graph of each
  node) the program forms: the source rows to gather (a negative number counted from the end), the destination and
  graph numbers as index columns, the in-degree of every node and the size of every graph, each raised to at least one,
  and their reciprocals as columns. `aggK h` is the mean over the arriving edges of the rows of h: the sum over the
  edges that end at a node of the source rows, TIMES one over the degree. `poolK h` is the mean of the rows of h over
  each graph, again as a sum times a reciprocal. The network is two graph layers (`h1K`, `h2K`), each pooled per graph,
  the two pooled blocks joined side by side and fed to the classifier body.
-/
import proofs.«136951_j35622458753573_2_alg».proof.KernelIdeal
import proofs.«136951_j35622458753573_2_alg».proof.Proof.Gen.KernelIdeal.Skeleton
import proofs.«136951_j35622458753573_2_alg».proof.Proof.Spec

noncomputable section

namespace Cert.KernelIdeal.KVal

open Idealize.ShloMosaic Cert.KernelIdeal Cert.KernelIdeal.Gen

/-- Source node of every edge, as read from row 0 of the edge array. -/
def srcRaw (x1 : (⟨S2x800000, .i32⟩ : BufTy).Contents (Elt Ideal)) : (⟨S800000, .i32⟩ : BufTy).Contents (Elt Ideal) :=
  shapeCast _ (extractStridedSlice S1x800000 ![0, 0] x1 slices_S2x800000_S1x800000_0_0) shapeCasts_S1x800000_S800000

/-- Destination node of every edge, row 1 of the edge array. -/
def dstRaw (x1 : (⟨S2x800000, .i32⟩ : BufTy).Contents (Elt Ideal)) : (⟨S800000, .i32⟩ : BufTy).Contents (Elt Ideal) :=
  shapeCast _ (extractStridedSlice S1x800000 ![1, 0] x1 slices_S2x800000_S1x800000_1_0) shapeCasts_S1x800000_S800000

/-- The rows to gather: a negative source number counts from the end (50000 is added to it), as an index column. -/
def srcIdx (x1 : (⟨S2x800000, .i32⟩ : BufTy).Contents (Elt Ideal)) : (⟨S800000x1, .i32⟩ : BufTy).Contents (Elt Ideal) :=
  broadcastInDim S800000x1 ![0] bcast_S800000_S800000x1_0
    (select (cmpi .slt (srcRaw x1) (broadcastInDim S800000 ![] bcast_S_S800000 (constantI S_ 32 0#32)))
      (addi (srcRaw x1) (broadcastInDim S800000 ![] bcast_S_S800000 (constantI S_ 32 50000#32))) (srcRaw x1))

/-- The destination numbers as an index column. -/
def dstIdx (x1 : (⟨S2x800000, .i32⟩ : BufTy).Contents (Elt Ideal)) : (⟨S800000x1, .i32⟩ : BufTy).Contents (Elt Ideal) :=
  broadcastInDim S800000x1 ![0] bcast_S800000_S800000x1_0 (dstRaw x1)

/-- The graph numbers as an index column. -/
def batIdx (x2 : (⟨S50000, .i32⟩ : BufTy).Contents (Elt Ideal)) : (⟨S50000x1, .i32⟩ : BufTy).Contents (Elt Ideal) :=
  broadcastInDim S50000x1 ![0] bcast_S50000_S50000x1_0 x2

/-- The larger of a node's in-degree (one counted per arriving edge, from zero) and one. -/
def degMax (x1 : (⟨S2x800000, .i32⟩ : BufTy).Contents (Elt Ideal)) : FVec Ideal S50000 .f32 :=
  maximumf
    (Host.scatterAdd (F := Ideal) scatter_S50000_S800000x1_S800000_n_0_0_1
      (broadcastInDim S50000 ![] bcast_S_S50000 (constant (F := Ideal) S_ .f32 0x00000000#32)) (dstIdx x1)
      (broadcastInDim S800000 ![] bcast_S_S800000 (constant (F := Ideal) S_ .f32 0x3F800000#32)))
    (broadcastInDim S50000 ![] bcast_S_S50000 (constant (F := Ideal) S_ .f32 0x3F800000#32))

/-- One over that, as a column. -/
def invDeg (x1 : (⟨S2x800000, .i32⟩ : BufTy).Contents (Elt Ideal)) : FVec Ideal S50000x1 .f32 :=
  broadcastInDim S50000x1 ![0] bcast_S50000_S50000x1_0
    (Host.divf (F := Ideal) (broadcastInDim S50000 ![] bcast_S_S50000 (constant (F := Ideal) S_ .f32 0x3F800000#32)) (degMax x1))

/-- The larger of a graph's number of nodes and one. -/
def cntMax (x2 : (⟨S50000, .i32⟩ : BufTy).Contents (Elt Ideal)) : FVec Ideal S256 .f32 :=
  maximumf
    (Host.scatterAdd (F := Ideal) scatter_S256_S50000x1_S50000_n_0_0_1
      (broadcastInDim S256 ![] bcast_S_S256 (constant (F := Ideal) S_ .f32 0x00000000#32)) (batIdx x2)
      (broadcastInDim S50000 ![] bcast_S_S50000 (constant (F := Ideal) S_ .f32 0x3F800000#32)))
    (broadcastInDim S256 ![] bcast_S_S256 (constant (F := Ideal) S_ .f32 0x3F800000#32))

/-- One over that, as a column. -/
def invCnt (x2 : (⟨S50000, .i32⟩ : BufTy).Contents (Elt Ideal)) : FVec Ideal S256x1 .f32 :=
  broadcastInDim S256x1 ![0] bcast_S256_S256x1_0
    (Host.divf (F := Ideal) (broadcastInDim S256 ![] bcast_S_S256 (constant (F := Ideal) S_ .f32 0x3F800000#32)) (cntMax x2))

/-- The sum over the edges ending at each node of the source rows of h. -/
def edgeSum (h : FVec Ideal S50000x64 .f32) (x1 : (⟨S2x800000, .i32⟩ : BufTy).Contents (Elt Ideal)) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32)) (dstIdx x1)
    (Host.gather gather_S50000x64_S800000x1_S800000x64_1_0_n_n_0_1_164 h (srcIdx x1))

/-- The mean of h's rows over the arriving edges: the edge sum times one over the degree. -/
def aggK (h : FVec Ideal S50000x64 .f32) (x1 : (⟨S2x800000, .i32⟩ : BufTy).Contents (Elt Ideal)) : FVec Ideal S50000x64 .f32 :=
  mulf (edgeSum h x1) (broadcastInDim S50000x64 ![0, 1] bcast_S50000x1_S50000x64_0_1 (invDeg x1))

/-- The sum of h's rows over each graph. -/
def graphSum (h : FVec Ideal S50000x64 .f32) (x2 : (⟨S50000, .i32⟩ : BufTy).Contents (Elt Ideal)) : FVec Ideal S256x64 .f32 :=
  Host.scatterAdd (F := Ideal) scatter_S256x64_S50000x1_S50000x64_1_0_0_1
    (broadcastInDim S256x64 ![] bcast_S_S256x64 (constant (F := Ideal) S_ .f32 0x00000000#32)) (batIdx x2) h

/-- The mean of h's rows over each graph: the graph sum times one over the graph's size. -/
def poolK (h : FVec Ideal S50000x64 .f32) (x2 : (⟨S50000, .i32⟩ : BufTy).Contents (Elt Ideal)) : FVec Ideal S256x64 .f32 :=
  mulf (graphSum h x2) (broadcastInDim S256x64 ![0, 1] bcast_S256x1_S256x64_0_1 (invCnt x2))

/-- The first graph layer: the projected rows are averaged over the arriving edges, then bias, own term and cut-off. -/
def h1K (x0 : FVec Ideal S50000x128 .f32) (x1 : (⟨S2x800000, .i32⟩ : BufTy).Contents (Elt Ideal)) (x3 : FVec Ideal S128x64 .f32)
    (x4 : FVec Ideal S64 .f32) (x5 : FVec Ideal S128x64 .f32) : FVec Ideal S50000x64 .f32 :=
  Cert.Gnn.layer (aggK (Cert.Gnn.proj x0 x3) x1) x4 x0 x5

/-- The second graph layer over the first layer's rows. -/
def h2K (h : FVec Ideal S50000x64 .f32) (x1 : (⟨S2x800000, .i32⟩ : BufTy).Contents (Elt Ideal)) (x6 : FVec Ideal S64x64 .f32)
    (x7 : FVec Ideal S64 .f32) (x8 : FVec Ideal S64x64 .f32) : FVec Ideal S50000x64 .f32 :=
  Cert.Gnn.layer (Cert.Gnn.proj (aggK h x1) x6) x7 h x8

/-- The two pooled blocks side by side. -/
def pooled (h1 h2 : FVec Ideal S50000x64 .f32) (x2 : (⟨S50000, .i32⟩ : BufTy).Contents (Elt Ideal)) : FVec Ideal S256x128 .f32 :=
  concatenate S256x128 1 [⟨S256x64, poolK h1 x2⟩, ⟨S256x64, poolK h2 x2⟩] concatenates_S256x64_S256x64_S256x128_d1

/-- The kernel program's result as one function of its thirteen arguments. -/
def outK (x0 : FVec Ideal S50000x128 .f32) (x1 : (⟨S2x800000, .i32⟩ : BufTy).Contents (Elt Ideal))
    (x2 : (⟨S50000, .i32⟩ : BufTy).Contents (Elt Ideal)) (x3 : FVec Ideal S128x64 .f32) (x4 : FVec Ideal S64 .f32)
    (x5 : FVec Ideal S128x64 .f32) (x6 : FVec Ideal S64x64 .f32) (x7 : FVec Ideal S64 .f32) (x8 : FVec Ideal S64x64 .f32)
    (x9 : FVec Ideal S128x64 .f32) (x10 : FVec Ideal S64 .f32) (x11 : FVec Ideal S64x10 .f32) (x12 : FVec Ideal S10 .f32) :
    FVec Ideal S256x10 .f32 :=
  Gen.k3_pay1 (F := Ideal)
    (pooled (h1K x0 x1 x3 x4 x5) (h2K (h1K x0 x1 x3 x4 x5) x1 x6 x7 x8) x2) x9 x10 x11 x12

end Cert.KernelIdeal.KVal

end
-- ==== Proof.KHost.lean ====
/-
  What a stretch of host operations leaves in the buffers that later code reads, from ARBITRARY contents before it.

  Each of the program's four stretches is a line of whole-array operations. Read at one buffer, the line is the
  composition of the operations that feed it, applied to what the buffers it reads held before the line; a buffer
  the line does not write holds what it held. The compositions are named here over variables (`srcIdxOf`, `aggOf`,
  `poolOf`, `catOf`): the mean over the arriving edges, the mean over each graph and the two pooled blocks side by
  side, each as the printed operations spell it, and each is the corresponding function of the edge and batch
  arrays once the source, destination and reciprocal columns are the ones the first stretch computes.
-/
import proofs.«136951_j35622458753573_2_alg».proof.Proof.Gen.KernelIdeal.Launch
import proofs.«136951_j35622458753573_2_alg».proof.Proof.KDefs
import Idealize.ShloMosaic.Lib.StableHlo.Run

noncomputable section

namespace Cert.KernelIdeal.KVal

open Idealize.ShloMosaic Idealize.ShloMosaic.StableHlo Cert.KernelIdeal Cert.KernelIdeal.Gen

/-! ## The compositions over variables -/

/-- The rows to gather as an index column, from the source numbers: a negative one counts from the end. -/
def srcIdxOf (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The sum over the edges ending at each node (destinations `d`) of the rows of `h` at the edges' sources `s`, times
    the column `iv`. -/
def aggOf (h : FVec Ideal S50000x64 .f32) (s d : (⟨S800000, .i32⟩ : BufTy).Contents (Elt Ideal))
    (iv : FVec Ideal S50000x1 .f32) : FVec Ideal S50000x64 .f32 :=
  mulf
    (Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 d)
      (Host.gather gather_S50000x64_S800000x1_S800000x64_1_0_n_n_0_1_164 h (srcIdxOf s)))
    (broadcastInDim S50000x64 ![0, 1] bcast_S50000x1_S50000x64_0_1 iv)

/-- The sum of the rows of `h` over each graph (graph numbers `b`), times the column `iv`. -/
def poolOf (h : FVec Ideal S50000x64 .f32) (b : (⟨S50000, .i32⟩ : BufTy).Contents (Elt Ideal))
    (iv : FVec Ideal S256x1 .f32) : FVec Ideal S256x64 .f32 :=
  mulf
    (Host.scatterAdd (F := Ideal) scatter_S256x64_S50000x1_S50000x64_1_0_0_1
      (broadcastInDim S256x64 ![] bcast_S_S256x64 (constant (F := Ideal) S_ .f32 0x00000000#32))
      (broadcastInDim S50000x1 ![0] bcast_S50000_S50000x1_0 b) h)
    (broadcastInDim S256x64 ![0, 1] bcast_S256x1_S256x64_0_1 iv)

/-- Two blocks of 64 columns side by side. -/
def catOf (a b : FVec Ideal S256x64 .f32) : FVec Ideal S256x128 .f32 :=
  concatenate S256x128 1 [⟨S256x64, a⟩, ⟨S256x64, b⟩] concatenates_S256x64_S256x64_S256x128_d1

/-- The edge mean is the composition at the first stretch's source, destination and reciprocal-degree columns. -/
theorem aggK_eq (h : FVec Ideal S50000x64 .f32) (x1 : (⟨S2x800000, .i32⟩ : BufTy).Contents (Elt Ideal)) :
    aggK h x1 = aggOf h (srcRaw x1) (dstRaw x1) (invDeg x1) := rfl

/-- The graph mean is the composition at the batch vector and the reciprocal-size column. -/
theorem poolK_eq (h : FVec Ideal S50000x64 .f32) (x2 : (⟨S50000, .i32⟩ : BufTy).Contents (Elt Ideal)) :
    poolK h x2 = poolOf h x2 (invCnt x2) := rfl

/-- The joined block is the two graph means side by side. -/
theorem pooled_eq (h1 h2 : FVec Ideal S50000x64 .f32) (x2 : (⟨S50000, .i32⟩ : BufTy).Contents (Elt Ideal)) :
    pooled h1 h2 x2 = catOf (poolK h1 x2) (poolK h2 x2) := rfl

/-! ## Equal arguments, equal values -/

theorem congr2 {α β γ : Type} (f : α → β → γ) {a a' : α} {b b' : β} (ha : a = a') (hb : b = b') : f a b = f a' b' := by
  subst ha hb; rfl

theorem congr3 {α β γ δ : Type} (f : α → β → γ → δ) {a a' : α} {b b' : β} {c c' : γ}
    (ha : a = a') (hb : b = b') (hc : c = c') : f a b c = f a' b' c' := by subst ha hb hc; rfl

theorem congr4 {α β γ δ ε : Type} (f : α → β → γ → δ → ε) {a a' : α} {b b' : β} {c c' : γ} {d d' : δ}
    (ha : a = a') (hb : b = b') (hc : c = c') (hd : d = d') : f a b c d = f a' b' c' d' := by
  subst ha hb hc hd; rfl

theorem congr5 {α β γ δ ε ζ : Type} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl

/-! ## The buffers each stretch writes -/

/-- The buffers the first stretch writes. -/
def wr0 : List (Ref sig .tc) :=
  [main_v0, main_v1, main_v2, main_v3, main_cst, main_v4, main_cst_0, main_v5, main_v6, main_v7, main_cst_1, main_v8,
   main_v9, main_cst_2, main_v10, main_v11, main_v12, main_cst_3, main_v13, main_cst_4, main_v14, main_v15, main_v16,
   main_cst_5, main_v17, main_v18, main_cst_6, main_v19, main_v20, main_v21]

/-- The buffers the second stretch writes. -/
def wr1 : List (Ref sig .tc) :=
  [main_c, main_v23, main_v24, main_c_7, main_v25, main_v26, main_v27, main_v28, main_v29, main_cst_8, main_v30,
   main_v31, main_v32, main_v33, main_v34]

/-- The buffers the third stretch writes. -/
def wr2 : List (Ref sig .tc) :=
  [main_cst_9, main_v36, main_v37, main_v38, main_v39, main_v40, main_c_10, main_v41, main_v42, main_c_11, main_v43,
   main_v44, main_v45, main_v46, main_v47, main_cst_12, main_v48, main_v49, main_v50, main_v51, main_v52]

/-- The buffers the fourth stretch writes. -/
def wr3 : List (Ref sig .tc) :=
  [main_cst_13, main_v54, main_v55, main_v56, main_v57, main_v58, main_v59]

theorem hostOps0_writes : (hostOps0 (F := Ideal)).Forall fun op =>
    op.writes ⊆ (wr0.map (Proc.devRef (τ := τ) .tc)).toFinset := by
  simp only [hostOps0, List.Forall, nullary_writes, unary_writes, binary_writes, ternary_writes, reshape_writes]
  repeat' apply And.intro
  all_goals exact Finset.singleton_subset_iff.mpr (List.mem_toFinset.mpr (List.mem_map_of_mem (by decide)))

theorem hostOps1_writes : (hostOps1 (F := Ideal)).Forall fun op =>
    op.writes ⊆ (wr1.map (Proc.devRef (τ := τ) .tc)).toFinset := by
  simp only [hostOps1, List.Forall, nullary_writes, unary_writes, binary_writes, ternary_writes, reshape_writes]
  repeat' apply And.intro
  all_goals exact Finset.singleton_subset_iff.mpr (List.mem_toFinset.mpr (List.mem_map_of_mem (by decide)))

theorem hostOps2_writes : (hostOps2 (F := Ideal)).Forall fun op =>
    op.writes ⊆ (wr2.map (Proc.devRef (τ := τ) .tc)).toFinset := by
  simp only [hostOps2, List.Forall, nullary_writes, unary_writes, binary_writes, ternary_writes, reshape_writes]
  repeat' apply And.intro
  all_goals exact Finset.singleton_subset_iff.mpr (List.mem_toFinset.mpr (List.mem_map_of_mem (by decide)))

theorem hostOps3_writes : (hostOps3 (F := Ideal)).Forall fun op =>
    op.writes ⊆ (wr3.map (Proc.devRef (τ := τ) .tc)).toFinset := by
  simp only [hostOps3, List.Forall, nullary_writes, unary_writes, binary_writes, ternary_writes, reshape_writes]
  repeat' apply And.intro
  all_goals exact Finset.singleton_subset_iff.mpr (List.mem_toFinset.mpr (List.mem_map_of_mem (by decide)))

variable (V : Valuation τ sig (Elt Ideal))

/-- A buffer the first stretch does not write holds what it held. -/
theorem keep0 {r : Ref sig .tc} (hr : r ∉ wr0) :
    after (hostOps0 (F := Ideal)) V (Proc.devRef .tc r) = V (Proc.devRef .tc r) :=
  after_of_writes_sub _ V hostOps0_writes hr

/-- A buffer the second stretch does not write holds what it held. -/
theorem keep1 {r : Ref sig .tc} (hr : r ∉ wr1) :
    after (hostOps1 (F := Ideal)) V (Proc.devRef .tc r) = V (Proc.devRef .tc r) :=
  after_of_writes_sub _ V hostOps1_writes hr

/-- A buffer the third stretch does not write holds what it held. -/
theorem keep2 {r : Ref sig .tc} (hr : r ∉ wr2) :
    after (hostOps2 (F := Ideal)) V (Proc.devRef .tc r) = V (Proc.devRef .tc r) :=
  after_of_writes_sub _ V hostOps2_writes hr

/-- A buffer the fourth stretch does not write holds what it held. -/
theorem keep3 {r : Ref sig .tc} (hr : r ∉ wr3) :
    after (hostOps3 (F := Ideal)) V (Proc.devRef .tc r) = V (Proc.devRef .tc r) :=
  after_of_writes_sub _ V hostOps3_writes hr

/-! ## The first stretch: the source and destination numbers, the reciprocal degree and the reciprocal graph size -/

theorem host0_v1 : after (hostOps0 (F := Ideal)) V (Proc.devRef .tc main_v1) = srcRaw (V (Proc.devRef .tc main_arg1)) := by
  after_results; rfl

theorem host0_v3 : after (hostOps0 (F := Ideal)) V (Proc.devRef .tc main_v3) = dstRaw (V (Proc.devRef .tc main_arg1)) := by
  after_results; rfl

theorem host0_v12 : after (hostOps0 (F := Ideal)) V (Proc.devRef .tc main_v12) = invDeg (V (Proc.devRef .tc main_arg1)) := by
  after_results; rfl

theorem host0_v21 : after (hostOps0 (F := Ideal)) V (Proc.devRef .tc main_v21) = invCnt (V (Proc.devRef .tc main_arg2)) := by
  after_results; rfl

/-! ## The second stretch: the edge mean of the first stage's rows -/

theorem host1_v34 : after (hostOps1 (F := Ideal)) V (Proc.devRef .tc main_v34)
    = aggOf (V (Proc.devRef .tc main_v22)) (V (Proc.devRef .tc main_v1)) (V (Proc.devRef .tc main_v3))
        (V (Proc.devRef .tc main_v12)) := by
  after_results_simp; rfl

/-! ## The third stretch: the graph mean and the edge mean of the second stage's rows -/

theorem host2_v40 : after (hostOps2 (F := Ideal)) V (Proc.devRef .tc main_v40)
    = poolOf (V (Proc.devRef .tc main_v35)) (V (Proc.devRef .tc main_arg2)) (V (Proc.devRef .tc main_v21)) := by
  after_results; rfl

theorem host2_v52 : after (hostOps2 (F := Ideal)) V (Proc.devRef .tc main_v52)
    = aggOf (V (Proc.devRef .tc main_v35)) (V (Proc.devRef .tc main_v1)) (V (Proc.devRef .tc main_v3))
        (V (Proc.devRef .tc main_v12)) := by
  after_results_simp; rfl

/-! ## The fourth stretch: the graph mean of the third stage's rows, joined to the earlier one -/

theorem host3_v59 : after (hostOps3 (F := Ideal)) V (Proc.devRef .tc main_v59)
    = catOf (V (Proc.devRef .tc main_v40))
        (poolOf (V (Proc.devRef .tc main_v53)) (V (Proc.devRef .tc main_arg2)) (V (Proc.devRef .tc main_v21))) := by
  after_results; rfl

end Cert.KernelIdeal.KVal

end
-- ==== Proof.KChainA.lean ====
/-
  The buffer contents at the boundaries of the idealized kernel program's first four segments, as functions of the
  launch contents of the argument buffers.

  The program's entry function is a fold: a stretch of host operations, then a dense stage, four times over. Walking
  the fold forwards, each buffer that later code reads is named at every boundary: after the first stretch the
  source and destination numbers of the edges, the reciprocal degree and the reciprocal graph size, all functions of
  the edge and batch arrays; after the first stage the projected rows; after the second stretch their mean over the
  arriving edges; after the second stage the first layer's rows. A buffer that a segment does not write is carried
  across it unchanged. The dense stages enter as hypotheses: what each leaves in its result array, as a function of
  the contents it was entered with.
-/
import proofs.«136951_j35622458753573_2_alg».proof.Proof.Gen.KernelIdeal.Frame
import proofs.«136951_j35622458753573_2_alg».proof.Proof.KHost

noncomputable section

namespace Cert.KernelIdeal.KVal

open Idealize.ShloMosaic Idealize.ShloMosaic.TcCoe Idealize.ShloMosaic.StableHlo
open Idealize.SL.Sem
open Cert.KernelIdeal Cert.KernelIdeal.Gen

/-- The first dense stage leaves the rows times the weights in its result array. -/
abbrev RegionFact0 : Prop :=
    ∀ (V : (c : Dev nD) → (b : Ref sig .tc) → Buf (Elt Ideal) ((c : Thread nD τ).loc b)) (c : Dev nD),
      (Gen.dat0 (F := Ideal) V c).arrAt 2 cfg0.N
        = Cert.Gnn.proj (V c main_arg0) (V c main_arg3)
/-- The second dense stage leaves a graph layer of its four operands. -/
abbrev RegionFact1 : Prop :=
    ∀ (V : (c : Dev nD) → (b : Ref sig .tc) → Buf (Elt Ideal) ((c : Thread nD τ).loc b)) (c : Dev nD),
      (Gen.dat1 (F := Ideal) V c).arrAt 4 cfg1.N
        = Cert.Gnn.layer (V c main_v34) (V c main_arg4) (V c main_arg0) (V c main_arg5)
/-- The third dense stage leaves a graph layer over the projected edge mean. -/
abbrev RegionFact2 : Prop :=
    ∀ (V : (c : Dev nD) → (b : Ref sig .tc) → Buf (Elt Ideal) ((c : Thread nD τ).loc b)) (c : Dev nD),
      (Gen.dat2 (F := Ideal) V c).arrAt 5 cfg2.N
        = Cert.Gnn.layer (Cert.Gnn.proj (V c main_v52) (V c main_arg6)) (V c main_arg7) (V c main_v35) (V c main_arg8)
/-- The fourth dense stage leaves the classifier body's value at its five operands. -/
abbrev RegionFact3 : Prop :=
    ∀ (V : (c : Dev nD) → (b : Ref sig .tc) → Buf (Elt Ideal) ((c : Thread nD τ).loc b)) (c : Dev nD),
      (Gen.dat3 (F := Ideal) V c).arrAt 5 cfg3.N
        = Gen.k3_pay1 (F := Ideal) (V c main_v59) (V c main_arg9) (V c main_arg10) (V c main_arg11) (V c main_arg12)

variable (m : (ℓ : Loc nD τ sig) → Buf (Elt Ideal) ℓ) (ρ : Dev nD → PrngReg) (c : Dev nD)

-- an argument buffer's contents at the launch
set_option quotPrecheck false in
local notation "𝔁[" a "]" => m ((c.tc : Thread nD τ).loc a)

/-! ## After the first stretch -/

theorem b1_v1 :
    W1 m ρ c (Proc.devRef .tc main_v1) = srcRaw 𝔁[main_arg1] :=
  host0_v1 (W0 m ρ c)
theorem b1_v3 :
    W1 m ρ c (Proc.devRef .tc main_v3) = dstRaw 𝔁[main_arg1] :=
  host0_v3 (W0 m ρ c)
theorem b1_v12 :
    W1 m ρ c (Proc.devRef .tc main_v12) = invDeg 𝔁[main_arg1] :=
  host0_v12 (W0 m ρ c)
theorem b1_v21 :
    W1 m ρ c (Proc.devRef .tc main_v21) = invCnt 𝔁[main_arg2] :=
  host0_v21 (W0 m ρ c)
theorem b1_arg0 :
    W1 m ρ c (Proc.devRef .tc main_arg0) = 𝔁[main_arg0] :=
  keep0 (W0 m ρ c) (by decide)
theorem b1_arg2 :
    W1 m ρ c (Proc.devRef .tc main_arg2) = 𝔁[main_arg2] :=
  keep0 (W0 m ρ c) (by decide)
theorem b1_arg3 :
    W1 m ρ c (Proc.devRef .tc main_arg3) = 𝔁[main_arg3] :=
  keep0 (W0 m ρ c) (by decide)
theorem b1_arg4 :
    W1 m ρ c (Proc.devRef .tc main_arg4) = 𝔁[main_arg4] :=
  keep0 (W0 m ρ c) (by decide)
theorem b1_arg5 :
    W1 m ρ c (Proc.devRef .tc main_arg5) = 𝔁[main_arg5] :=
  keep0 (W0 m ρ c) (by decide)
theorem b1_arg6 :
    W1 m ρ c (Proc.devRef .tc main_arg6) = 𝔁[main_arg6] :=
  keep0 (W0 m ρ c) (by decide)
theorem b1_arg7 :
    W1 m ρ c (Proc.devRef .tc main_arg7) = 𝔁[main_arg7] :=
  keep0 (W0 m ρ c) (by decide)
theorem b1_arg8 :
    W1 m ρ c (Proc.devRef .tc main_arg8) = 𝔁[main_arg8] :=
  keep0 (W0 m ρ c) (by decide)

/-! ## After the first dense stage: its result array holds the projected rows; its operand arrays and every other
    buffer hold what they held -/

theorem b2_arg0 :
    W2 m ρ c (Proc.devRef .tc main_arg0) = 𝔁[main_arg0] :=
  ((W2_arr m ρ c 0).trans (((dat0 (V1 m ρ) c).arrAt_in 0 rfl _).trans (A_eq0 (V1 m ρ) c 0))).trans (b1_arg0 m ρ c)
theorem b2_v22 (T0 : RegionFact0) :
    W2 m ρ c (Proc.devRef .tc main_v22) = Cert.Gnn.proj 𝔁[main_arg0] 𝔁[main_arg3] :=
  (W2_arr m ρ c 2).trans ((T0 (V1 m ρ) c).trans (congr2 Cert.Gnn.proj (b1_arg0 m ρ c) (b1_arg3 m ρ c)))
theorem b2_v1 :
    W2 m ρ c (Proc.devRef .tc main_v1) = srcRaw 𝔁[main_arg1] :=
  (W2_of_ne m ρ c main_v1 (by decide)).trans (b1_v1 m ρ c)
theorem b2_v3 :
    W2 m ρ c (Proc.devRef .tc main_v3) = dstRaw 𝔁[main_arg1] :=
  (W2_of_ne m ρ c main_v3 (by decide)).trans (b1_v3 m ρ c)
theorem b2_v12 :
    W2 m ρ c (Proc.devRef .tc main_v12) = invDeg 𝔁[main_arg1] :=
  (W2_of_ne m ρ c main_v12 (by decide)).trans (b1_v12 m ρ c)
theorem b2_v21 :
    W2 m ρ c (Proc.devRef .tc main_v21) = invCnt 𝔁[main_arg2] :=
  (W2_of_ne m ρ c main_v21 (by decide)).trans (b1_v21 m ρ c)
theorem b2_arg2 :
    W2 m ρ c (Proc.devRef .tc main_arg2) = 𝔁[main_arg2] :=
  (W2_of_ne m ρ c main_arg2 (by decide)).trans (b1_arg2 m ρ c)
theorem b2_arg4 :
    W2 m ρ c (Proc.devRef .tc main_arg4) = 𝔁[main_arg4] :=
  (W2_of_ne m ρ c main_arg4 (by decide)).trans (b1_arg4 m ρ c)
theorem b2_arg5 :
    W2 m ρ c (Proc.devRef .tc main_arg5) = 𝔁[main_arg5] :=
  (W2_of_ne m ρ c main_arg5 (by decide)).trans (b1_arg5 m ρ c)
theorem b2_arg6 :
    W2 m ρ c (Proc.devRef .tc main_arg6) = 𝔁[main_arg6] :=
  (W2_of_ne m ρ c main_arg6 (by decide)).trans (b1_arg6 m ρ c)
theorem b2_arg7 :
    W2 m ρ c (Proc.devRef .tc main_arg7) = 𝔁[main_arg7] :=
  (W2_of_ne m ρ c main_arg7 (by decide)).trans (b1_arg7 m ρ c)
theorem b2_arg8 :
    W2 m ρ c (Proc.devRef .tc main_arg8) = 𝔁[main_arg8] :=
  (W2_of_ne m ρ c main_arg8 (by decide)).trans (b1_arg8 m ρ c)

/-! ## After the second stretch: the mean over the arriving edges of the projected rows -/

theorem b3_v34 (T0 : RegionFact0) :
    W3 m ρ c (Proc.devRef .tc main_v34) = aggK (Cert.Gnn.proj 𝔁[main_arg0] 𝔁[main_arg3]) 𝔁[main_arg1] :=
  (host1_v34 (W2 m ρ c)).trans ((congr4 aggOf (b2_v22 m ρ c T0) (b2_v1 m ρ c) (b2_v3 m ρ c) (b2_v12 m ρ c)).trans (aggK_eq _ _).symm)
theorem b3_arg0 :
    W3 m ρ c (Proc.devRef .tc main_arg0) = 𝔁[main_arg0] :=
  (keep1 (W2 m ρ c) (by decide)).trans (b2_arg0 m ρ c)
theorem b3_arg4 :
    W3 m ρ c (Proc.devRef .tc main_arg4) = 𝔁[main_arg4] :=
  (keep1 (W2 m ρ c) (by decide)).trans (b2_arg4 m ρ c)
theorem b3_arg5 :
    W3 m ρ c (Proc.devRef .tc main_arg5) = 𝔁[main_arg5] :=
  (keep1 (W2 m ρ c) (by decide)).trans (b2_arg5 m ρ c)
theorem b3_v1 :
    W3 m ρ c (Proc.devRef .tc main_v1) = srcRaw 𝔁[main_arg1] :=
  (keep1 (W2 m ρ c) (by decide)).trans (b2_v1 m ρ c)
theorem b3_v3 :
    W3 m ρ c (Proc.devRef .tc main_v3) = dstRaw 𝔁[main_arg1] :=
  (keep1 (W2 m ρ c) (by decide)).trans (b2_v3 m ρ c)
theorem b3_v12 :
    W3 m ρ c (Proc.devRef .tc main_v12) = invDeg 𝔁[main_arg1] :=
  (keep1 (W2 m ρ c) (by decide)).trans (b2_v12 m ρ c)
theorem b3_v21 :
    W3 m ρ c (Proc.devRef .tc main_v21) = invCnt 𝔁[main_arg2] :=
  (keep1 (W2 m ρ c) (by decide)).trans (b2_v21 m ρ c)
theorem b3_arg2 :
    W3 m ρ c (Proc.devRef .tc main_arg2) = 𝔁[main_arg2] :=
  (keep1 (W2 m ρ c) (by decide)).trans (b2_arg2 m ρ c)
theorem b3_arg6 :
    W3 m ρ c (Proc.devRef .tc main_arg6) = 𝔁[main_arg6] :=
  (keep1 (W2 m ρ c) (by decide)).trans (b2_arg6 m ρ c)
theorem b3_arg7 :
    W3 m ρ c (Proc.devRef .tc main_arg7) = 𝔁[main_arg7] :=
  (keep1 (W2 m ρ c) (by decide)).trans (b2_arg7 m ρ c)
theorem b3_arg8 :
    W3 m ρ c (Proc.devRef .tc main_arg8) = 𝔁[main_arg8] :=
  (keep1 (W2 m ρ c) (by decide)).trans (b2_arg8 m ρ c)

/-! ## After the second dense stage: the first layer's rows -/

theorem b4_v35 (T0 : RegionFact0) (T1 : RegionFact1) :
    W4 m ρ c (Proc.devRef .tc main_v35) = h1K 𝔁[main_arg0] 𝔁[main_arg1] 𝔁[main_arg3] 𝔁[main_arg4] 𝔁[main_arg5] :=
  (W4_arr m ρ c 4).trans ((T1 (V3 m ρ) c).trans (congr4 Cert.Gnn.layer (b3_v34 m ρ c T0) (b3_arg4 m ρ c) (b3_arg0 m ρ c) (b3_arg5 m ρ c)))
theorem b4_v1 :
    W4 m ρ c (Proc.devRef .tc main_v1) = srcRaw 𝔁[main_arg1] :=
  (W4_of_ne m ρ c main_v1 (by decide)).trans (b3_v1 m ρ c)
theorem b4_v3 :
    W4 m ρ c (Proc.devRef .tc main_v3) = dstRaw 𝔁[main_arg1] :=
  (W4_of_ne m ρ c main_v3 (by decide)).trans (b3_v3 m ρ c)
theorem b4_v12 :
    W4 m ρ c (Proc.devRef .tc main_v12) = invDeg 𝔁[main_arg1] :=
  (W4_of_ne m ρ c main_v12 (by decide)).trans (b3_v12 m ρ c)
theorem b4_v21 :
    W4 m ρ c (Proc.devRef .tc main_v21) = invCnt 𝔁[main_arg2] :=
  (W4_of_ne m ρ c main_v21 (by decide)).trans (b3_v21 m ρ c)
theorem b4_arg2 :
    W4 m ρ c (Proc.devRef .tc main_arg2) = 𝔁[main_arg2] :=
  (W4_of_ne m ρ c main_arg2 (by decide)).trans (b3_arg2 m ρ c)
theorem b4_arg6 :
    W4 m ρ c (Proc.devRef .tc main_arg6) = 𝔁[main_arg6] :=
  (W4_of_ne m ρ c main_arg6 (by decide)).trans (b3_arg6 m ρ c)
theorem b4_arg7 :
    W4 m ρ c (Proc.devRef .tc main_arg7) = 𝔁[main_arg7] :=
  (W4_of_ne m ρ c main_arg7 (by decide)).trans (b3_arg7 m ρ c)
theorem b4_arg8 :
    W4 m ρ c (Proc.devRef .tc main_arg8) = 𝔁[main_arg8] :=
  (W4_of_ne m ρ c main_arg8 (by decide)).trans (b3_arg8 m ρ c)

end Cert.KernelIdeal.KVal

end
-- ==== Proof.KChainB.lean ====
/-
  The idealized kernel program's result as one function of its thirteen arguments.

  The walk through the entry function's fold continues from the first layer's rows: the third stretch forms their
  mean over each graph and their mean over the arriving edges; the third dense stage leaves the second layer's rows;
  the fourth stretch forms their mean over each graph and joins the two pooled blocks side by side; the fourth dense
  stage applies the classifier body. What the result buffer holds at the last boundary is therefore the composition
  of these functions at the launch contents of the argument buffers, given what each dense stage leaves in its
  result array.
-/
import proofs.«136951_j35622458753573_2_alg».proof.Proof.KChainA

noncomputable section

namespace Cert.KernelIdeal.KVal

open Idealize.ShloMosaic Idealize.ShloMosaic.TcCoe Idealize.ShloMosaic.StableHlo
open Idealize.SL.Sem
open Cert.KernelIdeal Cert.KernelIdeal.Gen

variable (m : (ℓ : Loc nD τ sig) → Buf (Elt Ideal) ℓ) (ρ : Dev nD → PrngReg) (c : Dev nD)

-- an argument buffer's contents at the launch
set_option quotPrecheck false in
local notation "𝔁[" a "]" => m ((c.tc : Thread nD τ).loc a)

/-! ## After the third stretch -/

theorem b5_v40 (T0 : RegionFact0) (T1 : RegionFact1) :
    W5 m ρ c (Proc.devRef .tc main_v40) = poolK (h1K 𝔁[main_arg0] 𝔁[main_arg1] 𝔁[main_arg3] 𝔁[main_arg4] 𝔁[main_arg5]) 𝔁[main_arg2] :=
  (host2_v40 (W4 m ρ c)).trans ((congr3 poolOf (b4_v35 m ρ c T0 T1) (b4_arg2 m ρ c) (b4_v21 m ρ c)).trans (poolK_eq _ _).symm)
theorem b5_v52 (T0 : RegionFact0) (T1 : RegionFact1) :
    W5 m ρ c (Proc.devRef .tc main_v52) = aggK (h1K 𝔁[main_arg0] 𝔁[main_arg1] 𝔁[main_arg3] 𝔁[main_arg4] 𝔁[main_arg5]) 𝔁[main_arg1] :=
  (host2_v52 (W4 m ρ c)).trans ((congr4 aggOf (b4_v35 m ρ c T0 T1) (b4_v1 m ρ c) (b4_v3 m ρ c) (b4_v12 m ρ c)).trans (aggK_eq _ _).symm)
theorem b5_v35 (T0 : RegionFact0) (T1 : RegionFact1) :
    W5 m ρ c (Proc.devRef .tc main_v35) = h1K 𝔁[main_arg0] 𝔁[main_arg1] 𝔁[main_arg3] 𝔁[main_arg4] 𝔁[main_arg5] :=
  (keep2 (W4 m ρ c) (by decide)).trans (b4_v35 m ρ c T0 T1)
theorem b5_v21 :
    W5 m ρ c (Proc.devRef .tc main_v21) = invCnt 𝔁[main_arg2] :=
  (keep2 (W4 m ρ c) (by decide)).trans (b4_v21 m ρ c)
theorem b5_arg2 :
    W5 m ρ c (Proc.devRef .tc main_arg2) = 𝔁[main_arg2] :=
  (keep2 (W4 m ρ c) (by decide)).trans (b4_arg2 m ρ c)
theorem b5_arg6 :
    W5 m ρ c (Proc.devRef .tc main_arg6) = 𝔁[main_arg6] :=
  (keep2 (W4 m ρ c) (by decide)).trans (b4_arg6 m ρ c)
theorem b5_arg7 :
    W5 m ρ c (Proc.devRef .tc main_arg7) = 𝔁[main_arg7] :=
  (keep2 (W4 m ρ c) (by decide)).trans (b4_arg7 m ρ c)
theorem b5_arg8 :
    W5 m ρ c (Proc.devRef .tc main_arg8) = 𝔁[main_arg8] :=
  (keep2 (W4 m ρ c) (by decide)).trans (b4_arg8 m ρ c)

/-! ## After the third dense stage: the second layer's rows -/

theorem b6_v53 (T0 : RegionFact0) (T1 : RegionFact1) (T2 : RegionFact2) :
    W6 m ρ c (Proc.devRef .tc main_v53) = h2K (h1K 𝔁[main_arg0] 𝔁[main_arg1] 𝔁[main_arg3] 𝔁[main_arg4] 𝔁[main_arg5]) 𝔁[main_arg1] 𝔁[main_arg6] 𝔁[main_arg7] 𝔁[main_arg8] :=
  (W6_arr m ρ c 5).trans ((T2 (V5 m ρ) c).trans (congr4 Cert.Gnn.layer (congr2 Cert.Gnn.proj (b5_v52 m ρ c T0 T1) (b5_arg6 m ρ c)) (b5_arg7 m ρ c) (b5_v35 m ρ c T0 T1) (b5_arg8 m ρ c)))
theorem b6_v40 (T0 : RegionFact0) (T1 : RegionFact1) :
    W6 m ρ c (Proc.devRef .tc main_v40) = poolK (h1K 𝔁[main_arg0] 𝔁[main_arg1] 𝔁[main_arg3] 𝔁[main_arg4] 𝔁[main_arg5]) 𝔁[main_arg2] :=
  (W6_of_ne m ρ c main_v40 (by decide)).trans (b5_v40 m ρ c T0 T1)
theorem b6_v21 :
    W6 m ρ c (Proc.devRef .tc main_v21) = invCnt 𝔁[main_arg2] :=
  (W6_of_ne m ρ c main_v21 (by decide)).trans (b5_v21 m ρ c)
theorem b6_arg2 :
    W6 m ρ c (Proc.devRef .tc main_arg2) = 𝔁[main_arg2] :=
  (W6_of_ne m ρ c main_arg2 (by decide)).trans (b5_arg2 m ρ c)

/-! ## After the fourth stretch: the two pooled blocks side by side; the classifier's four weight arrays, which the
    fourth dense stage only reads, hold at its entry what they hold at its exit -/

theorem b7_v59 (T0 : RegionFact0) (T1 : RegionFact1) (T2 : RegionFact2) :
    W7 m ρ c (Proc.devRef .tc main_v59) = pooled (h1K 𝔁[main_arg0] 𝔁[main_arg1] 𝔁[main_arg3] 𝔁[main_arg4] 𝔁[main_arg5]) (h2K (h1K 𝔁[main_arg0] 𝔁[main_arg1] 𝔁[main_arg3] 𝔁[main_arg4] 𝔁[main_arg5]) 𝔁[main_arg1] 𝔁[main_arg6] 𝔁[main_arg7] 𝔁[main_arg8]) 𝔁[main_arg2] :=
  (host3_v59 (W6 m ρ c)).trans ((congr2 catOf (b6_v40 m ρ c T0 T1) ((congr3 poolOf (b6_v53 m ρ c T0 T1 T2) (b6_arg2 m ρ c) (b6_v21 m ρ c)).trans (poolK_eq _ _).symm)).trans (pooled_eq _ _ _).symm)
theorem b7_arg9 :
    W7 m ρ c (Proc.devRef .tc main_arg9) = 𝔁[main_arg9] :=
  ((W8_arr m ρ c 1).trans (((dat3 (V7 m ρ) c).arrAt_in 1 rfl _).trans (A_eq3 (V7 m ρ) c 1))).symm.trans (W8_main_arg9 m ρ c)
theorem b7_arg10 :
    W7 m ρ c (Proc.devRef .tc main_arg10) = 𝔁[main_arg10] :=
  ((W8_arr m ρ c 2).trans (((dat3 (V7 m ρ) c).arrAt_in 2 rfl _).trans (A_eq3 (V7 m ρ) c 2))).symm.trans (W8_main_arg10 m ρ c)
theorem b7_arg11 :
    W7 m ρ c (Proc.devRef .tc main_arg11) = 𝔁[main_arg11] :=
  ((W8_arr m ρ c 3).trans (((dat3 (V7 m ρ) c).arrAt_in 3 rfl _).trans (A_eq3 (V7 m ρ) c 3))).symm.trans (W8_main_arg11 m ρ c)
theorem b7_arg12 :
    W7 m ρ c (Proc.devRef .tc main_arg12) = 𝔁[main_arg12] :=
  ((W8_arr m ρ c 4).trans (((dat3 (V7 m ρ) c).arrAt_in 4 rfl _).trans (A_eq3 (V7 m ρ) c 4))).symm.trans (W8_main_arg12 m ρ c)

/-! ## The result -/

/-- The result buffer at the last boundary holds the network's value at the launch contents of the thirteen argument
    buffers, given what each dense stage leaves in its result array. -/
theorem kernel_value
    (T0 : ∀ (V : (c : Dev nD) → (b : Ref sig .tc) → Buf (Elt Ideal) ((c : Thread nD τ).loc b)) (c : Dev nD),
      (Gen.dat0 (F := Ideal) V c).arrAt 2 cfg0.N
        = Cert.Gnn.proj (V c main_arg0) (V c main_arg3))
    (T1 : ∀ (V : (c : Dev nD) → (b : Ref sig .tc) → Buf (Elt Ideal) ((c : Thread nD τ).loc b)) (c : Dev nD),
      (Gen.dat1 (F := Ideal) V c).arrAt 4 cfg1.N
        = Cert.Gnn.layer (V c main_v34) (V c main_arg4) (V c main_arg0) (V c main_arg5))
    (T2 : ∀ (V : (c : Dev nD) → (b : Ref sig .tc) → Buf (Elt Ideal) ((c : Thread nD τ).loc b)) (c : Dev nD),
      (Gen.dat2 (F := Ideal) V c).arrAt 5 cfg2.N
        = Cert.Gnn.layer (Cert.Gnn.proj (V c main_v52) (V c main_arg6)) (V c main_arg7) (V c main_v35) (V c main_arg8))
    (T3 : ∀ (V : (c : Dev nD) → (b : Ref sig .tc) → Buf (Elt Ideal) ((c : Thread nD τ).loc b)) (c : Dev nD),
      (Gen.dat3 (F := Ideal) V c).arrAt 5 cfg3.N
        = Gen.k3_pay1 (F := Ideal) (V c main_v59) (V c main_arg9) (V c main_arg10) (V c main_arg11) (V c main_arg12))
    (m : (ℓ : Loc nD τ sig) → Buf (Elt Ideal) ℓ) (ρ : Dev nD → PrngReg) (c : Dev nD) :
    Gen.W8 m ρ c (Proc.devRef .tc main_v60)
      = outK (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12)) :=
  (W8_arr m ρ c 5).trans ((T3 (V7 m ρ) c).trans
    (congr5 (Gen.k3_pay1 (F := Ideal)) (b7_v59 m ρ c T0 T1 T2) (b7_arg9 m ρ c) (b7_arg10 m ρ c) (b7_arg11 m ρ c)
      (b7_arg12 m ρ c)))

end Cert.KernelIdeal.KVal

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.RegionPayload.lean ====
/-
  The arithmetic of the three row-tiled kernels on one block of rows, as the dense pieces of the graph network.

  Each kernel's body loads whole staging buffers, rounds the matrix operands to bf16 (the identity over the extended
  reals), multiplies on the matrix unit into a zero accumulator, adds a bias held as a one-row matrix broadcast over
  the rows, and cuts off below at zero. Read at an entry (p, q) of the block:
    * the projection kernel gives  Σ_k x (p, k) · w (k, q);
    * the epilogue kernel gives    max ((a (p, q) + b q) + Σ_k x (p, k) · w (k, q)) 0;
    * the dense kernel gives       max ((Σ_k a (p, k) · wr (k, q) + b q) + Σ_k h (p, k) · wo (k, q)) 0,
  which are the specification's `proj` and `layer` at the block's extents.

  Both specification functions read the row-tiled operands only through the entry's own row, so a block of rows of the
  whole-array result is the same function of the matching rows of the operands (`proj_block`, `layer_block`).
-/
import proofs.«136951_j35622458753573_2_alg».proof.Proof.Gen.KernelIdeal.Skeleton
import proofs.«136951_j35622458753573_2_alg».proof.Proof.LibMatmulPlain
import proofs.«136951_j35622458753573_2_alg».proof.Proof.Spec
import Idealize.ShloMosaic.Lib.ValueLayout
import Idealize.ShloMosaic.Lib.Pipeline.Value

noncomputable section

open scoped BigOperators

namespace Cert.KernelIdeal.RegionValue

open Cert.KernelIdeal Cert.KernelIdeal.Gen Idealize.ShloMosaic Idealize.ShloMosaic.ValueIdx

/-! ## Zero offsets -/

/-- The offsets of an access to a whole buffer, as printed, are all zero. -/
theorem hz2 : (![0, 0] : Fin 2 → Nat) = fun _ => 0 := funext fun a => by fin_cases a <;> rfl
theorem hz1 : (![0] : Fin 1 → Nat) = fun _ => 0 := funext fun a => by fin_cases a; rfl

/-! ## Rows of the specification functions -/

section Blocks

variable {M K N m : Nat}

/-- An entry of a product of a block of rows is the entry of the whole product whose row and column hold the same
    operand entries. -/
theorem proj_block (X : FVec Ideal ⟨2, ![M, K]⟩ .f32) (W : FVec Ideal ⟨2, ![K, N]⟩ .f32)
    (x : FVec Ideal ⟨2, ![m, K]⟩ .f32) (w : FVec Ideal ⟨2, ![K, N]⟩ .f32)
    (j : (⟨2, ![m, N]⟩ : Shape).Idx) (i : (⟨2, ![M, N]⟩ : Shape).Idx)
    (hx : ∀ k : Fin K, x (ix2 (j 0) k) = X (ix2 (i 0) k))
    (hw : ∀ k : Fin K, w (ix2 k (j 1)) = W (ix2 k (i 1))) :
    Cert.Gnn.proj x w j = Cert.Gnn.proj X W i :=
  Finset.sum_congr rfl fun k _ => by rw [hx k, hw k]

/-- The same for a layer's dense part: the aggregated entry, the bias at the column, the row and the column. -/
theorem layer_block (P : FVec Ideal ⟨2, ![M, N]⟩ .f32) (b : FVec Ideal ⟨1, ![N]⟩ .f32)
    (X : FVec Ideal ⟨2, ![M, K]⟩ .f32) (W : FVec Ideal ⟨2, ![K, N]⟩ .f32)
    (p : FVec Ideal ⟨2, ![m, N]⟩ .f32) (b' : FVec Ideal ⟨1, ![N]⟩ .f32)
    (x : FVec Ideal ⟨2, ![m, K]⟩ .f32) (w : FVec Ideal ⟨2, ![K, N]⟩ .f32)
    (j : (⟨2, ![m, N]⟩ : Shape).Idx) (i : (⟨2, ![M, N]⟩ : Shape).Idx)
    (hp : p j = P i) (hb : b' (ix1 (j 1)) = b (ix1 (i 1)))
    (hx : ∀ k : Fin K, x (ix2 (j 0) k) = X (ix2 (i 0) k))
    (hw : ∀ k : Fin K, w (ix2 k (j 1)) = W (ix2 k (i 1))) :
    Cert.Gnn.layer p b' x w j = Cert.Gnn.layer P b X W i := by
  have hs : (∑ k : Fin K, x (ix2 (j 0) k) * w (ix2 k (j 1))) = ∑ k : Fin K, X (ix2 (i 0) k) * W (ix2 k (i 1)) :=
    Finset.sum_congr rfl fun k _ => by rw [hx k, hw k]
  show max ((p j + b' (ix1 (j 1))) + ∑ k : Fin K, x (ix2 (j 0) k) * w (ix2 k (j 1))) 0
    = max ((P i + b (ix1 (i 1))) + ∑ k : Fin K, X (ix2 (i 0) k) * W (ix2 k (i 1))) 0
  rw [hp, hb, hs]

end Blocks

/-! ## The kernels' arithmetic on a block -/

/-- The printed dimension numbers are those of a plain product. -/
theorem dot_5000_128_64 : dot_S5000x128_S128x64_S5000x64_1_0_0_1_n_n = DotDims.plain 5000 128 64 := rfl
theorem dot_5000_64_64 : dot_S5000x64_S64x64_S5000x64_1_0_0_1_n_n = DotDims.plain 5000 64 64 := rfl

/-- The projection kernel's stored value: the block of rows times the weight matrix. -/
theorem pay0_eq (x : Vec Ideal S5000x128 .f32) (w : Vec Ideal S128x64 .f32) :
    k0_pay1 (F := Ideal) x w = Cert.Gnn.proj x w := by
  funext j
  obtain ⟨p, q, rfl⟩ : ∃ (p : Fin 5000) (q : Fin 64), j = ix2 p q := ⟨j 0, j 1, eq_ix2 j⟩
  unfold k0_pay1
  exact MatmulPlain.matmul_zero_apply (M := 5000) (K := 128) (N := 64) none
    (truncf .bf16 x bitsLt_bf16_f32) (truncf .bf16 w bitsLt_bf16_f32) (ix2 p q)

/-- The bias vector, held as one row and broadcast over the block's rows, read at an entry: the bias at the column. -/
theorem bias_apply (b : Vec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply (a := 5000) (b := 64) (shapeCast S1x64 b shapeCasts_S64_S1x64) broadcasts_S1x64_S5000x64 p q).trans
    (shapeCast_a_1a_apply (a := 64) b shapeCasts_S64_S1x64 (0 : Fin 1) q)

/-- The epilogue kernel's stored value: the aggregated block plus the bias plus the block of rows times the root
    weights, cut off below at zero. -/
theorem pay1_eq (a : Vec Ideal S5000x64 .f32) (x : Vec Ideal S5000x128 .f32) (w : Vec Ideal S128x64 .f32)
    (b : Vec Ideal S64 .f32) : k1_pay1 (F := Ideal) a x w b = Cert.Gnn.layer a b x w := by
  funext j
  obtain ⟨p, q, rfl⟩ : ∃ (p : Fin 5000) (q : Fin 64), j = ix2 p q := ⟨j 0, j 1, eq_ix2 j⟩
  unfold k1_pay1
  show max ((shapeCast S5000x64 a shapeCasts_S5000x64_S5000x64 (ix2 p q)
        + broadcastTo S5000x64 (shapeCast S1x64 b shapeCasts_S64_S1x64) broadcasts_S1x64_S5000x64 (ix2 p q))
        + matmul dot_S5000x128_S128x64_S5000x64_1_0_0_1_n_n none (truncf .bf16 x bitsLt_bf16_f32)
            (truncf .bf16 w bitsLt_bf16_f32) (constant (F := Ideal) S5000x64 .f32 0x00000000#32) (ix2 p q))
      (Ideal.ofBits .f32 0x00000000#32) = _
  rw [shapeCast_self, bias_apply, Ideal.ofBits_zero_f32,
    show matmul dot_S5000x128_S128x64_S5000x64_1_0_0_1_n_n none (truncf .bf16 x bitsLt_bf16_f32)
        (truncf .bf16 w bitsLt_bf16_f32) (constant (F := Ideal) S5000x64 .f32 0x00000000#32) (ix2 p q)
      = ∑ k : Fin 128, x (ix2 p k) * w (ix2 k q) from
      MatmulPlain.matmul_zero_apply (M := 5000) (K := 128) (N := 64) none
        (truncf .bf16 x bitsLt_bf16_f32) (truncf .bf16 w bitsLt_bf16_f32) (ix2 p q)]
  rfl

/-- The dense kernel's stored value: the aggregated block times the neighbour weights, plus the bias, plus the block of
    node rows times the root weights, cut off below at zero. -/
theorem pay2_eq (a h : Vec Ideal S5000x64 .f32) (wr wo : Vec Ideal S64x64 .f32) (b : Vec Ideal S64 .f32) :
    k2_pay1 (F := Ideal) a h wr wo b = Cert.Gnn.layer (Cert.Gnn.proj a wr) b h wo := by
  funext j
  obtain ⟨p, q, rfl⟩ : ∃ (p : Fin 5000) (q : Fin 64), j = ix2 p q := ⟨j 0, j 1, eq_ix2 j⟩
  unfold k2_pay1
  show max ((matmul dot_S5000x64_S64x64_S5000x64_1_0_0_1_n_n none
            (truncf .bf16 (shapeCast S5000x64 a shapeCasts_S5000x64_S5000x64) bitsLt_bf16_f32)
            (truncf .bf16 wr bitsLt_bf16_f32) (constant (F := Ideal) S5000x64 .f32 0x00000000#32) (ix2 p q)
        + broadcastTo S5000x64 (shapeCast S1x64 b shapeCasts_S64_S1x64) broadcasts_S1x64_S5000x64 (ix2 p q))
        + matmul dot_S5000x64_S64x64_S5000x64_1_0_0_1_n_n none
            (truncf .bf16 (shapeCast S5000x64 h shapeCasts_S5000x64_S5000x64) bitsLt_bf16_f32)
            (truncf .bf16 wo bitsLt_bf16_f32) (constant (F := Ideal) S5000x64 .f32 0x00000000#32) (ix2 p q))
      (Ideal.ofBits .f32 0x00000000#32) = _
  rw [shapeCast_self, shapeCast_self, bias_apply, Ideal.ofBits_zero_f32,
    show matmul dot_S5000x64_S64x64_S5000x64_1_0_0_1_n_n none (truncf .bf16 a bitsLt_bf16_f32)
        (truncf .bf16 wr bitsLt_bf16_f32) (constant (F := Ideal) S5000x64 .f32 0x00000000#32) (ix2 p q)
      = ∑ k : Fin 64, a (ix2 p k) * wr (ix2 k q) from
      MatmulPlain.matmul_zero_apply (M := 5000) (K := 64) (N := 64) none
        (truncf .bf16 a bitsLt_bf16_f32) (truncf .bf16 wr bitsLt_bf16_f32) (ix2 p q),
    show matmul dot_S5000x64_S64x64_S5000x64_1_0_0_1_n_n none (truncf .bf16 h bitsLt_bf16_f32)
        (truncf .bf16 wo bitsLt_bf16_f32) (constant (F := Ideal) S5000x64 .f32 0x00000000#32) (ix2 p q)
      = ∑ k : Fin 64, h (ix2 p k) * wo (ix2 k q) from
      MatmulPlain.matmul_zero_apply (M := 5000) (K := 64) (N := 64) none
        (truncf .bf16 h bitsLt_bf16_f32) (truncf .bf16 wo bitsLt_bf16_f32) (ix2 p q)]
  rfl

end Cert.KernelIdeal.RegionValue

end
-- ==== Proof.Region0.lean ====
/-
  Region 0, the projection kernel: the result array after the region's ten grid points.

  The grid has ten points. At point t the kernel reads rows 5000 t … 5000 t + 4999 of the node-feature array
  [50000, 128] and the whole weight matrix [128, 64], and writes rows 5000 t … 5000 t + 4999 of the result
  [50000, 64]. An entry of a product depends on the left operand only through the entry's row, so what point t
  writes back is its block of rows of the product of the WHOLE arrays; the ten blocks of rows tile the result (row r
  is in the block of point r / 5000), so the result array ends holding that product. The contents of the buffers when
  the region is entered are a parameter.
-/
import proofs.«136951_j35622458753573_2_alg».proof.Proof.Gen.KernelIdeal.Frame
import proofs.«136951_j35622458753573_2_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The index maps -/

/-- The printed index maps over the ten grid points: the row-tiled windows are at block row t, block column 0; the
    weight matrix is at block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The input blocks as parts of their arrays -/

/-- Window 0's block at point t is rows 5000 t … 5000 t + 4999 of the node-feature array. -/
theorem rd0_0 (c : Dev nD) (t : Fin cfg0.N) (x : S5000x128.Idx) (i : S50000x128.Idx)
    (h0 : (i 0).val = 5000 * t.val + (x 0).val) (h1 : (i 1).val = (x 1).val) :
    (iblk0 V c 0 t : Vec Ideal S5000x128 .f32) x = (V c main_arg0 : FVec Ideal S50000x128 .f32) i := by
  obtain ⟨e0, e1, -⟩ := idx0 t
  show (V c main_arg0 : FVec Ideal S50000x128 .f32) (((cfg0.win 0).blk t).view.emb x) = _
  refine congrArg (V c main_arg0 : FVec Ideal S50000x128 .f32) (funext fun a => Fin.ext ?_)
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- Window 1's block at every point is the whole weight matrix. -/
theorem rd0_1 (c : Dev nD) (t : Fin cfg0.N) (x : S128x64.Idx) (i : S128x64.Idx)
    (h0 : (i 0).val = (x 0).val) (h1 : (i 1).val = (x 1).val) :
    (iblk0 V c 1 t : Vec Ideal S128x64 .f32) x = (V c main_arg3 : FVec Ideal S128x64 .f32) i := by
  obtain ⟨-, -, e2, e3, -⟩ := idx0 t
  show (V c main_arg3 : FVec Ideal S128x64 .f32) (((cfg0.win 1).blk t).view.emb x) = _
  refine congrArg (V c main_arg3 : FVec Ideal S128x64 .f32) (funext fun a => Fin.ext ?_)
  match a with
  | ⟨0, _⟩ => show win0_1.index t (0 : Fin 2) * 128 + 1 * (x 0).val = (i 0).val; rw [e2, h0]; omega
  | ⟨1, _⟩ => show win0_1.index t (1 : Fin 2) * 64 + 1 * (x 1).val = (i 1).val; rw [e3, h1]; omega

/-! ## What a point writes back -/

/-- Point t writes back its block of rows of the product of the whole arrays. -/
theorem flushed0 (c : Dev nD) (t : Fin cfg0.N) :
    (dat0 (F := Ideal) V c).flushed 2 t = ((cfg0.win 2).blk t).view.read (Elt Ideal)
      (Cert.Gnn.proj (V c main_arg0 : FVec Ideal S50000x128 .f32) (V c main_arg3 : FVec Ideal S128x64 .f32)) := by
  show (cfg0.win 2).cut (grid0.coords t) ((dat0 V c).after 2 t) = _
  rw [after0_2]
  unfold out0_2
  rw [View.canon_unit_zero hz2]
  simp only [View.ld_unit_zero (S := S5000x128) hz2, View.ld_unit_zero (S := S128x64) hz2]
  rw [pay0_eq]
  obtain ⟨-, -, -, -, e4, e5⟩ := idx0 t
  funext j
  show Cert.Gnn.proj (M := 5000) (K := 128) (N := 64) (iblk0 V c 0 t) (iblk0 V c 1 t) ((cfg0.win 2).xinj (grid0.coords t) j)
    = Cert.Gnn.proj (M := 50000) (K := 128) (N := 64) (V c main_arg0) (V c main_arg3) (((cfg0.win 2).blk t).view.emb j)
  refine proj_block (M := 50000) (K := 128) (N := 64) (m := 5000) (V c main_arg0) (V c main_arg3)
    (iblk0 V c 0 t) (iblk0 V c 1 t) ((cfg0.win 2).xinj (grid0.coords t) j) (((cfg0.win 2).blk t).view.emb j)
    (fun k => ?_) (fun k => ?_)
  · refine rd0_0 V c t _ _ ?_ rfl
    show win0_2.index t (0 : Fin 2) * 5000 + 1 * (j 0).val = 5000 * t.val + (j 0).val
    rw [e4]; omega
  · refine rd0_1 V c t _ _ rfl ?_
    show win0_2.index t (1 : Fin 2) * 64 + 1 * (j 1).val = (j 1).val
    rw [e5]; omega

/-! ## The blocks tile the result -/

/-- An index of the result is in point t's block iff each coordinate is in the block's range on its axis. -/
theorem mem_blk0 (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v22).slice (win0_2.rect t)).set ↔ _
  rw [View.set_slice_whole, Rect.mem_set_unit]
  exact Iff.rfl

/-- Row r of the result is in the block of point r / 5000. -/
theorem cover0 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 10 := N_0
  obtain ⟨t, ht⟩ : ∃ t : Fin cfg0.N, t.val = (i 0).val / 5000 :=
    ⟨⟨(i 0).val / 5000, by show (i 0).val / 5000 < grid0.N; omega⟩, rfl⟩
  obtain ⟨-, -, -, -, e4, e5⟩ := idx0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [e4]; omega
  | ⟨1, _⟩ =>
    show win0_2.index t (1 : Fin 2) * 64 ≤ (i 1).val ∧ (i 1).val < win0_2.index t (1 : Fin 2) * 64 + 64
    rw [e5]; omega

/-! ## The result array -/

/-- After the region the result array holds the product of the node-feature array and the weight matrix, as the
    region found them. -/
theorem arr0 (c : Dev nD) :
    (dat0 (F := Ideal) V c).arrAt 2 cfg0.N
      = Cert.Gnn.proj (V c main_arg0 : FVec Ideal S50000x128 .f32) (V c main_arg3 : FVec Ideal S128x64 .f32) :=
  (dat0 (F := Ideal) V c).arrAt_eq_of_cover 2 _ (fun t _ => flushed0 V c t) cover0

end Cert.KernelIdeal.RegionValue

end
-- ==== Proof.Region1.lean ====
/-
  Region 1, the first layer's epilogue kernel: the result array after the region's ten grid points.

  At point t the kernel reads rows 5000 t … 5000 t + 4999 of the aggregated array [50000, 64] and of the
  node-feature array [50000, 128], the whole bias [64] and the whole root weight matrix [128, 64], and writes rows
  5000 t … 5000 t + 4999 of the result [50000, 64]. An entry of a layer's dense part depends on the row-tiled
  operands only through the entry's own row, so what point t writes back is its block of rows of the dense part of the
  WHOLE arrays; the ten blocks of rows tile the result, which therefore ends holding that dense part. The contents of
  the buffers when the region is entered are a parameter.
-/
import proofs.«136951_j35622458753573_2_alg».proof.Proof.Gen.KernelIdeal.Frame
import proofs.«136951_j35622458753573_2_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The index maps -/

/-- The printed index maps over the ten grid points, the output window first: the row-tiled windows are at block row t,
    block column 0; the bias and the weight matrix are at block 0. -/
theorem idx1 : ∀ t : Fin cfg1.N,
    win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0 :=
  (by decide +kernel : ∀ t : Fin grid1.N, _)

/-! ## The input blocks as parts of their arrays -/

/-- undefined -/
theorem rd1_0 (c : Dev nD) (t : Fin cfg1.N) (x : S5000x64.Idx) (i : S50000x64.Idx)
    (h0 : (i 0).val = 5000 * t.val + (x 0).val) (h1 : (i 1).val = (x 1).val) :
    (iblk1 V c 0 t : Vec Ideal S5000x64 .f32) x = (V c main_v34 : FVec Ideal S50000x64 .f32) i := by
  obtain ⟨-, -, e0, e1, -⟩ := idx1 t
  show (V c main_v34 : FVec Ideal S50000x64 .f32) (((cfg1.win 0).blk t).view.emb x) = _
  refine congrArg (V c main_v34 : FVec Ideal S50000x64 .f32) (funext fun a => Fin.ext ?_)
  match a with
  | ⟨0, _⟩ => show win1_0.index t (0 : Fin 2) * 5000 + 1 * (x 0).val = (i 0).val; rw [e0, h0]; omega
  | ⟨1, _⟩ => show win1_0.index t (1 : Fin 2) * 64 + 1 * (x 1).val = (i 1).val; rw [e1, h1]; omega

/-- undefined -/
theorem rd1_1 (c : Dev nD) (t : Fin cfg1.N) (x : S5000x128.Idx) (i : S50000x128.Idx)
    (h0 : (i 0).val = 5000 * t.val + (x 0).val) (h1 : (i 1).val = (x 1).val) :
    (iblk1 V c 1 t : Vec Ideal S5000x128 .f32) x = (V c main_arg0 : FVec Ideal S50000x128 .f32) i := by
  obtain ⟨-, -, -, -, e0, e1, -⟩ := idx1 t
  show (V c main_arg0 : FVec Ideal S50000x128 .f32) (((cfg1.win 1).blk t).view.emb x) = _
  refine congrArg (V c main_arg0 : FVec Ideal S50000x128 .f32) (funext fun a => Fin.ext ?_)
  match a with
  | ⟨0, _⟩ => show win1_1.index t (0 : Fin 2) * 5000 + 1 * (x 0).val = (i 0).val; rw [e0, h0]; omega
  | ⟨1, _⟩ => show win1_1.index t (1 : Fin 2) * 128 + 1 * (x 1).val = (i 1).val; rw [e1, h1]; omega

/-- Window 2's block at every point is the whole bias. -/
theorem rd1_2 (c : Dev nD) (t : Fin cfg1.N) (x : S64.Idx) (i : S64.Idx) (h0 : (i 0).val = (x 0).val) :
    (iblk1 V c 2 t : Vec Ideal S64 .f32) x = (V c main_arg4 : FVec Ideal S64 .f32) i := by
  obtain ⟨-, -, -, -, -, -, e0, -⟩ := idx1 t
  show (V c main_arg4 : FVec Ideal S64 .f32) (((cfg1.win 2).blk t).view.emb x) = _
  refine congrArg (V c main_arg4 : FVec Ideal S64 .f32) (funext fun a => Fin.ext ?_)
  match a with
  | ⟨0, _⟩ => show win1_2.index t (0 : Fin 1) * 64 + 1 * (x 0).val = (i 0).val; rw [e0, h0]; omega

/-- Window 3's block at every point is the whole root weight matrix. -/
theorem rd1_3 (c : Dev nD) (t : Fin cfg1.N) (x : S128x64.Idx) (i : S128x64.Idx)
    (h0 : (i 0).val = (x 0).val) (h1 : (i 1).val = (x 1).val) :
    (iblk1 V c 3 t : Vec Ideal S128x64 .f32) x = (V c main_arg5 : FVec Ideal S128x64 .f32) i := by
  obtain ⟨-, -, -, -, -, -, -, e0, e1⟩ := idx1 t
  show (V c main_arg5 : FVec Ideal S128x64 .f32) (((cfg1.win 3).blk t).view.emb x) = _
  refine congrArg (V c main_arg5 : FVec Ideal S128x64 .f32) (funext fun a => Fin.ext ?_)
  match a with
  | ⟨0, _⟩ => show win1_3.index t (0 : Fin 2) * 128 + 1 * (x 0).val = (i 0).val; rw [e0, h0]; omega
  | ⟨1, _⟩ => show win1_3.index t (1 : Fin 2) * 64 + 1 * (x 1).val = (i 1).val; rw [e1, h1]; omega

/-! ## What a point writes back -/

/-- Point t writes back its block of rows of the dense part of the whole arrays. -/
theorem flushed1 (c : Dev nD) (t : Fin cfg1.N) :
    (dat1 (F := Ideal) V c).flushed 4 t = ((cfg1.win 4).blk t).view.read (Elt Ideal)
      (Cert.Gnn.layer (V c main_v34 : FVec Ideal S50000x64 .f32) (V c main_arg4 : FVec Ideal S64 .f32)
        (V c main_arg0 : FVec Ideal S50000x128 .f32) (V c main_arg5 : FVec Ideal S128x64 .f32)) := by
  show (cfg1.win 4).cut (grid1.coords t) ((dat1 V c).after 4 t) = _
  rw [after1_4]
  unfold out1_4
  rw [View.canon_unit_zero hz2]
  simp only [View.ld_unit_zero (S := S5000x64) hz2, View.ld_unit_zero (S := S5000x128) hz2,
    View.ld_unit_zero (S := S128x64) hz2, View.ld_unit_zero (S := S64) hz1]
  rw [pay1_eq]
  obtain ⟨eo0, eo1, -⟩ := idx1 t
  funext j
  show Cert.Gnn.layer (M := 5000) (K := 128) (N := 64) (iblk1 V c 0 t) (iblk1 V c 2 t) (iblk1 V c 1 t) (iblk1 V c 3 t)
      ((cfg1.win 4).xinj (grid1.coords t) j)
    = Cert.Gnn.layer (M := 50000) (K := 128) (N := 64) (V c main_v34) (V c main_arg4) (V c main_arg0) (V c main_arg5)
      (((cfg1.win 4).blk t).view.emb j)
  have hr : ((((cfg1.win 4).blk t).view.emb j) 0).val = 5000 * t.val + (j 0).val := by
    show win1_4.index t (0 : Fin 2) * 5000 + 1 * (j 0).val = 5000 * t.val + (j 0).val
    rw [eo0]; omega
  have hc : ((((cfg1.win 4).blk t).view.emb j) 1).val = (j 1).val := by
    show win1_4.index t (1 : Fin 2) * 64 + 1 * (j 1).val = (j 1).val
    rw [eo1]; omega
  refine layer_block (M := 50000) (K := 128) (N := 64) (m := 5000) (V c main_v34) (V c main_arg4) (V c main_arg0)
    (V c main_arg5) (iblk1 V c 0 t) (iblk1 V c 2 t) (iblk1 V c 1 t) (iblk1 V c 3 t)
    ((cfg1.win 4).xinj (grid1.coords t) j) (((cfg1.win 4).blk t).view.emb j) ?_ ?_ (fun k => ?_) (fun k => ?_)
  · exact rd1_0 V c t _ _ hr hc
  · exact rd1_2 V c t _ _ hc
  · exact rd1_1 V c t _ _ hr rfl
  · exact rd1_3 V c t _ _ rfl hc

/-! ## The blocks tile the result -/

/-- An index of the result is in point t's block iff each coordinate is in the block's range on its axis. -/
theorem mem_blk1 (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v35).slice (win1_4.rect t)).set ↔ _
  rw [View.set_slice_whole, Rect.mem_set_unit]
  exact Iff.rfl

/-- Row r of the result is in the block of point r / 5000. -/
theorem cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : grid1.N = 10 := N_1
  obtain ⟨t, ht⟩ : ∃ t : Fin cfg1.N, t.val = (i 0).val / 5000 :=
    ⟨⟨(i 0).val / 5000, by show (i 0).val / 5000 < grid1.N; omega⟩, rfl⟩
  obtain ⟨eo0, eo1, -⟩ := idx1 t
  refine ⟨t, flush1_4 t, ?_⟩
  rw [mem_blk1]
  intro a
  match a with
  | ⟨0, _⟩ =>
    show win1_4.index t (0 : Fin 2) * 5000 ≤ (i 0).val ∧ (i 0).val < win1_4.index t (0 : Fin 2) * 5000 + 5000
    rw [eo0]; omega
  | ⟨1, _⟩ =>
    show win1_4.index t (1 : Fin 2) * 64 ≤ (i 1).val ∧ (i 1).val < win1_4.index t (1 : Fin 2) * 64 + 64
    rw [eo1]; omega

/-! ## The result array -/

/-- After the region the result array holds the layer's dense part of the aggregated array, the bias, the node-feature
    array and the root weight matrix, as the region found them. -/
theorem arr1 (c : Dev nD) :
    (dat1 (F := Ideal) V c).arrAt 4 cfg1.N
      = Cert.Gnn.layer (V c main_v34 : FVec Ideal S50000x64 .f32) (V c main_arg4 : FVec Ideal S64 .f32)
          (V c main_arg0 : FVec Ideal S50000x128 .f32) (V c main_arg5 : FVec Ideal S128x64 .f32) :=
  (dat1 (F := Ideal) V c).arrAt_eq_of_cover 4 _ (fun t _ => flushed1 V c t) cover1

end Cert.KernelIdeal.RegionValue

end
-- ==== Proof.Region2.lean ====
/-
  Region 2, the second layer's dense kernel: the result array after the region's ten grid points.

  At point t the kernel reads rows 5000 t … 5000 t + 4999 of the aggregated array [50000, 64] and of the first
  layer's output [50000, 64], the whole neighbour weight matrix [64, 64], the whole bias [64] and the whole root weight
  matrix [64, 64], and writes rows 5000 t … 5000 t + 4999 of the result [50000, 64]. The stored value is the layer's
  dense part whose aggregated term is itself a product (the aggregated rows times the neighbour weights). Both read
  the row-tiled operands only through the entry's own row, so what point t writes back is its block of rows of the
  dense part of the WHOLE arrays; the ten blocks of rows tile the result, which therefore ends holding that dense
  part. The contents of the buffers when the region is entered are a parameter.
-/
import proofs.«136951_j35622458753573_2_alg».proof.Proof.Gen.KernelIdeal.Frame
import proofs.«136951_j35622458753573_2_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The index maps -/

/-- The printed index maps over the ten grid points, the output window first: the row-tiled windows are at block row t,
    block column 0; the bias and the two weight matrices are at block 0. -/
theorem idx2 : ∀ t : Fin cfg2.N,
    win2_5.index t (0 : Fin 2) = t.val ∧ win2_5.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0 :=
  (by decide +kernel : ∀ t : Fin grid2.N, _)

/-! ## The input blocks as parts of their arrays -/

/-- undefined -/
theorem rd2_0 (c : Dev nD) (t : Fin cfg2.N) (x : S5000x64.Idx) (i : S50000x64.Idx)
    (h0 : (i 0).val = 5000 * t.val + (x 0).val) (h1 : (i 1).val = (x 1).val) :
    (iblk2 V c 0 t : Vec Ideal S5000x64 .f32) x = (V c main_v52 : FVec Ideal S50000x64 .f32) i := by
  obtain ⟨-, -, e0, e1, -⟩ := idx2 t
  show (V c main_v52 : FVec Ideal S50000x64 .f32) (((cfg2.win 0).blk t).view.emb x) = _
  refine congrArg (V c main_v52 : FVec Ideal S50000x64 .f32) (funext fun a => Fin.ext ?_)
  match a with
  | ⟨0, _⟩ => show win2_0.index t (0 : Fin 2) * 5000 + 1 * (x 0).val = (i 0).val; rw [e0, h0]; omega
  | ⟨1, _⟩ => show win2_0.index t (1 : Fin 2) * 64 + 1 * (x 1).val = (i 1).val; rw [e1, h1]; omega

/-- undefined -/
theorem rd2_1 (c : Dev nD) (t : Fin cfg2.N) (x : S5000x64.Idx) (i : S50000x64.Idx)
    (h0 : (i 0).val = 5000 * t.val + (x 0).val) (h1 : (i 1).val = (x 1).val) :
    (iblk2 V c 1 t : Vec Ideal S5000x64 .f32) x = (V c main_v35 : FVec Ideal S50000x64 .f32) i := by
  obtain ⟨-, -, -, -, e0, e1, -⟩ := idx2 t
  show (V c main_v35 : FVec Ideal S50000x64 .f32) (((cfg2.win 1).blk t).view.emb x) = _
  refine congrArg (V c main_v35 : FVec Ideal S50000x64 .f32) (funext fun a => Fin.ext ?_)
  match a with
  | ⟨0, _⟩ => show win2_1.index t (0 : Fin 2) * 5000 + 1 * (x 0).val = (i 0).val; rw [e0, h0]; omega
  | ⟨1, _⟩ => show win2_1.index t (1 : Fin 2) * 64 + 1 * (x 1).val = (i 1).val; rw [e1, h1]; omega

/-- Window 2's block at every point is the whole neighbour weight matrix. -/
theorem rd2_2 (c : Dev nD) (t : Fin cfg2.N) (x : S64x64.Idx) (i : S64x64.Idx)
    (h0 : (i 0).val = (x 0).val) (h1 : (i 1).val = (x 1).val) :
    (iblk2 V c 2 t : Vec Ideal S64x64 .f32) x = (V c main_arg6 : FVec Ideal S64x64 .f32) i := by
  obtain ⟨-, -, -, -, -, -, e0, e1, -⟩ := idx2 t
  show (V c main_arg6 : FVec Ideal S64x64 .f32) (((cfg2.win 2).blk t).view.emb x) = _
  refine congrArg (V c main_arg6 : FVec Ideal S64x64 .f32) (funext fun a => Fin.ext ?_)
  match a with
  | ⟨0, _⟩ => show win2_2.index t (0 : Fin 2) * 64 + 1 * (x 0).val = (i 0).val; rw [e0, h0]; omega
  | ⟨1, _⟩ => show win2_2.index t (1 : Fin 2) * 64 + 1 * (x 1).val = (i 1).val; rw [e1, h1]; omega

/-- Window 3's block at every point is the whole bias. -/
theorem rd2_3 (c : Dev nD) (t : Fin cfg2.N) (x : S64.Idx) (i : S64.Idx) (h0 : (i 0).val = (x 0).val) :
    (iblk2 V c 3 t : Vec Ideal S64 .f32) x = (V c main_arg7 : FVec Ideal S64 .f32) i := by
  obtain ⟨-, -, -, -, -, -, -, -, e0, -⟩ := idx2 t
  show (V c main_arg7 : FVec Ideal S64 .f32) (((cfg2.win 3).blk t).view.emb x) = _
  refine congrArg (V c main_arg7 : FVec Ideal S64 .f32) (funext fun a => Fin.ext ?_)
  match a with
  | ⟨0, _⟩ => show win2_3.index t (0 : Fin 1) * 64 + 1 * (x 0).val = (i 0).val; rw [e0, h0]; omega

/-- Window 4's block at every point is the whole root weight matrix. -/
theorem rd2_4 (c : Dev nD) (t : Fin cfg2.N) (x : S64x64.Idx) (i : S64x64.Idx)
    (h0 : (i 0).val = (x 0).val) (h1 : (i 1).val = (x 1).val) :
    (iblk2 V c 4 t : Vec Ideal S64x64 .f32) x = (V c main_arg8 : FVec Ideal S64x64 .f32) i := by
  obtain ⟨-, -, -, -, -, -, -, -, -, e0, e1⟩ := idx2 t
  show (V c main_arg8 : FVec Ideal S64x64 .f32) (((cfg2.win 4).blk t).view.emb x) = _
  refine congrArg (V c main_arg8 : FVec Ideal S64x64 .f32) (funext fun a => Fin.ext ?_)
  match a with
  | ⟨0, _⟩ => show win2_4.index t (0 : Fin 2) * 64 + 1 * (x 0).val = (i 0).val; rw [e0, h0]; omega
  | ⟨1, _⟩ => show win2_4.index t (1 : Fin 2) * 64 + 1 * (x 1).val = (i 1).val; rw [e1, h1]; omega

/-! ## What a point writes back -/

/-- Point t writes back its block of rows of the dense part of the whole arrays. -/
theorem flushed2 (c : Dev nD) (t : Fin cfg2.N) :
    (dat2 (F := Ideal) V c).flushed 5 t = ((cfg2.win 5).blk t).view.read (Elt Ideal)
      (Cert.Gnn.layer
        (Cert.Gnn.proj (V c main_v52 : FVec Ideal S50000x64 .f32) (V c main_arg6 : FVec Ideal S64x64 .f32))
        (V c main_arg7 : FVec Ideal S64 .f32) (V c main_v35 : FVec Ideal S50000x64 .f32)
        (V c main_arg8 : FVec Ideal S64x64 .f32)) := by
  show (cfg2.win 5).cut (grid2.coords t) ((dat2 V c).after 5 t) = _
  rw [after2_5]
  unfold out2_5
  rw [View.canon_unit_zero hz2]
  simp only [View.ld_unit_zero (S := S5000x64) hz2, View.ld_unit_zero (S := S64x64) hz2,
    View.ld_unit_zero (S := S64) hz1]
  rw [pay2_eq]
  obtain ⟨eo0, eo1, -⟩ := idx2 t
  funext j
  show Cert.Gnn.layer (M := 5000) (K := 64) (N := 64)
      (Cert.Gnn.proj (M := 5000) (K := 64) (N := 64) (iblk2 V c 0 t) (iblk2 V c 2 t))
      (iblk2 V c 3 t) (iblk2 V c 1 t) (iblk2 V c 4 t) ((cfg2.win 5).xinj (grid2.coords t) j)
    = Cert.Gnn.layer (M := 50000) (K := 64) (N := 64)
      (Cert.Gnn.proj (M := 50000) (K := 64) (N := 64) (V c main_v52) (V c main_arg6))
      (V c main_arg7) (V c main_v35) (V c main_arg8) (((cfg2.win 5).blk t).view.emb j)
  have hr : ((((cfg2.win 5).blk t).view.emb j) 0).val = 5000 * t.val + (j 0).val := by
    show win2_5.index t (0 : Fin 2) * 5000 + 1 * (j 0).val = 5000 * t.val + (j 0).val
    rw [eo0]; omega
  have hc : ((((cfg2.win 5).blk t).view.emb j) 1).val = (j 1).val := by
    show win2_5.index t (1 : Fin 2) * 64 + 1 * (j 1).val = (j 1).val
    rw [eo1]; omega
  refine layer_block (M := 50000) (K := 64) (N := 64) (m := 5000)
    (Cert.Gnn.proj (M := 50000) (K := 64) (N := 64) (V c main_v52) (V c main_arg6)) (V c main_arg7) (V c main_v35)
    (V c main_arg8) (Cert.Gnn.proj (M := 5000) (K := 64) (N := 64) (iblk2 V c 0 t) (iblk2 V c 2 t)) (iblk2 V c 3 t)
    (iblk2 V c 1 t) (iblk2 V c 4 t)
    ((cfg2.win 5).xinj (grid2.coords t) j) (((cfg2.win 5).blk t).view.emb j) ?_ ?_ (fun k => ?_) (fun k => ?_)
  · refine proj_block (M := 50000) (K := 64) (N := 64) (m := 5000) (V c main_v52) (V c main_arg6)
      (iblk2 V c 0 t) (iblk2 V c 2 t) ((cfg2.win 5).xinj (grid2.coords t) j) (((cfg2.win 5).blk t).view.emb j)
      (fun k => ?_) (fun k => ?_)
    · exact rd2_0 V c t _ _ hr rfl
    · exact rd2_2 V c t _ _ rfl hc
  · exact rd2_3 V c t _ _ hc
  · exact rd2_1 V c t _ _ hr rfl
  · exact rd2_4 V c t _ _ rfl hc

/-! ## The blocks tile the result -/

/-- An index of the result is in point t's block iff each coordinate is in the block's range on its axis. -/
theorem mem_blk2 (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v53).slice (win2_5.rect t)).set ↔ _
  rw [View.set_slice_whole, Rect.mem_set_unit]
  exact Iff.rfl

/-- Row r of the result is in the block of point r / 5000. -/
theorem cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : grid2.N = 10 := N_2
  obtain ⟨t, ht⟩ : ∃ t : Fin cfg2.N, t.val = (i 0).val / 5000 :=
    ⟨⟨(i 0).val / 5000, by show (i 0).val / 5000 < grid2.N; omega⟩, rfl⟩
  obtain ⟨eo0, eo1, -⟩ := idx2 t
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    rw [eo0]; omega
  | ⟨1, _⟩ =>
    show win2_5.index t (1 : Fin 2) * 64 ≤ (i 1).val ∧ (i 1).val < win2_5.index t (1 : Fin 2) * 64 + 64
    rw [eo1]; omega

/-! ## The result array -/

/-- After the region the result array holds the layer's dense part whose aggregated term is the aggregated array times
    the neighbour weights, with the bias, the first layer's output and the root weight matrix, as the region found
    them. -/
theorem arr2 (c : Dev nD) :
    (dat2 (F := Ideal) V c).arrAt 5 cfg2.N
      = Cert.Gnn.layer
          (Cert.Gnn.proj (V c main_v52 : FVec Ideal S50000x64 .f32) (V c main_arg6 : FVec Ideal S64x64 .f32))
          (V c main_arg7 : FVec Ideal S64 .f32) (V c main_v35 : FVec Ideal S50000x64 .f32)
          (V c main_arg8 : FVec Ideal S64x64 .f32) :=
  (dat2 (F := Ideal) V c).arrAt_eq_of_cover 5 _ (fun t _ => flushed2 V c t) cover2

end Cert.KernelIdeal.RegionValue

end
-- ==== Proof.Region3.lean ====
/-
  Region 3, the classifier kernel: the result array after the region's one grid point.

  The grid has one point, and every window's block is its whole array (block index 0 on every axis): the kernel reads
  the pooled features [256, 128], the two weight matrices and the two biases whole, and writes the whole result
  [256, 10]. So the result array ends holding the kernel's arithmetic — kept here unopened, as the one term the
  kernel's body stores — of the whole arrays as the region found them. The contents of the buffers when the region is
  entered are a parameter.
-/
import proofs.«136951_j35622458753573_2_alg».proof.Proof.Gen.KernelIdeal.Frame
import proofs.«136951_j35622458753573_2_alg».proof.Proof.RegionPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The index maps -/

/-- The printed index maps at the one grid point: every block index is zero. -/
theorem idx3 : ∀ t : Fin cfg3.N,
    win3_5.index t (0 : Fin 2) = 0 ∧ win3_5.index t (1 : Fin 2) = 0
    ∧ win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0 :=
  (by decide +kernel : ∀ t : Fin grid3.N, _)

/-! ## The input blocks are their whole arrays -/

/-- Window 0's block is the whole pooled-feature array. -/
theorem rd3_0 (c : Dev nD) (t : Fin cfg3.N) (x : S256x128.Idx) (i : S256x128.Idx)
    (h0 : (i 0).val = (x 0).val) (h1 : (i 1).val = (x 1).val) :
    (iblk3 V c 0 t : Vec Ideal S256x128 .f32) x = (V c main_v59 : FVec Ideal S256x128 .f32) i := by
  obtain ⟨-, -, e0, e1, -⟩ := idx3 t
  show (V c main_v59 : FVec Ideal S256x128 .f32) (((cfg3.win 0).blk t).view.emb x) = _
  refine congrArg (V c main_v59 : FVec Ideal S256x128 .f32) (funext fun a => Fin.ext ?_)
  match a with
  | ⟨0, _⟩ => show win3_0.index t (0 : Fin 2) * 256 + 1 * (x 0).val = (i 0).val; rw [e0, h0]; omega
  | ⟨1, _⟩ => show win3_0.index t (1 : Fin 2) * 128 + 1 * (x 1).val = (i 1).val; rw [e1, h1]; omega

/-- Window 1's block is the whole first weight matrix. -/
theorem rd3_1 (c : Dev nD) (t : Fin cfg3.N) (x : S128x64.Idx) (i : S128x64.Idx)
    (h0 : (i 0).val = (x 0).val) (h1 : (i 1).val = (x 1).val) :
    (iblk3 V c 1 t : Vec Ideal S128x64 .f32) x = (V c main_arg9 : FVec Ideal S128x64 .f32) i := by
  obtain ⟨-, -, -, -, e0, e1, -⟩ := idx3 t
  show (V c main_arg9 : FVec Ideal S128x64 .f32) (((cfg3.win 1).blk t).view.emb x) = _
  refine congrArg (V c main_arg9 : FVec Ideal S128x64 .f32) (funext fun a => Fin.ext ?_)
  match a with
  | ⟨0, _⟩ => show win3_1.index t (0 : Fin 2) * 128 + 1 * (x 0).val = (i 0).val; rw [e0, h0]; omega
  | ⟨1, _⟩ => show win3_1.index t (1 : Fin 2) * 64 + 1 * (x 1).val = (i 1).val; rw [e1, h1]; omega

/-- Window 2's block is the whole first bias. -/
theorem rd3_2 (c : Dev nD) (t : Fin cfg3.N) (x : S64.Idx) (i : S64.Idx) (h0 : (i 0).val = (x 0).val) :
    (iblk3 V c 2 t : Vec Ideal S64 .f32) x = (V c main_arg10 : FVec Ideal S64 .f32) i := by
  obtain ⟨-, -, -, -, -, -, e0, -⟩ := idx3 t
  show (V c main_arg10 : FVec Ideal S64 .f32) (((cfg3.win 2).blk t).view.emb x) = _
  refine congrArg (V c main_arg10 : FVec Ideal S64 .f32) (funext fun a => Fin.ext ?_)
  match a with
  | ⟨0, _⟩ => show win3_2.index t (0 : Fin 1) * 64 + 1 * (x 0).val = (i 0).val; rw [e0, h0]; omega

/-- Window 3's block is the whole second weight matrix. -/
theorem rd3_3 (c : Dev nD) (t : Fin cfg3.N) (x : S64x10.Idx) (i : S64x10.Idx)
    (h0 : (i 0).val = (x 0).val) (h1 : (i 1).val = (x 1).val) :
    (iblk3 V c 3 t : Vec Ideal S64x10 .f32) x = (V c main_arg11 : FVec Ideal S64x10 .f32) i := by
  obtain ⟨-, -, -, -, -, -, -, e0, e1, -⟩ := idx3 t
  show (V c main_arg11 : FVec Ideal S64x10 .f32) (((cfg3.win 3).blk t).view.emb x) = _
  refine congrArg (V c main_arg11 : FVec Ideal S64x10 .f32) (funext fun a => Fin.ext ?_)
  match a with
  | ⟨0, _⟩ => show win3_3.index t (0 : Fin 2) * 64 + 1 * (x 0).val = (i 0).val; rw [e0, h0]; omega
  | ⟨1, _⟩ => show win3_3.index t (1 : Fin 2) * 10 + 1 * (x 1).val = (i 1).val; rw [e1, h1]; omega

/-- Window 4's block is the whole second bias. -/
theorem rd3_4 (c : Dev nD) (t : Fin cfg3.N) (x : S10.Idx) (i : S10.Idx) (h0 : (i 0).val = (x 0).val) :
    (iblk3 V c 4 t : Vec Ideal S10 .f32) x = (V c main_arg12 : FVec Ideal S10 .f32) i := by
  obtain ⟨-, -, -, -, -, -, -, -, -, e0⟩ := idx3 t
  show (V c main_arg12 : FVec Ideal S10 .f32) (((cfg3.win 4).blk t).view.emb x) = _
  refine congrArg (V c main_arg12 : FVec Ideal S10 .f32) (funext fun a => Fin.ext ?_)
  match a with
  | ⟨0, _⟩ => show win3_4.index t (0 : Fin 1) * 10 + 1 * (x 0).val = (i 0).val; rw [e0, h0]; omega

theorem blk3_0 (c : Dev nD) (t : Fin cfg3.N) :
    (iblk3 V c 0 t : Vec Ideal S256x128 .f32) = (V c main_v59 : FVec Ideal S256x128 .f32) :=
  funext fun x => rd3_0 V c t x x rfl rfl
theorem blk3_1 (c : Dev nD) (t : Fin cfg3.N) :
    (iblk3 V c 1 t : Vec Ideal S128x64 .f32) = (V c main_arg9 : FVec Ideal S128x64 .f32) :=
  funext fun x => rd3_1 V c t x x rfl rfl
theorem blk3_2 (c : Dev nD) (t : Fin cfg3.N) :
    (iblk3 V c 2 t : Vec Ideal S64 .f32) = (V c main_arg10 : FVec Ideal S64 .f32) :=
  funext fun x => rd3_2 V c t x x rfl
theorem blk3_3 (c : Dev nD) (t : Fin cfg3.N) :
    (iblk3 V c 3 t : Vec Ideal S64x10 .f32) = (V c main_arg11 : FVec Ideal S64x10 .f32) :=
  funext fun x => rd3_3 V c t x x rfl rfl
theorem blk3_4 (c : Dev nD) (t : Fin cfg3.N) :
    (iblk3 V c 4 t : Vec Ideal S10 .f32) = (V c main_arg12 : FVec Ideal S10 .f32) :=
  funext fun x => rd3_4 V c t x x rfl

/-! ## What the point writes back -/

/-- The one point writes back the kernel's arithmetic of the whole arrays, read through the whole-array block. -/
theorem flushed3 (c : Dev nD) (t : Fin cfg3.N) :
    (dat3 (F := Ideal) V c).flushed 5 t = ((cfg3.win 5).blk t).view.read (Elt Ideal)
      (k3_pay1 (F := Ideal) (V c main_v59) (V c main_arg9) (V c main_arg10) (V c main_arg11) (V c main_arg12)) := by
  show (cfg3.win 5).cut (grid3.coords t) ((dat3 V c).after 5 t) = _
  rw [after3_5]
  unfold out3_5
  rw [View.canon_unit_zero hz2]
  simp only [View.ld_unit_zero (S := S256x128) hz2, View.ld_unit_zero (S := S128x64) hz2,
    View.ld_unit_zero (S := S64) hz1, View.ld_unit_zero (S := S64x10) hz2, View.ld_unit_zero (S := S10) hz1]
  rw [blk3_0 V c t, blk3_1 V c t, blk3_2 V c t, blk3_3 V c t, blk3_4 V c t]
  obtain ⟨eo0, eo1, -⟩ := idx3 t
  funext j
  show k3_pay1 (F := Ideal) (V c main_v59) (V c main_arg9) (V c main_arg10) (V c main_arg11) (V c main_arg12) ((cfg3.win 5).xinj (grid3.coords t) j)
    = k3_pay1 (F := Ideal) (V c main_v59) (V c main_arg9) (V c main_arg10) (V c main_arg11) (V c main_arg12) (((cfg3.win 5).blk t).view.emb j)
  refine congrArg (k3_pay1 (F := Ideal) (V c main_v59) (V c main_arg9) (V c main_arg10) (V c main_arg11) (V c main_arg12)) (funext fun a => Fin.ext ?_)
  match a with
  | ⟨0, _⟩ => show (j 0).val = win3_5.index t (0 : Fin 2) * 256 + 1 * (j 0).val; rw [eo0]; omega
  | ⟨1, _⟩ => show (j 1).val = win3_5.index t (1 : Fin 2) * 10 + 1 * (j 1).val; rw [eo1]; omega

/-! ## The block is the whole result -/

/-- An index of the result is in the point's block iff each coordinate is in the block's range on its axis. -/
theorem mem_blk3 (t : Fin cfg3.N) (i : S256x10.Idx) :
    i ∈ ((cfg3.win 5).blk t).view.set ↔ ∀ a : Fin 2, win3_5.index t a * S256x10.size a ≤ (i a).val
      ∧ (i a).val < win3_5.index t a * S256x10.size a + S256x10.size a := by
  show i ∈ ((View.whole main_v60).slice (win3_5.rect t)).set ↔ _
  rw [View.set_slice_whole, Rect.mem_set_unit]
  exact Iff.rfl

/-- Every index of the result is in the one point's block. -/
theorem cover3 (i : S256x10.Idx) :
    ∃ t : Fin cfg3.N, (cfg3.win 5).flush t = true ∧ i ∈ ((cfg3.win 5).blk t).view.set := by
  have hi0 : (i 0).val < 256 := (i 0).isLt
  have hi1 : (i 1).val < 10 := (i 1).isLt
  have hN : grid3.N = 1 := N_3
  obtain ⟨t, -⟩ : ∃ t : Fin cfg3.N, t.val = 0 := ⟨⟨0, by show 0 < grid3.N; omega⟩, rfl⟩
  obtain ⟨eo0, eo1, -⟩ := idx3 t
  refine ⟨t, flush3_5 t, ?_⟩
  rw [mem_blk3]
  intro a
  match a with
  | ⟨0, _⟩ =>
    show win3_5.index t (0 : Fin 2) * 256 ≤ (i 0).val ∧ (i 0).val < win3_5.index t (0 : Fin 2) * 256 + 256
    rw [eo0]; omega
  | ⟨1, _⟩ =>
    show win3_5.index t (1 : Fin 2) * 10 ≤ (i 1).val ∧ (i 1).val < win3_5.index t (1 : Fin 2) * 10 + 10
    rw [eo1]; omega

/-! ## The result array -/

/-- After the region the result array holds the kernel's arithmetic of the pooled features, the weight matrices and the
    biases, as the region found them. -/
theorem arr3 (c : Dev nD) :
    (dat3 (F := Ideal) V c).arrAt 5 cfg3.N = k3_pay1 (F := Ideal) (V c main_v59) (V c main_arg9) (V c main_arg10) (V c main_arg11) (V c main_arg12) :=
  (dat3 (F := Ideal) V c).arrAt_eq_of_cover 5 _ (fun t _ => flushed3 V c t) cover3

end Cert.KernelIdeal.RegionValue

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«136951_j35622458753573_2_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.Finite.lean ====
/-
  What the precondition gives: the node features and the first layer's relation weights are real numbers.

  The precondition is the conjunction, over the eleven float arguments, of "every entry is below +∞ in absolute value".
  Only two of its conjuncts are used: those of the node features and of the first relation weights, the two arrays
  whose products are moved across a sum.
-/
import proofs.«136951_j35622458753573_2_alg».proof.Pre_finite_inputs
import proofs.«136951_j35622458753573_2_alg».proof.Proof.Gen.Pre_finite_inputs
import proofs.«136951_j35622458753573_2_alg».proof.Proof.LibFinDecode
import Idealize.ShloMosaic.Lib.Affine

noncomputable section

namespace Cert.Bridge

open Idealize.ShloMosaic Idealize.ShloMosaic.ValueIdx Cert.LibFinite Cert.Pre_finite_inputs

/-- A conjunction of two one-bit scalars that is true has both true. -/
theorem andi_ix0 (a b : IVec S_ 1) (h : andi a b ix0 = 1#1) : a ix0 = 1#1 ∧ b ix0 = 1#1 :=
  IntOp.andi_eq_one.mp h

theorem finite_of_pre (x0 : FVec Ideal S50000x128 .f32) (x1 : IVec S2x800000 32) (x2 : IVec S50000 32)
    (x3 : FVec Ideal S128x64 .f32) (x4 : FVec Ideal S64 .f32) (x5 : FVec Ideal S128x64 .f32) (x6 : FVec Ideal S64x64 .f32)
    (x7 : FVec Ideal S64 .f32) (x8 : FVec Ideal S64x64 .f32) (x9 : FVec Ideal S128x64 .f32) (x10 : FVec Ideal S64 .f32)
    (x11 : FVec Ideal S64x10 .f32) (x12 : FVec Ideal S10 .f32)
    (h : Cert.Pre_finite_inputs.fn (F := Ideal) x0 x1 x2 x3 x4 x5 x6 x7 x8 x9 x10 x11 x12 = fun _ => 1#1) :
    (∀ i, IsFin (x0 i)) ∧ (∀ i, IsFin (x3 i)) := by
  have h0 := congrFun h ix0
  dsimp only [Cert.Pre_finite_inputs.fn, Cert.Pre_finite_inputs.fn_part1, Cert.Pre_finite_inputs.fn_part2,
    Cert.Pre_finite_inputs.fn_part3] at h0
  have a1 := (andi_ix0 _ _ h0).1
  have a2 := (andi_ix0 _ _ a1).1
  have a3 := (andi_ix0 _ _ a2).1
  have a4 := (andi_ix0 _ _ a3).1
  have a5 := (andi_ix0 _ _ a4).1
  have a6 := (andi_ix0 _ _ a5).1
  have a7 := (andi_ix0 _ _ a6).1
  have a8 := (andi_ix0 _ _ a7).1
  have a9 := (andi_ix0 _ _ a8).1
  have b := andi_ix0 _ _ a9
  exact ⟨fun i => Cert.LibFinDecode.all_fin x0 _ _ _ b.1 i, fun i => Cert.LibFinDecode.all_fin x3 _ _ _ b.2 i⟩

end Cert.Bridge

end
-- ==== Proof.LibRecipScale.lean ====
/-
  Scaling by the reciprocal of a count, over the extended reals.

  A mean over the arriving edges is computed either as the sum divided by M or as the sum times one over M, where M is
  the larger of the count and one. On the extended reals the quotient by a divisor that is not zero is the product
  with its inverse, so the two agree for every sum (finite or not) as soon as M is not zero; and the larger of anything
  and one is at least one, hence not zero. Mathlib and the ideal instance only; no program.
-/
import Idealize.ShloMosaic.PureOps.Ideal

noncomputable section

namespace Idealize.ShloMosaic.RecipScale

open Idealize.ShloMosaic

/-- For a divisor that is not zero, the product with one over it is the quotient by it. -/
theorem mul_one_div (s M : EReal) (hM : M ≠ 0) : s * Ideal.div 1 M = Ideal.div s M := by
  unfold Ideal.div
  rw [if_neg hM, if_neg hM, one_mul]

/-- The larger of anything and one is not zero. -/
theorem max_one_ne_zero (a o : EReal) (ho : o = 1) : max a o ≠ 0 := by
  subst ho
  intro h
  have h1 : (1 : EReal) ≤ max a 1 := le_max_right _ _
  rw [h] at h1
  have h01 : (0 : EReal) < 1 := by exact_mod_cast (zero_lt_one : (0 : ℝ) < 1)
  exact absurd h1 (not_le.mpr h01)

end Idealize.ShloMosaic.RecipScale

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.LibHostColRow.lean ====
/-
  Host broadcasts of a column and of a row, and a vector cast to a column or to a row, read at an index.

  For arbitrary extents and any element type.  A column [M, 1] broadcast (broadcast_in_dim, axes [0, 1]) to [M, N]
  reads at (r, q) the column's entry (r, 0); a row [1, N] broadcast to [M, N] reads at (r, q) the row's entry
  (0, q).  A vector of length M cast to the column [M, 1] holds the same entries as the vector broadcast into
  [M, 1] along axis 0, and a vector of length N cast to the row [1, N] the same as the vector broadcast into [1, N]
  along axis 1: so a program that reshapes a vector and one that broadcasts it agree.
-/
import proofs.«136951_j35622458753573_2_alg».proof.Proof.LibKeepdims
import Idealize.ShloMosaic.Lib.Pipeline.Value
import Idealize.ShloMosaic.Lib.ValueLayout
import Idealize.ShloMosaic.Lib.ValueIdx

namespace Idealize.ShloMosaic.HostColRow

open Idealize.ShloMosaic Idealize.ShloMosaic.ValueIdx

variable {M N : Nat}

/-- A column broadcast along the lanes, at (r, q): the column's entry of row r. -/
theorem bcast_col_apply {α : Type} (n : (⟨2, ![M, 1]⟩ : Shape).Idx → α)
    (h : (⟨2, ![M, 1]⟩ : Shape).BroadcastsInDim ⟨2, ![M, N]⟩ ![0, 1]) (i : (⟨2, ![M, N]⟩ : Shape).Idx) :
    broadcastInDim ⟨2, ![M, N]⟩ ![0, 1] h n i = n (ix2 (i 0) (0 : Fin 1)) := by
  refine broadcastInDim_apply _ h n i (ix2 (i 0) (0 : Fin 1)) fun a => ?_
  match a with
  | ⟨0, _⟩ =>
    show (i 0).val = if M = 1 then 0 else (i 0).val
    have h0 : (i 0).val < M := (i 0).isLt
    split
    · omega
    · rfl
  | ⟨1, _⟩ => rfl

/-- A row broadcast over the rows, at (r, q): the row's entry of lane q. -/
theorem bcast_row_apply {α : Type} (b : (⟨2, ![1, N]⟩ : Shape).Idx → α)
    (h : (⟨2, ![1, N]⟩ : Shape).BroadcastsInDim ⟨2, ![M, N]⟩ ![0, 1]) (i : (⟨2, ![M, N]⟩ : Shape).Idx) :
    broadcastInDim ⟨2, ![M, N]⟩ ![0, 1] h b i = b (ix2 (0 : Fin 1) (i 1)) := by
  refine broadcastInDim_apply _ h b i (ix2 (0 : Fin 1) (i 1)) fun a => ?_
  match a with
  | ⟨0, _⟩ => rfl
  | ⟨1, _⟩ =>
    show (i 1).val = if N = 1 then 0 else (i 1).val
    have h1 : (i 1).val < N := (i 1).isLt
    split
    · omega
    · rfl

/-- A vector cast to a column holds what the vector broadcast into the column along its axis holds. -/
theorem col_eq {α : Type} (x : (⟨1, ![M]⟩ : Shape).Idx → α) (h : (⟨1, ![M]⟩ : Shape).ShapeCasts ⟨2, ![M, 1]⟩)
    (h' : (⟨1, ![M]⟩ : Shape).BroadcastsInDim ⟨2, ![M, 1]⟩ ![0]) :
    shapeCast ⟨2, ![M, 1]⟩ x h = broadcastInDim ⟨2, ![M, 1]⟩ ![0] h' x := by
  funext i
  obtain ⟨p, u, rfl⟩ : ∃ (p : Fin M) (u : Fin 1), i = ix2 p u := ⟨i 0, i 1, eq_ix2 i⟩
  rw [Keepdims.shapeCast_a_a1_apply x h p u]
  refine (broadcastInDim_apply ![0] h' x _ (ix1 p) fun a => ?_).symm
  match a with
  | ⟨0, _⟩ =>
    show p.val = if M = 1 then 0 else p.val
    have h0 : p.val < M := p.isLt
    split
    · omega
    · rfl

/-- A vector cast to a row holds what the vector broadcast into the row along its axis holds. -/
theorem row_eq {α : Type} (x : (⟨1, ![N]⟩ : Shape).Idx → α) (h : (⟨1, ![N]⟩ : Shape).ShapeCasts ⟨2, ![1, N]⟩)
    (h' : (⟨1, ![N]⟩ : Shape).BroadcastsInDim ⟨2, ![1, N]⟩ ![1]) :
    shapeCast ⟨2, ![1, N]⟩ x h = broadcastInDim ⟨2, ![1, N]⟩ ![1] h' x := by
  funext i
  obtain ⟨u, q, rfl⟩ : ∃ (u : Fin 1) (q : Fin N), i = ix2 u q := ⟨i 0, i 1, eq_ix2 i⟩
  rw [shapeCast_a_1a_apply x h u q]
  refine (broadcastInDim_apply ![1] h' x _ (ix1 q) fun a => ?_).symm
  match a with
  | ⟨0, _⟩ =>
    show q.val = if N = 1 then 0 else q.val
    have h1 : q.val < N := q.isLt
    split
    · omega
    · rfl

end Idealize.ShloMosaic.HostColRow
-- ==== Proof.LibBcastVec.lean ====
/-
  A vector broadcast along one new axis, read at an entry.

  A length-b vector x placed as the row of a [1, b] matrix (broadcast_in_dim along axis 1) reads x k at (u, k); placed
  as the column of an [a, 1] matrix (along axis 0) it reads x i at (i, u); and a one-element vector spread over a
  length-a vector (along axis 0) reads its one entry everywhere. Arbitrary extents and element type.
-/
import Idealize.ShloMosaic.Lib.Pipeline.Value
import Idealize.ShloMosaic.Lib.ValueIdx

noncomputable section

namespace Idealize.ShloMosaic.BcastVec

open Idealize.ShloMosaic Idealize.ShloMosaic.ValueIdx

variable {α : Type}

/-- A vector as a one-row matrix: entry (u, k) is the vector's entry k. -/
theorem bcast_vec_row_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) :=
  broadcastInDim_apply _ h x _ _ (fun a => by
    match a with
    | ⟨0, _⟩ =>
      show k.val = if b = 1 then 0 else k.val
      split
      · omega
      · rfl)

/-- A vector as a one-column matrix: entry (i, u) is the vector's entry i. -/
theorem bcast_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · omega
      · rfl)

/-- A one-element vector spread over a vector: every entry is the one element. -/
theorem bcast_one_apply {a : ℕ} (x : (⟨1, ![1]⟩ : Shape).Idx → α)
    (h : (⟨1, ![1]⟩ : Shape).BroadcastsInDim ⟨1, ![a]⟩ ![0]) (i : Fin a) :
    broadcastInDim ⟨1, ![a]⟩ ![0] h x (ix1 i) = x (ix1 (0 : Fin 1)) :=
  broadcastInDim_apply _ h x _ _ (fun c => by
    match c with
    | ⟨0, _⟩ => rfl)

end Idealize.ShloMosaic.BcastVec

end
-- ==== Proof.LibRealArray.lean ====
/-
  Arrays of reals read as arrays of extended reals, for kernels whose arithmetic is +, - and × on finite inputs.

  At the ideal instance a float is an extended real, and the laws a polynomial identity needs (distributivity,
  cancelling a term) fail at ±∞. When every input is finite, every intermediate array of such a kernel is the image
  of an array of REALS under the coercion ℝ → EReal, and the extended reals' sum, difference and product of two such
  arrays are the images of the reals' (`addf_cv`, `subf_cv`, `mulf_cv`). Rewriting with these three turns an equation
  between arrays of extended reals into one between arrays of reals (`cv_congr`), where `ring` applies. Any shape.
  Also here: the float words 0, 1, 2 and 4 as reals, and a splat of 1 or 2 as a constant real-valued array.
-/
import Idealize.ShloMosaic.PureOps.Ideal
import Idealize.ShloMosaic.PureOps.Ideal.Laws
import Idealize.ShloMosaic.Lib.ValueIdx

noncomputable section

namespace Cert.RealArray

open Idealize.ShloMosaic Idealize.ShloMosaic.ValueIdx

variable {s : Shape}

/-- An array of reals read as an array of (finite) extended reals. -/
def cv (f : s.Idx → ℝ) : FVec Ideal s .f32 := fun i => ((f i : ℝ) : EReal)

/-- Its entry at an index is the real entry, coerced. -/
theorem cv_apply (f : s.Idx → ℝ) (i : s.Idx) : cv f i = ((f i : ℝ) : EReal) := rfl

/-- Two real-valued arrays that agree entry by entry have the same image. -/
theorem cv_congr {f g : s.Idx → ℝ} (h : ∀ i, f i = g i) : cv f = cv g := by
  funext i; rw [cv_apply, cv_apply, h i]

/-- On finite values the extended reals' product is the reals'. -/
theorem mulf_cv (f g : s.Idx → ℝ) : mulf (cv f) (cv g) = cv (fun i => f i * g i) := by
  funext i; rw [mulf_apply, cv_apply, cv_apply, cv_apply, EReal.coe_mul]

/-- On finite values the extended reals' sum is the reals'. -/
theorem addf_cv (f g : s.Idx → ℝ) : addf (cv f) (cv g) = cv (fun i => f i + g i) := by
  funext i; rw [addf_apply, cv_apply, cv_apply, cv_apply, EReal.coe_add]

/-- On finite values the extended reals' difference is the reals'. -/
theorem subf_cv (f g : s.Idx → ℝ) : subf (cv f) (cv g) = cv (fun i => f i - g i) := by
  funext i; rw [subf_apply, cv_apply, cv_apply, cv_apply, EReal.coe_sub]

/-! ## Float words as reals -/

/-- The f32 word of 1.0 is the real 1. -/
theorem word_one : Ideal.ofBits .f32 0x3F800000#32 = ((1 : ℝ) : EReal) := by
  simp [Ideal.ofBits, Ideal.ieee, -EReal.coe_mul]; norm_num

/-- The f32 word of 2.0 is the real 2. -/
theorem word_two : Ideal.ofBits .f32 0x40000000#32 = ((2 : ℝ) : EReal) := by
  simp [Ideal.ofBits, Ideal.ieee, -EReal.coe_mul]; norm_num

/-- The f32 word of 4.0 is the real 4. -/
theorem word_four : Ideal.ofBits .f32 0x40800000#32 = ((4 : ℝ) : EReal) := by
  simp [Ideal.ofBits, Ideal.ieee, -EReal.coe_mul]; norm_num

/-- The f32 word of +0.0 is the real 0. -/
theorem word_zero : Ideal.ofBits .f32 0x00000000#32 = ((0 : ℝ) : EReal) := by
  rw [Ideal.ofBits_zero_f32]; rfl

/-- A kernel's splat of 1.0 is the constant real-valued array 1. -/
theorem broadcast_one : broadcast s (Scalar.ofBits (F := Ideal) .f32 0x3F800000#32) = cv (fun _ => (1 : ℝ)) := by
  funext i; exact word_one

/-- A kernel's splat of 2.0 is the constant real-valued array 2. -/
theorem broadcast_two : broadcast s (Scalar.ofBits (F := Ideal) .f32 0x40000000#32) = cv (fun _ => (2 : ℝ)) := by
  funext i; exact word_two

end Cert.RealArray

end
-- ==== Proof.LibMeanScale.lean ====
/-
  A mean as "sum times one over the count" and as "sum divided by the count".

  Both programs average rows: over the edges arriving at a node, and over the nodes of a graph. One multiplies the sum
  by the reciprocal 1 / M of the count M (raised to at least one), the other divides the sum by M. For a divisor that
  is not zero the quotient of extended reals IS the product with the inverse, so the two agree entry by entry for every
  sum, finite or not. Here M is a vector with one entry per row; it reaches the matrix as a column broadcast over the
  columns. The count is a maximum with one, hence at least one and not zero.
-/
import Idealize.ShloMosaic.PureOps.Ideal
import Idealize.ShloMosaic.Lib.ValueIdx
import Idealize.ShloMosaic.Lib.Pipeline.Value
import proofs.«136951_j35622458753573_2_alg».proof.Proof.LibRecipScale
import proofs.«136951_j35622458753573_2_alg».proof.Proof.LibHostColRow
import proofs.«136951_j35622458753573_2_alg».proof.Proof.LibBcastVec
import proofs.«136951_j35622458753573_2_alg».proof.Proof.LibRealArray

noncomputable section

namespace Cert.Gnn

open Idealize.ShloMosaic Idealize.ShloMosaic.ValueIdx

variable {a b : Nat}

/-- A vector of ones (the word of 1.0 broadcast) has every entry one. -/
theorem ones_apply (h0 : (⟨0, ![]⟩ : Shape).BroadcastsInDim ⟨1, ![a]⟩ ![]) (i : (⟨1, ![a]⟩ : Shape).Idx) :
    broadcastInDim ⟨1, ![a]⟩ ![] h0 (constant (F := Ideal) ⟨0, ![]⟩ .f32 0x3F800000#32) i = 1 := by
  rw [broadcastInDim_apply ![] h0 _ i ix0 (fun d => d.elim0)]
  show Ideal.ofBits .f32 0x3F800000#32 = 1
  rw [Cert.RealArray.word_one]
  rfl

/-- An array of zeros (the zero word broadcast) has every entry zero. -/
theorem zeros_apply {s : Shape} (h0 : (⟨0, ![]⟩ : Shape).BroadcastsInDim s ![]) (i : s.Idx) :
    broadcastInDim s ![] h0 (constant (F := Ideal) ⟨0, ![]⟩ .f32 0x00000000#32) i = 0 := by
  rw [broadcastInDim_apply ![] h0 _ i ix0 (fun d => d.elim0)]
  show Ideal.ofBits .f32 0x00000000#32 = 0
  exact Ideal.ofBits_zero_f32

/-- The larger of a count and one is not zero. -/
theorem max_ones_ne_zero (cnt ones : FVec Ideal ⟨1, ![a]⟩ .f32) (hones : ∀ i, ones i = 1) (i : (⟨1, ![a]⟩ : Shape).Idx) :
    maximumf cnt ones i ≠ 0 :=
  Idealize.ShloMosaic.RecipScale.max_one_ne_zero _ _ (hones i)

/-- Row sums times the column of reciprocal counts = row sums divided by the column of counts, when no count is zero. -/
theorem mean_scale (S : FVec Ideal ⟨2, ![a, b]⟩ .f32) (Mx ones : FVec Ideal ⟨1, ![a]⟩ .f32)
    (hones : ∀ i, ones i = 1) (hM : ∀ i, Mx i ≠ 0)
    (h1 : (⟨1, ![a]⟩ : Shape).BroadcastsInDim ⟨2, ![a, 1]⟩ ![0])
    (h2 : (⟨2, ![a, 1]⟩ : Shape).BroadcastsInDim ⟨2, ![a, b]⟩ ![0, 1]) :
    mulf S (broadcastInDim ⟨2, ![a, b]⟩ ![0, 1] h2 (broadcastInDim ⟨2, ![a, 1]⟩ ![0] h1 (Host.divf (F := Ideal) ones Mx)))
      = Host.divf (F := Ideal) S (broadcastInDim ⟨2, ![a, b]⟩ ![0, 1] h2 (broadcastInDim ⟨2, ![a, 1]⟩ ![0] h1 Mx)) := by
  funext j
  obtain ⟨p, q, rfl⟩ : ∃ (p : Fin a) (q : Fin b), j = ix2 p q := ⟨j 0, j 1, eq_ix2 j⟩
  show S (ix2 p q) * broadcastInDim ⟨2, ![a, b]⟩ ![0, 1] h2 (broadcastInDim ⟨2, ![a, 1]⟩ ![0] h1 (Host.divf (F := Ideal) ones Mx)) (ix2 p q)
    = Ideal.div (S (ix2 p q)) (broadcastInDim ⟨2, ![a, b]⟩ ![0, 1] h2 (broadcastInDim ⟨2, ![a, 1]⟩ ![0] h1 Mx) (ix2 p q))
  rw [Idealize.ShloMosaic.HostColRow.bcast_col_apply, Idealize.ShloMosaic.HostColRow.bcast_col_apply]
  show S (ix2 p q) * broadcastInDim ⟨2, ![a, 1]⟩ ![0] h1 (Host.divf (F := Ideal) ones Mx) (ix2 p (0 : Fin 1))
    = Ideal.div (S (ix2 p q)) (broadcastInDim ⟨2, ![a, 1]⟩ ![0] h1 Mx (ix2 p (0 : Fin 1)))
  rw [Idealize.ShloMosaic.BcastVec.bcast_vec_col_apply, Idealize.ShloMosaic.BcastVec.bcast_vec_col_apply]
  show S (ix2 p q) * Ideal.div (ones (ix1 p)) (Mx (ix1 p)) = _
  rw [hones, Idealize.ShloMosaic.RecipScale.mul_one_div _ _ (hM _)]

end Cert.Gnn

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«136951_j35622458753573_2_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«136951_j35622458753573_2_alg».proof.Proof.LibMatmulPlain
import proofs.«136951_j35622458753573_2_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.HostLayer.lean ====
/-
  The reference's dense steps read as the specification's functions.

  On the host a graph layer's dense part is written with whole-array operations: a dot product of the aggregated rows
  with the relation weights, plus the bias broadcast over the rows, plus the dot product of the node's own rows with the
  root weights, and the maximum with a zero array. Entry by entry that is `layer` of Spec.lean applied to `proj`.
-/
import Idealize.ShloMosaic.PureOps.Ideal
import Idealize.ShloMosaic.Lib.ValueIdx
import Idealize.ShloMosaic.Lib.Pipeline.Value
import proofs.«136951_j35622458753573_2_alg».proof.Proof.Spec
import proofs.«136951_j35622458753573_2_alg».proof.Proof.LibDense
import proofs.«136951_j35622458753573_2_alg».proof.Proof.LibMeanScale

noncomputable section

open scoped BigOperators

namespace Cert.Gnn

open Idealize.ShloMosaic Idealize.ShloMosaic.ValueIdx

variable {M K N : Nat}

/-- The host's plain dot product is `proj`. -/
theorem host_dot_eq_proj (X : FVec Ideal ⟨2, ![M, K]⟩ .f32) (W : FVec Ideal ⟨2, ![K, N]⟩ .f32) :
    Host.dotGeneral (F := Ideal) (DotDims.plain M K N) none X W = proj X W := by
  funext j
  rw [Idealize.ShloMosaic.HostDotPlain.dotGeneral_apply]
  rfl

/-- The host's "aggregated term plus bias plus own term, cut off at zero" is `layer`. -/
theorem host_layer (P : FVec Ideal ⟨2, ![M, N]⟩ .f32) (b : FVec Ideal ⟨1, ![N]⟩ .f32) (X : FVec Ideal ⟨2, ![M, K]⟩ .f32)
    (W : FVec Ideal ⟨2, ![K, N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf
        (addf (addf P (broadcastInDim ⟨2, ![M, N]⟩ ![0, 1] h2 (broadcastInDim ⟨2, ![1, N]⟩ ![1] h1 b)))
          (Host.dotGeneral (F := Ideal) (DotDims.plain M K N) none X W))
        (broadcastInDim ⟨2, ![M, N]⟩ ![] h0 (constant (F := Ideal) ⟨0, ![]⟩ .f32 0x00000000#32))
      = layer P b X W := by
  funext j
  obtain ⟨p, q, rfl⟩ : ∃ (p : Fin M) (q : Fin N), j = ix2 p q := ⟨j 0, j 1, eq_ix2 j⟩
  show max ((P (ix2 p q) + broadcastInDim ⟨2, ![M, N]⟩ ![0, 1] h2 (broadcastInDim ⟨2, ![1, N]⟩ ![1] h1 b) (ix2 p q))
      + Host.dotGeneral (F := Ideal) (DotDims.plain M K N) none X W (ix2 p q))
      (broadcastInDim ⟨2, ![M, N]⟩ ![] h0 (constant (F := Ideal) ⟨0, ![]⟩ .f32 0x00000000#32) (ix2 p q)) = _
  rw [Idealize.ShloMosaic.Dense.bias_rows_apply, Idealize.ShloMosaic.HostDotPlain.dotGeneral_apply, zeros_apply]
  rfl

end Cert.Gnn

end
-- ==== Proof.LibEdgeSum.lean ====
/-
  Summing over edges commutes with a linear map, on finite values.

  A graph layer sends to each node the sum, over the edges that end there, of the source nodes' rows. Applying a linear
  map (a row times a weight matrix) to every row BEFORE that sum, or applying it once to the summed row AFTER it, gives
  the same result: both are the double sum over edges e and features k of t e k * w k. On the extended reals this needs
  the rows and the weights to be real numbers, because it moves a factor across a sum (a product with an infinity does
  not distribute). The zero that each edge sum and each row-by-column product starts from is carried along as it is
  computed.
-/
import proofs.«136951_j35622458753573_2_alg».proof.Proof.LibFinite

noncomputable section

open scoped BigOperators

namespace Cert.EdgeSum

open Cert.LibFinite

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Transform each edge's row, then sum over the edges = sum the rows over the edges, then transform: for real rows
    `t e` and real weights `w`, with the zeros the sums are accumulated from. -/
theorem sum_transform_comm {ε κ : Type} [Fintype κ] (s : Finset ε) (t : ε → κ → EReal) (w : κ → EReal)
    (ht : ∀ e k, IsFin (t e k)) (hw : ∀ k, IsFin (w k)) :
    (0 + ∑ e ∈ s, ∑ k, t e k * w k) = ∑ k, (0 + ∑ e ∈ s, t e k) * w k := by
  choose tr htr using ht
  choose wr hwr using hw
  have hL : (0 + ∑ e ∈ s, ∑ k, t e k * w k) = ((∑ e ∈ s, ∑ k, tr e k * wr k : ℝ) : EReal) := by
    rw [zero_add, coe_sum]
    refine Finset.sum_congr rfl fun e _ => ?_
    rw [coe_sum]
    exact Finset.sum_congr rfl fun k _ => by rw [htr, hwr, EReal.coe_mul]
  have hR : (∑ k, (0 + ∑ e ∈ s, t e k) * w k) = ((∑ k, (∑ e ∈ s, tr e k) * wr k : ℝ) : EReal) := by
    rw [coe_sum]
    refine Finset.sum_congr rfl fun k _ => ?_
    rw [zero_add, EReal.coe_mul, coe_sum, hwr]
    congr 1
    exact Finset.sum_congr rfl fun e _ => htr e k
  rw [hL, hR]
  congr 1
  rw [Finset.sum_comm]
  exact Finset.sum_congr rfl fun k _ => (Finset.sum_mul _ _ _).symm

/-- A sum accumulated from zero over any set of edges of real rows is real. -/
theorem isFin_edge_sum {ε : Type} (s : Finset ε) (f : ε → EReal) (h : ∀ e, IsFin (f e)) : IsFin (0 + ∑ e ∈ s, f e) :=
  IsFin.add IsFin.zero (IsFin.sum s f fun e _ => h e)

/-- A row-by-column product of real rows and columns is real. -/
theorem isFin_dot {κ : Type} [Fintype κ] (a b : κ → EReal) (ha : ∀ k, IsFin (a k)) (hb : ∀ k, IsFin (b k)) :
    IsFin (∑ k, a k * b k) :=
  IsFin.sum _ _ fun k _ => IsFin.mul (ha k) (hb k)

end Cert.EdgeSum

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.LibScatterRows.lean ====
/-
  A row scatter with an add body, read at an entry, over the extended reals.

  What segment_sum (x.at[idx].add(u) on rows) of an [N, C] operand with R update rows lowers to: a scatter with update
  window axis 1, inserted window axis 0, scatter axis 0 mapped to operand axis 0, the index vector on axis 1 of the
  scatter indices [R, 1], and updates [R, C]. Update entry (e, c) lands on the operand entry (idx (e, 0) read as a signed
  integer, c) when that row exists, and is dropped otherwise. So the result's entry (i, c) is the operand's entry plus
  the sum of the update entries (e, c) over the update rows e whose index is i: the set of those rows depends on the
  indices and on i alone, not on the column nor on the number of columns. The extents N, R, C are arbitrary.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- An update lands on the operand index `p` exactly when, on every axis, its start plus its window coordinate is `p`'s
    coordinate (any dimension numbers). -/
theorem resultIdx?_eq_some_iff {s si u : Shape} (d : ScatterDims s si u) {w : Nat} (j : u.Idx) (idx : IVec si w) (p : s.Idx) :
    d.resultIdx? j idx = some p ↔ ∀ a, d.start j idx a + (d.window j a : ℤ) = ((p a).val : ℤ) := by
  unfold ScatterDims.resultIdx?
  split
  · rename_i h
    rw [Option.some.injEq]
    constructor
    · rintro rfl a
      have h1 := (h a).1
      show _ = (((d.start j idx a + (d.window j a : ℤ)).toNat : ℕ) : ℤ)
      omega
    · intro hp
      funext a
      apply Fin.ext
      have h1 := hp a
      show (d.start j idx a + (d.window j a : ℤ)).toNat = (p a).val
      omega
  · rename_i h
    constructor
    · intro h'
      exact absurd h' (by simp)
    · intro hp
      exfalso
      apply h
      intro a
      have h1 := hp a
      have h2 := (p a).isLt
      omega

/-- The dimension numbers of a row scatter, for an operand [N, C], scatter indices [R, 1] and updates [R, C]; their
    conditions are decided on a program's literal shapes. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat}

/-- On the row axis the window starts at the update row's index, read signed. -/
theorem start_row (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 0 = (idx (ix2 (j 0) (0 : Fin 1))).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem start_col (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 1 = 0 := by
  unfold ScatterDims.start
  rw [dif_neg (show (1 : Fin 2) ∉ (rowDims N R C wf).scatterDimsToOperandDims from
    (show (1 : Fin 2) ∉ ([0] : List (Fin 2)) by decide))]

/-- The row axis is inserted: its window coordinate is 0. -/
theorem window_row (wf : ScatterDims.WF ⟨2, ![N, C]⟩ ⟨2, ![R, 1]⟩ ⟨2, ![R, C]⟩ [1] [0] [0] 1)
    (j : (⟨2, ![R, C]⟩ : Shape).Idx) : (rowDims N R C wf).window j 0 = 0 := by
  unfold ScatterDims.window
  rw [dif_neg]
  intro h
  have h2 := (List.mem_filter.mp h).2
  simp at h2

/-- The column axis carries the update's column. -/
theorem window_col (wf : ScatterDims.WF ⟨2, ![N, C]⟩ ⟨2, ![R, 1]⟩ ⟨2, ![R, C]⟩ [1] [0] [0] 1)
    (j : (⟨2, ![R, C]⟩ : Shape).Idx) : (rowDims N R C wf).window j 1 = (j 1).val := by
  unfold ScatterDims.window
  rw [dif_pos (show (1 : Fin 2) ∈ (rowDims N R C wf).sKept from
    List.mem_filter.mpr ⟨List.mem_finRange _, by simp⟩)]
  rfl

/-- The update rows that land on operand row `i`: those whose index, read signed, is `i`. -/
def hits (idx : IVec ⟨2, ![R, 1]⟩ w) (i : Fin N) : Finset (Fin R) :=
  Finset.univ.filter fun e => (idx (ix2 e (0 : Fin 1))).toInt = (i.val : ℤ)

/-- An update entry lands on (i, c) exactly when its row's index is i and its column is c. -/
theorem lands_iff (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) (i : Fin N) (c : Fin C) :
    (rowDims N R C wf).resultIdx? j idx = some (ix2 i c)
      ↔ (idx (ix2 (j 0) (0 : Fin 1))).toInt = (i.val : ℤ) ∧ (j 1).val = c.val := by
  rw [resultIdx?_eq_some_iff]
  constructor
  · intro h
    have h0 : (rowDims N R C wf).start j idx 0 + (((rowDims N R C wf).window j 0 : ℕ) : ℤ) = (i.val : ℤ) := h 0
    have h1 : (rowDims N R C wf).start j idx 1 + (((rowDims N R C wf).window j 1 : ℕ) : ℤ) = (c.val : ℤ) := h 1
    rw [start_row, window_row] at h0
    rw [start_col, window_col] at h1
    exact ⟨by omega, by omega⟩
  · rintro ⟨h0, h1⟩ a
    match a with
    | ⟨0, _⟩ =>
      show (rowDims N R C wf).start j idx 0 + (((rowDims N R C wf).window j 0 : ℕ) : ℤ) = (i.val : ℤ)
      rw [start_row, window_row, h0]
      omega
    | ⟨1, _⟩ =>
      show (rowDims N R C wf).start j idx 1 + (((rowDims N R C wf).window j 1 : ℕ) : ℤ) = (c.val : ℤ)
      rw [start_col, window_col, h1]
      omega

/-- The accumulating row scatter at (i, c): the operand's entry plus the sum of column c over the update rows whose
    index is i. -/
theorem scatterAdd_rows_apply (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (i : Fin N) (c : Fin C) :
    Ideal.hostScatterAdd (rowDims N R C wf) x idx upd (ix2 i c) = x (ix2 i c) + ∑ e ∈ hits (N := N) idx i, upd (ix2 e c) := by
  unfold Ideal.hostScatterAdd
  congr 1
  have key : ∀ j : (⟨2, ![R, C]⟩ : Shape).Idx, (rowDims N R C wf).resultIdx? j idx = some (ix2 i c) → ix2 (j 0) c = j := by
    intro j hj
    have h1 := ((lands_iff wf j idx i c).mp hj).2
    have h2 : j 1 = c := Fin.ext h1
    rw [← h2]
    exact (eq_ix2 j).symm
  refine Finset.sum_nbij' (fun j => (j 0 : Fin R)) (fun e => ix2 e c) ?_ ?_ ?_ ?_ ?_
  · intro j hj
    rw [Finset.mem_filter] at hj
    exact Finset.mem_filter.mpr ⟨Finset.mem_univ _, ((lands_iff wf j idx i c).mp hj.2).1⟩
  · intro e he
    have he2 := (Finset.mem_filter.mp he).2
    rw [Finset.mem_filter]
    exact ⟨Finset.mem_univ _, (lands_iff wf (ix2 e c) idx i c).mpr ⟨he2, rfl⟩⟩
  · intro j hj
    rw [Finset.mem_filter] at hj
    exact key j hj.2
  · intro e _
    rfl
  · intro j hj
    rw [Finset.mem_filter] at hj
    exact congrArg upd (key j hj.2).symm

end Idealize.ShloMosaic.ScatterRows

end
-- ==== Proof.LibHostSums.lean ====
/-
  The host's float sum along the leading axis, read at an index, at the ideal values.

  For an [a, b] matrix x the host's sum over axis 0 from an initial value is, at column j, the initial value plus
  the sum over the rows i of x (i, j); for a length-a vector the host's sum over its one axis, a scalar, is the
  initial value plus the sum of its entries. Arbitrary extents. Also: the host's float scatter-add is the exact
  accumulation (stated once over arbitrary shapes, to be used by rewriting). (The library states the first over the reduced
  shape's own index and the second over the operand's index set; here both are sums over Fin a.)
-/
import Idealize.ShloMosaic.PureOps.Ideal.Laws
import Idealize.ShloMosaic.Lib.ValueIdx

noncomputable section

open scoped BigOperators

namespace Idealize.ShloMosaic.HostSums

open Idealize.ShloMosaic Idealize.ShloMosaic.ValueIdx

variable {a b : ℕ}

/-- The column sums on the host: at column j, the initial value plus the sum of the column's entries. -/
theorem hostColSum_apply (x : (⟨2, ![a, b]⟩ : Shape).Idx → EReal) (init : EReal)
    (h' : (⟨2, ![a, b]⟩ : Shape).ReducesTo [0] ⟨1, ![b]⟩) (j : Fin b) :
    Ideal.hostReduceAdd h' x init (ix1 j) = init + ∑ i : Fin a, x (ix2 i j) := by
  have h : (⟨2, ![a, b]⟩ : Shape).Reduces [0] ⟨1, ![b]⟩ := ⟨h'.1, Nat.one_pos, h'.2⟩
  rw [Ideal.hostReduceAdd_single h' h]
  refine congrArg (init + ·) (Finset.sum_congr rfl fun i _ => ?_)
  exact congrArg x (funext fun c => Fin.ext (by match c with | ⟨0, _⟩ => rfl | ⟨1, _⟩ => rfl))

/-- A vector's indices are its positions. -/
def idxEquiv1 {n : ℕ} : (⟨1, ![n]⟩ : Shape).Idx ≃ Fin n where
  toFun j := j 0
  invFun := ix1
  left_inv j := (eq_ix1 j).symm
  right_inv _ := rfl

/-- A sum over a vector's index set is the sum over its positions. -/
theorem sum_idx1 {M : Type*} [AddCommMonoid M] {n : ℕ} (f : (⟨1, ![n]⟩ : Shape).Idx → M) :
    ∑ j, f j = ∑ i : Fin n, f (ix1 i) :=
  Fintype.sum_equiv idxEquiv1 f (fun i => f (ix1 i)) fun j => congrArg f (eq_ix1 j)

/-- The host's sum of a vector: the initial value plus the sum of the entries. -/
theorem hostVecSum_apply (x : (⟨1, ![a]⟩ : Shape).Idx → EReal) (init : EReal)
    (h' : (⟨1, ![a]⟩ : Shape).ReducesTo [0] ⟨0, ![]⟩) (j : (⟨0, ![]⟩ : Shape).Idx) :
    Ideal.hostReduceAdd h' x init j = init + ∑ i : Fin a, x (ix1 i) := by
  rw [Ideal.hostReduceAdd_total h' (fun b => b.elim0) x init j, sum_idx1]

/-- The host's float scatter-add at the ideal values is the exact accumulation, whatever the shapes. -/
theorem hostScatterAdd_eq {s si u : Shape} {w : Nat} {φ : FTy} (d : ScatterDims s si u) (x : FVec Ideal s φ)
    (idx : IVec si w) (upd : FVec Ideal u φ) : Host.scatterAdd d x idx upd = Ideal.hostScatterAdd d x idx upd := rfl

end Idealize.ShloMosaic.HostSums

end
-- ==== Proof.LayerOne.lean ====
/-
  Projecting before averaging over the edges = averaging before projecting.

  The first graph layer needs, for node i and output feature c, the mean over the edges e arriving at i of the source
  node's row, times the relation weights W. One program multiplies every node's row by W first (a 64-wide row instead
  of a 128-wide one), sums those over the arriving edges and scales by the reciprocal of the count; the other sums the
  128-wide rows, divides by the count and multiplies by W last. Both are

      ( Σ_{e → i} Σ_k x (src e, k) · W (k, c) ) / M_i .

  Moving W across the sum over edges and the division across the sum over k uses distributivity, which holds on the
  extended reals only for real numbers: the node features, the weights and the count must be finite (the count always
  is; the features and weights by the precondition).
-/
import Idealize.ShloMosaic.PureOps.Ideal
import Idealize.ShloMosaic.Lib.ValueIdx
import Idealize.ShloMosaic.Lib.Pipeline.Value
import proofs.«136951_j35622458753573_2_alg».proof.Proof.Spec
import proofs.«136951_j35622458753573_2_alg».proof.Proof.LibFinite
import proofs.«136951_j35622458753573_2_alg».proof.Proof.LibEdgeSum
import proofs.«136951_j35622458753573_2_alg».proof.Proof.LibRecipScale
import proofs.«136951_j35622458753573_2_alg».proof.Proof.LibGatherRows
import proofs.«136951_j35622458753573_2_alg».proof.Proof.LibScatterRows
import proofs.«136951_j35622458753573_2_alg».proof.Proof.LibHostSums
import proofs.«136951_j35622458753573_2_alg».proof.Proof.LibHostColRow
import proofs.«136951_j35622458753573_2_alg».proof.Proof.LibBcastVec

noncomputable section

open scoped BigOperators

namespace Cert.Gnn

open Idealize.ShloMosaic Idealize.ShloMosaic.ValueIdx Cert.LibFinite

/-- Dividing a row-by-column product by a real non-zero count is dividing every entry of the row first. -/
theorem div_sum_mul {κ : Type} [Fintype κ] (a w : κ → EReal) (M : EReal) (ha : ∀ k, IsFin (a k)) (hw : ∀ k, IsFin (w k))
    (hM : IsFin M) (hM0 : M ≠ 0) : Ideal.div (∑ k, a k * w k) M = ∑ k, Ideal.div (a k) M * w k := by
  obtain ⟨r, rfl⟩ := hM
  have hr : r ≠ 0 := fun h => hM0 (by rw [h]; rfl)
  choose a' ha' using ha
  choose w' hw' using hw
  have hL : (∑ k, a k * w k) = ((∑ k, a' k * w' k : ℝ) : EReal) := by
    rw [Cert.EdgeSum.coe_sum]
    exact Finset.sum_congr rfl fun k _ => by rw [ha', hw', EReal.coe_mul]
  have hR : (∑ k, Ideal.div (a k) (r : EReal) * w k) = ((∑ k, a' k * (1 / r) * w' k : ℝ) : EReal) := by
    rw [Cert.EdgeSum.coe_sum]
    exact Finset.sum_congr rfl fun k _ => by
      rw [Ideal.div_coe hr, ha', hw', ← EReal.coe_mul, ← EReal.coe_mul]
  rw [hL, hR, Ideal.div_coe hr, ← EReal.coe_mul]
  congr 1
  rw [Finset.sum_mul]
  exact Finset.sum_congr rfl fun k _ => by ring

/-- The law at one entry: over any set of edges, real rows t e, real weights w and a real non-zero count M. -/
theorem edge_mean_entry {ε κ : Type} [Fintype κ] (s : Finset ε) (t : ε → κ → EReal) (wk : κ → EReal) (M : EReal)
    (ht : ∀ e k, IsFin (t e k)) (hw : ∀ k, IsFin (wk k)) (hM : IsFin M) (hM0 : M ≠ 0) :
    (0 + ∑ e ∈ s, ∑ k, t e k * wk k) * Ideal.div 1 M = ∑ k, Ideal.div (0 + ∑ e ∈ s, t e k) M * wk k := by
  rw [Idealize.ShloMosaic.RecipScale.mul_one_div _ _ hM0, Cert.EdgeSum.sum_transform_comm s t wk ht hw]
  exact div_sum_mul _ _ _ (fun k => Cert.EdgeSum.isFin_edge_sum s _ (fun e => ht e k)) hw hM hM0

variable {N E K C w : Nat}

/-- Whole arrays: the mean over arriving edges of the rows of x, then times W, is the mean over arriving edges of the
    rows of x · W, for real x, W and real non-zero counts. -/
theorem project_then_aggregate (hN : 0 < N)
    (wfgK : GatherDims.WF ⟨2, ![N, K]⟩ ⟨2, ![E, 1]⟩ ⟨2, ![E, K]⟩ [1] [0] [] [0] [] 1 ![1, K])
    (wfgC : GatherDims.WF ⟨2, ![N, C]⟩ ⟨2, ![E, 1]⟩ ⟨2, ![E, C]⟩ [1] [0] [] [0] [] 1 ![1, C])
    (wfsK : ScatterDims.WF ⟨2, ![N, K]⟩ ⟨2, ![E, 1]⟩ ⟨2, ![E, K]⟩ [1] [0] [0] 1)
    (wfsC : ScatterDims.WF ⟨2, ![N, C]⟩ ⟨2, ![E, 1]⟩ ⟨2, ![E, C]⟩ [1] [0] [0] 1)
    (x : FVec Ideal ⟨2, ![N, K]⟩ .f32) (W : FVec Ideal ⟨2, ![K, C]⟩ .f32) (src dst : IVec ⟨2, ![E, 1]⟩ w)
    (Mx ones : FVec Ideal ⟨1, ![N]⟩ .f32) (zK : FVec Ideal ⟨2, ![N, K]⟩ .f32) (zC : FVec Ideal ⟨2, ![N, C]⟩ .f32)
    (hx : ∀ i, IsFin (x i)) (hW : ∀ i, IsFin (W i)) (hM : ∀ i, IsFin (Mx i)) (hM0 : ∀ i, Mx i ≠ 0)
    (hones : ∀ i, ones i = 1) (hzK : ∀ i, zK i = 0) (hzC : ∀ i, zC i = 0)
    (h1 : (⟨1, ![N]⟩ : Shape).BroadcastsInDim ⟨2, ![N, 1]⟩ ![0])
    (h2K : (⟨2, ![N, 1]⟩ : Shape).BroadcastsInDim ⟨2, ![N, K]⟩ ![0, 1])
    (h2C : (⟨2, ![N, 1]⟩ : Shape).BroadcastsInDim ⟨2, ![N, C]⟩ ![0, 1]) :
    proj (Host.divf (F := Ideal)
            (Host.scatterAdd (F := Ideal) (Idealize.ShloMosaic.ScatterRows.rowDims N E K wfsK) zK dst
              (Host.gather (Idealize.ShloMosaic.GatherRows.rowDims N E K wfgK) x src))
            (broadcastInDim ⟨2, ![N, K]⟩ ![0, 1] h2K (broadcastInDim ⟨2, ![N, 1]⟩ ![0] h1 Mx))) W
      = mulf (Host.scatterAdd (F := Ideal) (Idealize.ShloMosaic.ScatterRows.rowDims N E C wfsC) zC dst
              (Host.gather (Idealize.ShloMosaic.GatherRows.rowDims N E C wfgC) (proj x W) src))
          (broadcastInDim ⟨2, ![N, C]⟩ ![0, 1] h2C (broadcastInDim ⟨2, ![N, 1]⟩ ![0] h1 (Host.divf (F := Ideal) ones Mx))) := by
  funext j
  obtain ⟨i, c, rfl⟩ : ∃ (i : Fin N) (c : Fin C), j = ix2 i c := ⟨j 0, j 1, eq_ix2 j⟩
  -- the count column read at row i
  have hBK : ∀ k : Fin K, broadcastInDim ⟨2, ![N, K]⟩ ![0, 1] h2K (broadcastInDim ⟨2, ![N, 1]⟩ ![0] h1 Mx) (ix2 i k) = Mx (ix1 i) :=
    fun k => by
      rw [Idealize.ShloMosaic.HostColRow.bcast_col_apply]
      show broadcastInDim ⟨2, ![N, 1]⟩ ![0] h1 Mx (ix2 i (0 : Fin 1)) = Mx (ix1 i)
      rw [Idealize.ShloMosaic.BcastVec.bcast_vec_col_apply]
  have hBC : broadcastInDim ⟨2, ![N, C]⟩ ![0, 1] h2C (broadcastInDim ⟨2, ![N, 1]⟩ ![0] h1 (Host.divf (F := Ideal) ones Mx)) (ix2 i c)
      = Ideal.div 1 (Mx (ix1 i)) := by
    rw [Idealize.ShloMosaic.HostColRow.bcast_col_apply]
    show broadcastInDim ⟨2, ![N, 1]⟩ ![0] h1 (Host.divf (F := Ideal) ones Mx) (ix2 i (0 : Fin 1)) = Ideal.div 1 (Mx (ix1 i))
    rw [Idealize.ShloMosaic.BcastVec.bcast_vec_col_apply]
    show Ideal.div (ones (ix1 i)) (Mx (ix1 i)) = _
    rw [hones]
  -- the two edge sums read at row i
  have hSK : ∀ k : Fin K, Host.scatterAdd (F := Ideal) (Idealize.ShloMosaic.ScatterRows.rowDims N E K wfsK) zK dst
        (Host.gather (Idealize.ShloMosaic.GatherRows.rowDims N E K wfgK) x src) (ix2 i k)
      = 0 + ∑ e ∈ Idealize.ShloMosaic.ScatterRows.hits (N := N) dst i, x (ix2 (Idealize.ShloMosaic.GatherRows.rowOf hN src e) k) := fun k => by
    rw [Idealize.ShloMosaic.HostSums.hostScatterAdd_eq, Idealize.ShloMosaic.ScatterRows.scatterAdd_rows_apply, hzK]
    congr 1
    exact Finset.sum_congr rfl fun e _ => Idealize.ShloMosaic.GatherRows.gather_rows_apply hN wfgK x src e k
  have hSC : Host.scatterAdd (F := Ideal) (Idealize.ShloMosaic.ScatterRows.rowDims N E C wfsC) zC dst
        (Host.gather (Idealize.ShloMosaic.GatherRows.rowDims N E C wfgC) (proj x W) src) (ix2 i c)
      = 0 + ∑ e ∈ Idealize.ShloMosaic.ScatterRows.hits (N := N) dst i,
          ∑ k : Fin K, x (ix2 (Idealize.ShloMosaic.GatherRows.rowOf hN src e) k) * W (ix2 k c) := by
    rw [Idealize.ShloMosaic.HostSums.hostScatterAdd_eq, Idealize.ShloMosaic.ScatterRows.scatterAdd_rows_apply, hzC]
    congr 1
    exact Finset.sum_congr rfl fun e _ => by
      rw [Idealize.ShloMosaic.GatherRows.gather_rows_apply hN wfgC (proj x W) src e c, proj_apply]
  rw [proj_apply]
  show (∑ k : Fin K, Ideal.div
        (Host.scatterAdd (F := Ideal) (Idealize.ShloMosaic.ScatterRows.rowDims N E K wfsK) zK dst
          (Host.gather (Idealize.ShloMosaic.GatherRows.rowDims N E K wfgK) x src) (ix2 i k))
        (broadcastInDim ⟨2, ![N, K]⟩ ![0, 1] h2K (broadcastInDim ⟨2, ![N, 1]⟩ ![0] h1 Mx) (ix2 i k)) * W (ix2 k c))
      = Host.scatterAdd (F := Ideal) (Idealize.ShloMosaic.ScatterRows.rowDims N E C wfsC) zC dst
          (Host.gather (Idealize.ShloMosaic.GatherRows.rowDims N E C wfgC) (proj x W) src) (ix2 i c)
        * broadcastInDim ⟨2, ![N, C]⟩ ![0, 1] h2C (broadcastInDim ⟨2, ![N, 1]⟩ ![0] h1 (Host.divf (F := Ideal) ones Mx)) (ix2 i c)
  rw [hSC, hBC]
  simp only [hSK, hBK]
  exact (edge_mean_entry _ (fun e k => x (ix2 (Idealize.ShloMosaic.GatherRows.rowOf hN src e) k)) (fun k => W (ix2 k c))
    (Mx (ix1 i)) (fun e k => hx _) (fun k => hW _) (hM _) (hM0 _)).symm

end Cert.Gnn

end
-- ==== Proof.LibScatterVec.lean ====
/-
  A scatter with an add body into a vector, read at an entry, over the extended reals.

  What segment_sum (x.at[idx].add(u)) of a vector x of N entries with R updates lowers to: a scatter with no update
  window axis, inserted window axis 0, scatter axis 0 mapped to operand axis 0, the index vector on axis 1 of the
  scatter indices [R, 1], and updates [R]. Update entry e lands on the operand entry idx (e, 0), read as a signed
  integer, when that entry exists, and is dropped otherwise. So the result's entry i is the operand's entry plus the
  sum of the update entries e whose index is i: the same set of update rows as for a row scatter of an [N, C] operand
  with the same scatter indices. The extents N, R are arbitrary.
-/
import proofs.«136951_j35622458753573_2_alg».proof.Proof.LibScatterRows

noncomputable section

open scoped BigOperators

namespace Idealize.ShloMosaic.ScatterVec

open Idealize.ShloMosaic Idealize.ShloMosaic.ValueIdx

/-- The dimension numbers of a scatter into a vector, for an operand [N], scatter indices [R, 1] and updates [R]; their
    conditions are decided on a program's literal shapes. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat}

/-- On the only operand axis the window starts at the update's index, read signed. -/
theorem start_vec (wf : ScatterDims.WF ⟨1, ![N]⟩ ⟨2, ![R, 1]⟩ ⟨1, ![R]⟩ [] [0] [0] 1)
    (j : (⟨1, ![R]⟩ : Shape).Idx) (idx : IVec ⟨2, ![R, 1]⟩ w) :
    (vecDims N R wf).start j idx 0 = (idx (ix2 (j 0) (0 : Fin 1))).toInt := by
  unfold ScatterDims.start
  rw [dif_pos (show (0 : Fin 1) ∈ (vecDims N R wf).scatterDimsToOperandDims from List.mem_singleton.mpr rfl)]
  have hsi : (vecDims N R wf).siIdx j ⟨List.idxOf (0 : Fin 1) (vecDims N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The only operand axis is inserted: its window coordinate is 0. -/
theorem window_vec (wf : ScatterDims.WF ⟨1, ![N]⟩ ⟨2, ![R, 1]⟩ ⟨1, ![R]⟩ [] [0] [0] 1)
    (j : (⟨1, ![R]⟩ : Shape).Idx) : (vecDims N R wf).window j 0 = 0 := by
  unfold ScatterDims.window
  rw [dif_neg]
  intro h
  have h2 := (List.mem_filter.mp h).2
  simp at h2

/-- An update entry lands on entry i exactly when its index is i. -/
theorem lands_iff (wf : ScatterDims.WF ⟨1, ![N]⟩ ⟨2, ![R, 1]⟩ ⟨1, ![R]⟩ [] [0] [0] 1)
    (j : (⟨1, ![R]⟩ : Shape).Idx) (idx : IVec ⟨2, ![R, 1]⟩ w) (i : Fin N) :
    (vecDims N R wf).resultIdx? j idx = some (ix1 i) ↔ (idx (ix2 (j 0) (0 : Fin 1))).toInt = (i.val : ℤ) := by
  rw [ScatterRows.resultIdx?_eq_some_iff]
  constructor
  · intro h
    have h0 : (vecDims N R wf).start j idx 0 + (((vecDims N R wf).window j 0 : ℕ) : ℤ) = (i.val : ℤ) := h 0
    rw [start_vec, window_vec] at h0
    omega
  · intro h0 a
    match a with
    | ⟨0, _⟩ =>
      show (vecDims N R wf).start j idx 0 + (((vecDims N R wf).window j 0 : ℕ) : ℤ) = (i.val : ℤ)
      rw [start_vec, window_vec, h0]
      omega

/-- The accumulating scatter into a vector at entry i: the operand's entry plus the sum of the update entries whose
    index is i (the update rows that a row scatter with the same indices lands on row i). -/
theorem scatterAdd_vec_apply (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (i : Fin N) :
    Ideal.hostScatterAdd (vecDims N R wf) x idx upd (ix1 i)
      = x (ix1 i) + ∑ e ∈ ScatterRows.hits (N := N) idx i, upd (ix1 e) := by
  unfold Ideal.hostScatterAdd
  congr 1
  refine Finset.sum_nbij' (fun j => (j 0 : Fin R)) (fun e => ix1 e) ?_ ?_ ?_ ?_ ?_
  · intro j hj
    rw [Finset.mem_filter] at hj
    exact Finset.mem_filter.mpr ⟨Finset.mem_univ _, (lands_iff wf j idx i).mp hj.2⟩
  · intro e he
    have he2 := (Finset.mem_filter.mp he).2
    rw [Finset.mem_filter]
    exact ⟨Finset.mem_univ _, (lands_iff wf (ix1 e) idx i).mpr he2⟩
  · intro j _
    exact (eq_ix1 j).symm
  · intro e _
    rfl
  · intro j _
    exact congrArg upd (eq_ix1 j)

end Idealize.ShloMosaic.ScatterVec

end
-- ==== Proof.LibCounts.lean ====
/-
  Counts are real and at least one.

  A count is accumulated from zero by adding one per item (per arriving edge, per node of a graph); the programs then
  take the larger of the count and one. As an extended real that value is a real number — a finite sum of ones, and a
  maximum of two reals — which is what lets a division by it be moved across sums.
-/
import Idealize.ShloMosaic.PureOps.Ideal
import Idealize.ShloMosaic.Lib.ValueIdx
import proofs.«136951_j35622458753573_2_alg».proof.Proof.LibFinite
import proofs.«136951_j35622458753573_2_alg».proof.Proof.LibScatterVec
import proofs.«136951_j35622458753573_2_alg».proof.Proof.LibHostSums

noncomputable section

open scoped BigOperators

namespace Cert.Gnn

open Idealize.ShloMosaic Idealize.ShloMosaic.ValueIdx Cert.LibFinite

variable {N R w : Nat}

/-- The larger of a count (ones scattered by index into zeros) and one is a real number. -/
theorem count_max_isFin (wf : ScatterDims.WF ⟨1, ![N]⟩ ⟨2, ![R, 1]⟩ ⟨1, ![R]⟩ [] [0] [0] 1)
    (zeros ones : FVec Ideal ⟨1, ![N]⟩ .f32) (onesR : FVec Ideal ⟨1, ![R]⟩ .f32) (idx : IVec ⟨2, ![R, 1]⟩ w)
    (hz : ∀ i, zeros i = 0) (hR : ∀ e, onesR e = 1) (hones : ∀ i, ones i = 1) (i : (⟨1, ![N]⟩ : Shape).Idx) :
    IsFin (maximumf (Host.scatterAdd (F := Ideal) (Idealize.ShloMosaic.ScatterVec.vecDims N R wf) zeros idx onesR) ones i) := by
  obtain ⟨p, rfl⟩ : ∃ p : Fin N, i = ix1 p := ⟨i 0, eq_ix1 i⟩
  show IsFin (max (Host.scatterAdd (F := Ideal) (Idealize.ShloMosaic.ScatterVec.vecDims N R wf) zeros idx onesR (ix1 p)) (ones (ix1 p)))
  rw [Idealize.ShloMosaic.HostSums.hostScatterAdd_eq, Idealize.ShloMosaic.ScatterVec.scatterAdd_vec_apply, hz, hones]
  exact IsFin.max (IsFin.add IsFin.zero (IsFin.sum _ _ fun e _ => by rw [hR]; exact IsFin.one)) IsFin.one

end Cert.Gnn

end
-- ==== Proof.Bridge.lean ====
/-
  The reference's stages, one after the other, are the kernel program's functions of the same arguments.

  Both programs read the same index columns (source rows, destination nodes, graph numbers) and the same counts from
  the edge array and the batch vector. The first graph layer agrees by the linearity law (the rows are projected before
  or after the average over the arriving edges; real features and weights are needed there). From the first layer's
  rows on, every stage is the same arithmetic up to "sum times one over the count" against "sum divided by the count":
  the two pooled means, the second layer's edge mean, and the second layer's dense part. So the two pooled blocks
  joined side by side — what the classifier is fed — are equal.
-/
import proofs.«136951_j35622458753573_2_alg».proof.Proof.Gen.ReferenceIdeal.Read
import proofs.«136951_j35622458753573_2_alg».proof.Proof.KDefs
import proofs.«136951_j35622458753573_2_alg».proof.Proof.LibMeanScale
import proofs.«136951_j35622458753573_2_alg».proof.Proof.HostLayer
import proofs.«136951_j35622458753573_2_alg».proof.Proof.LayerOne
import proofs.«136951_j35622458753573_2_alg».proof.Proof.LibCounts

noncomputable section

namespace Cert.Bridge

open Idealize.ShloMosaic Idealize.ShloMosaic.ValueIdx Cert.LibFinite Cert.Gnn
open Cert.KernelIdeal (S50000x128 S2x800000 S50000 S128x64 S64 S64x64 S64x10 S10 S50000x64 S256x64 S256x128 S256x10 S800000x1 S50000x1 S256x1 S256 S_ S800000)

/-- The edge array, the batch vector. -/
abbrev Edges := (⟨S2x800000, .i32⟩ : BufTy).Contents (Elt Ideal)
abbrev Batch := (⟨S50000, .i32⟩ : BufTy).Contents (Elt Ideal)

/-! ## The shared index columns and counts -/

theorem src_eq (x1 : Edges) : Cert.ReferenceIdeal.Read.val_main_v9 (F := Ideal) x1 = Cert.KernelIdeal.KVal.srcIdx x1 := rfl
theorem src_eq' (x1 : Edges) : Cert.ReferenceIdeal.Read.val_main_v47 (F := Ideal) x1 = Cert.KernelIdeal.KVal.srcIdx x1 := rfl
theorem dst_eq (x1 : Edges) : Cert.ReferenceIdeal.Read.val_main_v12 (F := Ideal) x1 = Cert.KernelIdeal.KVal.dstIdx x1 := rfl
theorem deg_eq (x1 : Edges) : Cert.ReferenceIdeal.Read.val_main_v19 (F := Ideal) x1 = Cert.KernelIdeal.KVal.degMax x1 := rfl
theorem deg_eq' (x1 : Edges) : Cert.ReferenceIdeal.Read.val_main_v57 (F := Ideal) x1 = Cert.KernelIdeal.KVal.degMax x1 := rfl
theorem cnt_eq (x2 : Batch) : Cert.ReferenceIdeal.Read.val_main_v38 (F := Ideal) x2 = Cert.KernelIdeal.KVal.cntMax x2 := rfl
theorem cnt_eq' (x2 : Batch) : Cert.ReferenceIdeal.Read.val_main_v76 (F := Ideal) x2 = Cert.KernelIdeal.KVal.cntMax x2 := rfl

/-- No degree count is zero, and each is a real number. -/
theorem deg_ne_zero (x1 : Edges) (i : S50000.Idx) : Cert.KernelIdeal.KVal.degMax x1 i ≠ 0 := by
  unfold Cert.KernelIdeal.KVal.degMax
  exact max_ones_ne_zero _ _ (ones_apply _) i

theorem deg_isFin (x1 : Edges) (i : S50000.Idx) : IsFin (Cert.KernelIdeal.KVal.degMax x1 i) := by
  unfold Cert.KernelIdeal.KVal.degMax
  exact count_max_isFin (N := 50000) (R := 800000) Cert.KernelIdeal.Facts₀.scatter_S50000_S800000x1_S800000_n_0_0_1_wf _ _ _ _
    (zeros_apply _) (ones_apply _) (ones_apply _) i

theorem cnt_ne_zero (x2 : Batch) (i : S256.Idx) : Cert.KernelIdeal.KVal.cntMax x2 i ≠ 0 := by
  unfold Cert.KernelIdeal.KVal.cntMax
  exact max_ones_ne_zero _ _ (ones_apply _) i

/-! ## Means: a sum times one over the count is the sum divided by the count -/

/-- The mean of h's rows over each graph. -/
theorem pool_eq (h : FVec Ideal S50000x64 .f32) (x2 : Batch) :
    Host.divf (F := Ideal) (Cert.KernelIdeal.KVal.graphSum h x2)
        (broadcastInDim S256x64 ![0, 1] Cert.KernelIdeal.Facts₀.bcast_S256x1_S256x64_0_1
          (broadcastInDim S256x1 ![0] Cert.KernelIdeal.Facts₀.bcast_S256_S256x1_0 (Cert.KernelIdeal.KVal.cntMax x2)))
      = Cert.KernelIdeal.KVal.poolK h x2 := by
  unfold Cert.KernelIdeal.KVal.poolK Cert.KernelIdeal.KVal.invCnt
  exact (mean_scale (a := 256) (b := 64) (Cert.KernelIdeal.KVal.graphSum h x2) (Cert.KernelIdeal.KVal.cntMax x2) _ (ones_apply _)
    (cnt_ne_zero x2) _ _).symm

/-- The mean of h's rows over the arriving edges. -/
theorem agg_eq (h : FVec Ideal S50000x64 .f32) (x1 : Edges) :
    Host.divf (F := Ideal) (Cert.KernelIdeal.KVal.edgeSum h x1)
        (broadcastInDim S50000x64 ![0, 1] Cert.KernelIdeal.Facts₀.bcast_S50000x1_S50000x64_0_1
          (broadcastInDim S50000x1 ![0] Cert.KernelIdeal.Facts₀.bcast_S50000_S50000x1_0 (Cert.KernelIdeal.KVal.degMax x1)))
      = Cert.KernelIdeal.KVal.aggK h x1 := by
  unfold Cert.KernelIdeal.KVal.aggK Cert.KernelIdeal.KVal.invDeg
  exact (mean_scale (a := 50000) (b := 64) (Cert.KernelIdeal.KVal.edgeSum h x1) (Cert.KernelIdeal.KVal.degMax x1) _ (ones_apply _)
    (deg_ne_zero x1) _ _).symm

/-! ## The stages -/

section Stages

variable (x0 : FVec Ideal S50000x128 .f32) (x1 : Edges) (x2 : Batch) (x3 : FVec Ideal S128x64 .f32) (x4 : FVec Ideal S64 .f32)
  (x5 : FVec Ideal S128x64 .f32) (x6 : FVec Ideal S64x64 .f32) (x7 : FVec Ideal S64 .f32) (x8 : FVec Ideal S64x64 .f32)

/-- The first layer's aggregated term: the rows are averaged over the arriving edges and then projected, or projected
    and then averaged. Real features and relation weights. -/
theorem agg1_eq (hx0 : ∀ i, IsFin (x0 i)) (hx3 : ∀ i, IsFin (x3 i)) :
    Host.dotGeneral (F := Ideal) (φ₁ := .f32) (DotDims.plain 50000 128 64) none (Cert.ReferenceIdeal.Read.val_main_v22 (F := Ideal) x0 x1) x3
      = Cert.KernelIdeal.KVal.aggK (proj x0 x3) x1 := by
  rw [host_dot_eq_proj]
  exact project_then_aggregate (N := 50000) (E := 800000) (K := 128) (C := 64) (by norm_num)
    Cert.ReferenceIdeal.Facts₀.gather_S50000x128_S800000x1_S800000x128_1_0_n_n_0_1_1128_wf
    Cert.KernelIdeal.Facts₀.gather_S50000x64_S800000x1_S800000x64_1_0_n_n_0_1_164_wf
    Cert.ReferenceIdeal.Facts₀.scatter_S50000x128_S800000x1_S800000x128_1_0_0_1_wf
    Cert.KernelIdeal.Facts₀.scatter_S50000x64_S800000x1_S800000x64_1_0_0_1_wf
    x0 x3 (Cert.KernelIdeal.KVal.srcIdx x1) (Cert.KernelIdeal.KVal.dstIdx x1) (Cert.KernelIdeal.KVal.degMax x1) _ _ _
    hx0 hx3 (deg_isFin x1) (deg_ne_zero x1) (ones_apply _) (zeros_apply _) (zeros_apply _) _ _ _

/-- The first layer. -/
theorem v29_eq (hx0 : ∀ i, IsFin (x0 i)) (hx3 : ∀ i, IsFin (x3 i)) :
    Cert.ReferenceIdeal.Read.val_main_v29 (F := Ideal) x0 x1 x3 x4 x5 = Cert.KernelIdeal.KVal.h1K x0 x1 x3 x4 x5 := by
  unfold Cert.KernelIdeal.KVal.h1K
  rw [← agg1_eq x0 x1 x3 hx0 hx3]
  exact host_layer (M := 50000) (K := 128) (N := 64) _ x4 x0 x5 _ _ _

/-- The second layer over any first-layer rows h. -/
theorem layer2_eq (h : FVec Ideal S50000x64 .f32) :
    maximumf
        (addf (addf (Host.dotGeneral (F := Ideal) (DotDims.plain 50000 64 64) none
              (Host.divf (F := Ideal) (Cert.KernelIdeal.KVal.edgeSum h x1)
                (broadcastInDim S50000x64 ![0, 1] Cert.KernelIdeal.Facts₀.bcast_S50000x1_S50000x64_0_1
                  (broadcastInDim S50000x1 ![0] Cert.KernelIdeal.Facts₀.bcast_S50000_S50000x1_0 (Cert.KernelIdeal.KVal.degMax x1)))) x6)
            (broadcastInDim S50000x64 ![0, 1] Cert.ReferenceIdeal.Facts₀.bcast_S1x64_S50000x64_0_1
              (broadcastInDim Cert.ReferenceIdeal.S1x64 ![1] Cert.ReferenceIdeal.Facts₀.bcast_S64_S1x64_1 x7)))
          (Host.dotGeneral (F := Ideal) (DotDims.plain 50000 64 64) none h x8))
        (broadcastInDim S50000x64 ![] Cert.KernelIdeal.Facts₀.bcast_S_S50000x64 (constant (F := Ideal) S_ .f32 0x00000000#32))
      = Cert.KernelIdeal.KVal.h2K h x1 x6 x7 x8 := by
  unfold Cert.KernelIdeal.KVal.h2K
  rw [agg_eq h x1, host_dot_eq_proj]
  exact host_layer (M := 50000) (K := 64) (N := 64) _ x7 h x8 _ _ _

theorem v67_eq :
    Cert.ReferenceIdeal.Read.val_main_v67 (F := Ideal) x0 x1 x3 x4 x5 x6 x7 x8
      = Cert.KernelIdeal.KVal.h2K (Cert.ReferenceIdeal.Read.val_main_v29 (F := Ideal) x0 x1 x3 x4 x5) x1 x6 x7 x8 :=
  layer2_eq x1 x6 x7 x8 (Cert.ReferenceIdeal.Read.val_main_v29 (F := Ideal) x0 x1 x3 x4 x5)

theorem v41_eq :
    Cert.ReferenceIdeal.Read.val_main_v41 (F := Ideal) x0 x1 x2 x3 x4 x5
      = Cert.KernelIdeal.KVal.poolK (Cert.ReferenceIdeal.Read.val_main_v29 (F := Ideal) x0 x1 x3 x4 x5) x2 :=
  pool_eq (Cert.ReferenceIdeal.Read.val_main_v29 (F := Ideal) x0 x1 x3 x4 x5) x2

theorem v79_eq :
    Cert.ReferenceIdeal.Read.val_main_v79 (F := Ideal) x0 x1 x2 x3 x4 x5 x6 x7 x8
      = Cert.KernelIdeal.KVal.poolK (Cert.ReferenceIdeal.Read.val_main_v67 (F := Ideal) x0 x1 x3 x4 x5 x6 x7 x8) x2 :=
  pool_eq (Cert.ReferenceIdeal.Read.val_main_v67 (F := Ideal) x0 x1 x3 x4 x5 x6 x7 x8) x2

/-- What the classifier is fed: the two pooled blocks side by side. -/
theorem v80_eq (hx0 : ∀ i, IsFin (x0 i)) (hx3 : ∀ i, IsFin (x3 i)) :
    Cert.ReferenceIdeal.Read.val_main_v80 (F := Ideal) x0 x1 x2 x3 x4 x5 x6 x7 x8
      = Cert.KernelIdeal.KVal.pooled (Cert.KernelIdeal.KVal.h1K x0 x1 x3 x4 x5)
          (Cert.KernelIdeal.KVal.h2K (Cert.KernelIdeal.KVal.h1K x0 x1 x3 x4 x5) x1 x6 x7 x8) x2 := by
  unfold Cert.ReferenceIdeal.Read.val_main_v80 Cert.KernelIdeal.KVal.pooled
  rw [v41_eq, v79_eq, v67_eq, v29_eq x0 x1 x3 x4 x5 hx0 hx3]

end Stages

end Cert.Bridge

end
-- ==== Proof.TailRef.lean ====
/-
  The reference's classifier tail as one function of arrays, over the extended reals.

  From the pooled features z : [256, 128], the weights w1 : [128, 64], w2 : [64, 10] and the biases b1 : [64],
  b2 : [10], the reference computes the hidden layer h = max (z · w1 + b1) 0, the logits l = h · w2 + b2, and the
  row-wise log-softmax of l: with m the row maximum (taken against -∞ once more) and s = l - m, the result is
  s - log (Σ_k exp s (·, k)). The stages are spelt with the host's operations exactly as the generated read-back
  module spells them, so that module's last value is this function of its value of z (val_eq_refTail).
-/
import proofs.«136951_j35622458753573_2_alg».proof.Proof.Gen.ReferenceIdeal.Read

noncomputable section

namespace Cert.ReferenceIdeal.Tail

open Cert.ReferenceIdeal Cert.ReferenceIdeal.Gen Idealize.ShloMosaic Idealize.ShloMosaic.TcCoe Idealize.SL.Sem Idealize.ShloMosaic.StableHlo

/-- The hidden layer: max (z · w1 + b1) 0, the bias broadcast first to one row and then over the rows, the zero a
    rank-0 constant broadcast over the matrix. -/
def refHidden (z : FVec Ideal S256x128 .f32) (w1 : FVec Ideal S128x64 .f32) (b1 : FVec Ideal S64 .f32) :
    FVec Ideal S256x64 .f32 :=
  maximumf
    (addf (Host.dotGeneral (F := Ideal) dot_S256x128_S128x64_S256x64_1_0_0_1_n_n none z w1)
      (broadcastInDim S256x64 ![0, 1] bcast_S1x64_S256x64_0_1 (broadcastInDim S1x64 ![1] bcast_S64_S1x64_1 b1)))
    (broadcastInDim S256x64 ![] bcast_S_S256x64 (constant (F := Ideal) S_ .f32 0x00000000#32))

/-- The logits: h · w2 + b2. -/
def refLogits (h : FVec Ideal S256x64 .f32) (w2 : FVec Ideal S64x10 .f32) (b2 : FVec Ideal S10 .f32) :
    FVec Ideal S256x10 .f32 :=
  addf (Host.dotGeneral (F := Ideal) dot_S256x64_S64x10_S256x10_1_0_0_1_n_n none h w2)
    (broadcastInDim S256x10 ![0, 1] bcast_S1x10_S256x10_0_1 (broadcastInDim S1x10 ![1] bcast_S10_S1x10_1 b2))

/-- The row maxima of the logits, from -∞, and against -∞ once more. -/
def refRowMax (l : FVec Ideal S256x10 .f32) : FVec Ideal S256 .f32 :=
  maximumf (broadcastInDim S256 ![] bcast_S_S256 (constant (F := Ideal) S_ .f32 0xFF800000#32))
    (Host.reduce (FloatOps.maximumf (F := Ideal) (φ := .f32)) l (constant (F := Ideal) S_ .f32 0xFF800000#32)
      reducesTo_S256x10_S256_d1 h_S_)

/-- The logits less their row maximum. -/
def refShifted (l : FVec Ideal S256x10 .f32) : FVec Ideal S256x10 .f32 :=
  subf l (broadcastInDim S256x10 ![0, 1] bcast_S256x1_S256x10_0_1
    (broadcastInDim S256x1 ![0] bcast_S256_S256x1_0 (refRowMax l)))

/-- The row-wise log-softmax: the shifted logits less the logarithm of the row sum of their exponentials. -/
def refLogSoftmax (l : FVec Ideal S256x10 .f32) : FVec Ideal S256x10 .f32 :=
  subf (refShifted l) (broadcastInDim S256x10 ![0, 1] bcast_S256x1_S256x10_0_1
    (Host.log (F := Ideal) (broadcastInDim S256x1 ![0] bcast_S256_S256x1_0
      (Host.reduceAdd (F := Ideal) (Host.exp (F := Ideal) (refShifted l)) (constant (F := Ideal) S_ .f32 0x00000000#32)
        reducesTo_S256x10_S256_d1 h_S_))))

/-- The classifier tail: the log-softmax of the logits of the hidden layer. -/
def refTail (z : FVec Ideal S256x128 .f32) (w1 : FVec Ideal S128x64 .f32) (b1 : FVec Ideal S64 .f32)
    (w2 : FVec Ideal S64x10 .f32) (b2 : FVec Ideal S10 .f32) : FVec Ideal S256x10 .f32 :=
  refLogSoftmax (refLogits (refHidden z w1 b1) w2 b2)

/-- The reference's result is the classifier tail of its pooled features: its last stages, from the first dense
    layer on, are the tail's operations one by one. -/
theorem val_eq_refTail (x0 : (⟨S50000x128, .f32⟩ : BufTy).Contents (Elt Ideal)) (x1 : (⟨S2x800000, .i32⟩ : BufTy).Contents (Elt Ideal)) (x2 : (⟨S50000, .i32⟩ : BufTy).Contents (Elt Ideal)) (x3 : (⟨S128x64, .f32⟩ : BufTy).Contents (Elt Ideal)) (x4 : (⟨S64, .f32⟩ : BufTy).Contents (Elt Ideal)) (x5 : (⟨S128x64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S128x64, .f32⟩ : BufTy).Contents (Elt Ideal)) (x10 : (⟨S64, .f32⟩ : BufTy).Contents (Elt Ideal)) (x11 : (⟨S64x10, .f32⟩ : BufTy).Contents (Elt Ideal)) (x12 : (⟨S10, .f32⟩ : BufTy).Contents (Elt Ideal)) :
    Read.val_main_v90 (F := Ideal) x0 x1 x2 x3 x4 x5 x6 x7 x8 x9 x10 x11 x12
      = refTail (Read.val_main_v80 (F := Ideal) x0 x1 x2 x3 x4 x5 x6 x7 x8) x9 x10 x11 x12 := by
  unfold Read.val_main_v90 Read.val_main_call3_v10 Read.val_main_call3_v9 Read.val_main_call3_v8 Read.val_main_call3_v7
    Read.val_main_call3_cst_1 Read.val_main_call3_v6 Read.val_main_call3_v5 Read.val_main_call3_v4 Read.val_main_call3_v3
    Read.val_main_call3_v2 Read.val_main_call3_v1 Read.val_main_call3_cst_0 Read.val_main_call3_v0 Read.val_main_call3_cst
    Read.val_main_v89 Read.val_main_v88 Read.val_main_v87 Read.val_main_v86 Read.val_main_v85 Read.val_main_call2_v0
    Read.val_main_call2_cst Read.val_main_v84 Read.val_main_v83 Read.val_main_v82 Read.val_main_v81
  generalize Read.val_main_v80 (F := Ideal) x0 x1 x2 x3 x4 x5 x6 x7 x8 = z
  rfl

end Cert.ReferenceIdeal.Tail

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibHostRowMax.lean ====
/-
  The host's reduction of a matrix by maximum along its second axis, read at a row, over the extended reals.

  For an `[a, b]` matrix `x` and an initial value held in an array `init` of any non-empty shape, the host's
  one-operand reduce with a maximum body along axis 1 is, at row `i`, the fold of `max` from the initial value's
  first entry over `x (i, k)`, `k < b`. Arbitrary extents and any float format. (The library states this over the
  reduced shape's own index with the coordinate put back; here the index is spelt by its two coordinates.)
-/
import Idealize.ShloMosaic.PureOps.Ideal.Laws
import Idealize.ShloMosaic.PureOps.Reduce
import Idealize.ShloMosaic.Lib.ValueIdx

noncomputable section

namespace Idealize.ShloMosaic.HostRowMax

open Idealize.ShloMosaic Idealize.ShloMosaic.ValueIdx

variable {a b : ℕ} {φ : FTy}

/-- The host's row maxima: at row `i`, the fold of `max` over the row's entries from the initial value. -/
theorem hostRowMax_apply {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  refine congrArg (Finset.fold max (init (Shape.Idx.first hu)) · (Finset.univ : Finset (Fin b))) (funext fun k => ?_)
  exact congrArg x (funext fun c => Fin.ext (by match c with | ⟨0, _⟩ => rfl | ⟨1, _⟩ => rfl))

end Idealize.ShloMosaic.HostRowMax

end
-- ==== Proof.LibTailPieces.lean ====
/-
  A dense layer, a row maximum, a row sum and a column kept as a unit axis, each written once with the matrix unit's
  and the vector unit's operations and once with the host's, are the same arrays over the extended reals.

  Each statement is an equation between whole arrays, for arbitrary extents; each is proved by reading both sides
  at an index: a dense layer at (p, q) is Σ_k A (p, k) · B (k, q) + b q on either side (a change of float format is
  the identity); a row maximum at p is the fold of max over the row from the initial value; a row sum at p is the
  sum of the row (the host's starts from the constant 0); a vector cast to a column and spread over the lanes holds
  at (p, q) the vector's entry p on either side; a scalar spread over a shape holds the scalar everywhere.
-/
import proofs.«136951_j35622458753573_2_alg».proof.Proof.LibDense
import proofs.«136951_j35622458753573_2_alg».proof.Proof.LibRowReduce
import proofs.«136951_j35622458753573_2_alg».proof.Proof.LibHostRowMax
import proofs.«136951_j35622458753573_2_alg».proof.Proof.LibKeepdims
import proofs.«136951_j35622458753573_2_alg».proof.Proof.LibHostColRow

noncomputable section

open scoped BigOperators

namespace Idealize.ShloMosaic.TailPieces

open Idealize.ShloMosaic Idealize.ShloMosaic.ValueIdx

/-- A scalar constant spread over a shape is the rank-0 constant broadcast to the shape. -/
theorem splat_eq {s : Shape} {φ : FTy} (bits : BitVec φ.bits)
    (h : (⟨0, ![]⟩ : Shape).BroadcastsInDim s (![] : Fin 0 → Fin s.rank)) :
    broadcast s (FloatOps.ofBits (F := Ideal) φ bits)
      = broadcastInDim s ![] h (constant (F := Ideal) ⟨0, ![]⟩ φ bits) := by
  funext i
  exact (broadcastInDim_apply _ h (constant (F := Ideal) ⟨0, ![]⟩ φ bits) i ix0 (fun a => a.elim0)).symm

/-- A dense layer on the matrix unit (operands changed to other float formats, the product taken into a zero
    accumulator, the bias cast to one row and spread over the rows) is the host's dense layer. -/
theorem dense_eq {M K N : ℕ} {ψ₁ ψ₂ : FTy} (A : FVec Ideal ⟨2, ![M, K]⟩ .f32) (B : FVec Ideal ⟨2, ![K, N]⟩ .f32)
    (b : FVec Ideal ⟨1, ![N]⟩ .f32) (hA : ψ₁.bits < FTy.bits .f32) (hB : ψ₂.bits < FTy.bits .f32)
    (hc : (⟨1, ![N]⟩ : Shape).ShapeCasts ⟨2, ![1, N]⟩) (hb : (⟨2, ![1, N]⟩ : Shape).Broadcasts ⟨2, ![M, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    addf (matmul (DotDims.plain M K N) none (truncf ψ₁ A hA) (truncf ψ₂ B hB)
          (constant (F := Ideal) ⟨2, ![M, N]⟩ .f32 0x00000000#32))
        (broadcastTo ⟨2, ![M, N]⟩ (shapeCast ⟨2, ![1, N]⟩ b hc) hb)
      = addf (Host.dotGeneral (F := Ideal) (DotDims.plain M K N) none A B)
        (broadcastInDim ⟨2, ![M, N]⟩ ![0, 1] h2 (broadcastInDim ⟨2, ![1, N]⟩ ![1] h1 b)) := by
  funext j
  obtain ⟨p, q, rfl⟩ : ∃ (p : Fin M) (q : Fin N), j = ix2 p q := ⟨j 0, j 1, eq_ix2 j⟩
  rw [Dense.matmul_bias_apply, Dense.dot_bias_apply, shapeCast_a_1a_apply]
  rfl

/-- The row maxima taken by the vector unit from an accumulator are the host's row maxima from the rank-0 constant
    of the same bits. -/
theorem rowMax_eq {a b : ℕ} {φ : FTy} (l : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ)
    (h' : (⟨2, ![a, b]⟩ : Shape).ReducesTo [1] ⟨1, ![a]⟩) (hu : 0 < (⟨0, ![]⟩ : Shape).numel) :
    multiReduction .maximumf [1] ⟨1, ![a]⟩ l acc h hφ hacc
      = Host.reduce (FloatOps.maximumf (F := Ideal) (φ := φ)) l (constant (F := Ideal) ⟨0, ![]⟩ φ acc) h' hu := by
  funext i
  obtain ⟨p, rfl⟩ : ∃ p : Fin a, i = ix1 p := ⟨i 0, eq_ix1 i⟩
  rw [RowReduce.rowMax_apply, HostRowMax.hostRowMax_apply (φ := φ) l _ h' h hu p]
  rfl

/-- The host's row sums: at row i, the initial value plus the sum of the row's entries. -/
theorem hostRowSum_apply {a b : ℕ} {φ : FTy} {u : Shape} (e : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd (F := Ideal) e init h' hu (ix1 i) = init (Shape.Idx.first hu) + ∑ k : Fin b, e (ix2 i k) := by
  refine (Ideal.hostReduceAdd_single h' h e (init (Shape.Idx.first hu)) (ix1 i)).trans ?_
  refine congrArg (init (Shape.Idx.first hu) + ·) (Finset.sum_congr rfl fun k _ => ?_)
  exact congrArg e (funext fun c => Fin.ext (by match c with | ⟨0, _⟩ => rfl | ⟨1, _⟩ => rfl))

/-- The row sums taken by the vector unit are the host's row sums from the rank-0 constant 0. -/
theorem rowSum_eq {a b : ℕ} (e : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ)
    (h' : (⟨2, ![a, b]⟩ : Shape).ReducesTo [1] ⟨1, ![a]⟩) (hu : 0 < (⟨0, ![]⟩ : Shape).numel) :
    multiReduction .add [1] ⟨1, ![a]⟩ e 0x00000000#32 h hφ hacc
      = Host.reduceAdd (F := Ideal) e (constant (F := Ideal) ⟨0, ![]⟩ .f32 0x00000000#32) h' hu := by
  funext i
  obtain ⟨p, rfl⟩ : ∃ p : Fin a, i = ix1 p := ⟨i 0, eq_ix1 i⟩
  rw [RowReduce.rowSum_apply, hostRowSum_apply e _ h' h hu p]
  show _ = Ideal.ofBits .f32 0x00000000#32 + _
  rw [Ideal.ofBits_zero_f32, zero_add]

/-- A column spread over the lanes by the vector unit is the column broadcast by the host. -/
theorem colBcast_eq {α : Type} {a b : ℕ} (v : (⟨2, ![a, 1]⟩ : Shape).Idx → α)
    (h : (⟨2, ![a, 1]⟩ : Shape).Broadcasts ⟨2, ![a, b]⟩)
    (h' : (⟨2, ![a, 1]⟩ : Shape).BroadcastsInDim ⟨2, ![a, b]⟩ ![0, 1]) :
    broadcastTo ⟨2, ![a, b]⟩ v h = broadcastInDim ⟨2, ![a, b]⟩ ![0, 1] h' v := by
  funext j
  obtain ⟨p, q, rfl⟩ : ∃ (p : Fin a) (q : Fin b), j = ix2 p q := ⟨j 0, j 1, eq_ix2 j⟩
  rw [Keepdims.broadcastTo_a1_ab_apply, HostColRow.bcast_col_apply]
  rfl

/-- A vector cast to a column and spread over the lanes is the vector broadcast to a column and then over the
    lanes. -/
theorem keepdims_eq {α : Type} {a b : ℕ} (m : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (hc' : (⟨1, ![a]⟩ : Shape).BroadcastsInDim ⟨2, ![a, 1]⟩ ![0])
    (hb' : (⟨2, ![a, 1]⟩ : Shape).BroadcastsInDim ⟨2, ![a, b]⟩ ![0, 1]) :
    broadcastTo ⟨2, ![a, b]⟩ (shapeCast ⟨2, ![a, 1]⟩ m hc) hb
      = broadcastInDim ⟨2, ![a, b]⟩ ![0, 1] hb' (broadcastInDim ⟨2, ![a, 1]⟩ ![0] hc' m) := by
  rw [HostColRow.col_eq m hc hc', colBcast_eq _ hb hb']

/-- The exponential and the logarithm of the vector unit are the host's. -/
theorem exp_eq {s : Shape} {φ : FTy} (x : FVec Ideal s φ) : exp x = Host.exp (F := Ideal) x := rfl
theorem log_eq {s : Shape} {φ : FTy} (x : FVec Ideal s φ) : log x = Host.log (F := Ideal) x := rfl

end Idealize.ShloMosaic.TailPieces

end
-- ==== Proof.Tail.lean ====
/-
  The kernel's classifier tail is the reference's, as arrays over the extended reals.

  The last kernel body computes, from the pooled features z : [256, 128], the weights w1 : [128, 64], w2 : [64, 10] and
  the biases b1 : [64], b2 : [10]: the hidden layer max (z · w1 + b1) 0 (operands changed to a narrower float format,
  which is the identity here; the product taken into a zero accumulator; the bias cast to one row and spread over
  the rows), the logits h · w2 + b2 likewise, the row maxima m of the logits (from -∞, and against -∞ once more), the
  shifted logits s = l - m, and s - log (Σ_k exp s (·, k)), the maximum and the sum each cast to a column and spread
  over the lanes. Stage by stage these are the reference's arrays (the host's dot_general, reduce and broadcasts):
  each stage's equation is one of the general array equations, so the whole tail is the reference's tail.
-/
import proofs.«136951_j35622458753573_2_alg».proof.Proof.TailRef
import proofs.«136951_j35622458753573_2_alg».proof.Proof.LibTailPieces
import proofs.«136951_j35622458753573_2_alg».proof.Proof.Gen.KernelIdeal.Skeleton

noncomputable section

/-! ## The kernel's stages, named -/

namespace Cert.KernelIdeal.Tail

open Cert.KernelIdeal Cert.KernelIdeal.Gen Idealize.ShloMosaic Idealize.SL.Sem

/-- The hidden layer as the kernel body computes it. -/
def kHidden (z : FVec Ideal S256x128 .f32) (w1 : FVec Ideal S128x64 .f32) (b1 : FVec Ideal S64 .f32) :
    FVec Ideal S256x64 .f32 :=
  maximumf
    (addf
      (matmul dot_S256x128_S128x64_S256x64_1_0_0_1_n_n none
        (truncf .bf16 (shapeCast S256x128 z shapeCasts_S256x128_S256x128) bitsLt_bf16_f32)
        (truncf .bf16 w1 bitsLt_bf16_f32) (constant (F := Ideal) S256x64 .f32 0x00000000#32))
      (broadcastTo S256x64 (shapeCast S1x64 b1 shapeCasts_S64_S1x64) broadcasts_S1x64_S256x64))
    (broadcast S256x64 (Scalar.ofBits (F := Ideal) .f32 0x00000000#32))

/-- The logits as the kernel body computes them. -/
def kLogits (h : FVec Ideal S256x64 .f32) (w2 : FVec Ideal S64x10 .f32) (b2 : FVec Ideal S10 .f32) :
    FVec Ideal S256x10 .f32 :=
  addf
    (matmul dot_S256x64_S64x10_S256x10_1_0_0_1_n_n none (truncf .bf16 h bitsLt_bf16_f32)
      (truncf .bf16 w2 bitsLt_bf16_f32) (constant (F := Ideal) S256x10 .f32 0x00000000#32))
    (broadcastTo S256x10 (shapeCast S1x10 b2 shapeCasts_S10_S1x10) broadcasts_S1x10_S256x10)

/-- The row maxima of the logits as the kernel body computes them. -/
def kRowMax (l : FVec Ideal S256x10 .f32) : FVec Ideal S256 .f32 :=
  maximumf (broadcast S256 (Scalar.ofBits (F := Ideal) .f32 0xFF800000#32))
    (multiReduction .maximumf [1] S256 l 0xFF800000#32 reduces_S256x10_S256 (.inl rfl) rfl)

/-- The logits less their row maximum as the kernel body computes them. -/
def kShifted (l : FVec Ideal S256x10 .f32) : FVec Ideal S256x10 .f32 :=
  subf l (broadcastTo S256x10 (shapeCast S256x1 (kRowMax l) shapeCasts_S256_S256x1) broadcasts_S256x1_S256x10)

/-- The row-wise log-softmax as the kernel body computes it. -/
def kLogSoftmax (l : FVec Ideal S256x10 .f32) : FVec Ideal S256x10 .f32 :=
  subf (kShifted l)
    (broadcastTo S256x10
      (log (shapeCast S256x1
        (multiReduction .add [1] S256 (exp (kShifted l)) 0x00000000#32 reduces_S256x10_S256 (.inl rfl) rfl)
        shapeCasts_S256_S256x1))
      broadcasts_S256x1_S256x10)

/-- The kernel body's stored value is the composition of the named stages. -/
theorem k3_pay1_eq (z : FVec Ideal S256x128 .f32) (w1 : FVec Ideal S128x64 .f32) (b1 : FVec Ideal S64 .f32)
    (w2 : FVec Ideal S64x10 .f32) (b2 : FVec Ideal S10 .f32) :
    k3_pay1 (F := Ideal) z w1 b1 w2 b2 = kLogSoftmax (kLogits (kHidden z w1 b1) w2 b2) := rfl

end Cert.KernelIdeal.Tail

/-! ## Stage by stage, the kernel's arrays are the reference's -/

namespace Cert.ReferenceIdeal.Tail

open Cert.ReferenceIdeal Cert.ReferenceIdeal.Gen Idealize.ShloMosaic Idealize.ShloMosaic.ValueIdx
open Cert.KernelIdeal.Tail (kHidden kLogits kRowMax kShifted kLogSoftmax)

/-- The dimension numbers of the two products are the plain ones, in both programs. -/
theorem kdot1 : Cert.KernelIdeal.dot_S256x128_S128x64_S256x64_1_0_0_1_n_n = DotDims.plain 256 128 64 := rfl
theorem kdot2 : Cert.KernelIdeal.dot_S256x64_S64x10_S256x10_1_0_0_1_n_n = DotDims.plain 256 64 10 := rfl
theorem rdot1 : Cert.ReferenceIdeal.dot_S256x128_S128x64_S256x64_1_0_0_1_n_n = DotDims.plain 256 128 64 := rfl
theorem rdot2 : Cert.ReferenceIdeal.dot_S256x64_S64x10_S256x10_1_0_0_1_n_n = DotDims.plain 256 64 10 := rfl

/-- The hidden layers agree. -/
theorem hidden_eq (z : FVec Ideal S256x128 .f32) (w1 : FVec Ideal S128x64 .f32) (b1 : FVec Ideal S64 .f32) :
    kHidden z w1 b1 = refHidden z w1 b1 := by
  unfold kHidden refHidden
  rw [shapeCast_self, kdot1, rdot1,
    TailPieces.dense_eq z w1 b1 _ _ _ _ bcast_S64_S1x64_1 bcast_S1x64_S256x64_0_1,
    TailPieces.splat_eq _ bcast_S_S256x64]

/-- The logits of one hidden layer agree. -/
theorem logits_eq (h : FVec Ideal S256x64 .f32) (w2 : FVec Ideal S64x10 .f32) (b2 : FVec Ideal S10 .f32) :
    kLogits h w2 b2 = refLogits h w2 b2 := by
  unfold kLogits refLogits
  rw [kdot2, rdot2, TailPieces.dense_eq h w2 b2 _ _ _ _ bcast_S10_S1x10_1 bcast_S1x10_S256x10_0_1]

/-- The row maxima of one array of logits agree. -/
theorem rowMax_eq (l : FVec Ideal S256x10 .f32) : kRowMax l = refRowMax l := by
  unfold kRowMax refRowMax
  rewrite [TailPieces.splat_eq _ bcast_S_S256]
  refine congrArg _ ?_
  exact TailPieces.rowMax_eq l _ _ _ _ reducesTo_S256x10_S256_d1 h_S_

/-- The shifted logits agree. -/
theorem shifted_eq (l : FVec Ideal S256x10 .f32) : kShifted l = refShifted l := by
  unfold kShifted refShifted
  rw [rowMax_eq l, TailPieces.keepdims_eq _ _ _ bcast_S256_S256x1_0 bcast_S256x1_S256x10_0_1]

/-- The log-softmax of one array of logits is the same array on both sides. -/
theorem logSoftmax_eq (l : FVec Ideal S256x10 .f32) : kLogSoftmax l = refLogSoftmax l := by
  unfold kLogSoftmax refLogSoftmax
  rewrite [shifted_eq l, TailPieces.exp_eq, TailPieces.log_eq, HostColRow.col_eq _ _ bcast_S256_S256x1_0,
    TailPieces.colBcast_eq _ _ bcast_S256x1_S256x10_0_1,
    ← TailPieces.rowSum_eq (Host.exp (F := Ideal) (refShifted l)) Cert.KernelIdeal.Gen.reduces_S256x10_S256
      (.inl rfl) rfl reducesTo_S256x10_S256_d1 h_S_]
  rfl

/-- The kernel's classifier tail is the reference's. -/
theorem tail_eq (z : FVec Ideal ⟨2, ![256, 128]⟩ .f32) (w1 : FVec Ideal ⟨2, ![128, 64]⟩ .f32)
    (b1 : FVec Ideal ⟨1, ![64]⟩ .f32) (w2 : FVec Ideal ⟨2, ![64, 10]⟩ .f32) (b2 : FVec Ideal ⟨1, ![10]⟩ .f32) :
    Cert.KernelIdeal.Gen.k3_pay1 (F := Ideal) z w1 b1 w2 b2 = refTail z w1 b1 w2 b2 := by
  rw [Cert.KernelIdeal.Tail.k3_pay1_eq, hidden_eq, logits_eq, logSoftmax_eq]
  rfl

end Cert.ReferenceIdeal.Tail

end
-- ==== Proof.Value.lean ====
/-
  The reference's result is the kernel program's function of the same arguments.

  The reference's last stages (the classifier and the log-softmax) applied to the joined pooled blocks are the kernel's
  classifier body applied to the same blocks; and the blocks are equal by the stage-by-stage comparison, which needs
  the node features and the first relation weights to be real numbers.
-/
import proofs.«136951_j35622458753573_2_alg».proof.Proof.Bridge
import proofs.«136951_j35622458753573_2_alg».proof.Proof.TailRef
import proofs.«136951_j35622458753573_2_alg».proof.Proof.Tail

noncomputable section

namespace Cert.Bridge

open Idealize.ShloMosaic Cert.LibFinite
open Cert.KernelIdeal (S50000x128 S2x800000 S50000 S128x64 S64 S64x64 S64x10 S10)

theorem ref_eq_kernel (x0 : FVec Ideal S50000x128 .f32) (x1 : Edges) (x2 : Batch) (x3 : FVec Ideal S128x64 .f32)
    (x4 : FVec Ideal S64 .f32) (x5 : FVec Ideal S128x64 .f32) (x6 : FVec Ideal S64x64 .f32) (x7 : FVec Ideal S64 .f32)
    (x8 : FVec Ideal S64x64 .f32) (x9 : FVec Ideal S128x64 .f32) (x10 : FVec Ideal S64 .f32) (x11 : FVec Ideal S64x10 .f32)
    (x12 : FVec Ideal S10 .f32) (hx0 : ∀ i, IsFin (x0 i)) (hx3 : ∀ i, IsFin (x3 i)) :
    Cert.ReferenceIdeal.Read.val_main_v90 (F := Ideal) x0 x1 x2 x3 x4 x5 x6 x7 x8 x9 x10 x11 x12
      = Cert.KernelIdeal.KVal.outK x0 x1 x2 x3 x4 x5 x6 x7 x8 x9 x10 x11 x12 := by
  rw [Cert.ReferenceIdeal.Tail.val_eq_refTail, v80_eq x0 x1 x2 x3 x4 x5 x6 x7 x8 hx0 hx3]
  unfold Cert.KernelIdeal.KVal.outK
  exact (Cert.ReferenceIdeal.Tail.tail_eq _ x9 x10 x11 x12).symm

end Cert.Bridge

end
-- ==== Proof.lean ====
/-
  A two-layer graph network with mean aggregation, two per-graph mean pools, a two-layer classifier and a log-softmax:
  the kernel program against its reference, over the extended reals.

  The kernel program runs four dense stages on the matrix unit (a projection of the node features, the first layer's
  dense part, the second layer's, and the classifier) with the irregular steps — gathering rows along edges, summing
  them per destination node, summing rows per graph — on the host in between. It differs from the reference in two
  ways. (1) In the first layer it projects the 128 features to 64 BEFORE gathering and summing along the edges, where
  the reference sums the 128-wide rows, divides by the degree and projects last: equal by linearity, which on the
  extended reals needs the features and the relation weights to be real numbers (the precondition). (2) Every mean is
  "sum times one over the count" where the reference has "sum divided by the count": equal because the count, a
  maximum with one, is never zero. Everything else is the same arithmetic in the same order (a change of float format
  is the identity here, and the matrix unit's product is the host's).

  The kernel side: its run with the result named, the result read back through the fold of the host stretches and the
  four regions, and each region's output array as one whole-array function of its inputs. The reference side: its
  generated run and stage-by-stage read-back. The three frames are the generated ones; the idealization rewrote
  nothing, so `preserves` is `True`.
-/
import proofs.«136951_j35622458753573_2_alg».proof.Defs
import proofs.«136951_j35622458753573_2_alg».proof.Proof.Gen.Kernel
import proofs.«136951_j35622458753573_2_alg».proof.Proof.Gen.Kernel.Skeleton
import proofs.«136951_j35622458753573_2_alg».proof.Proof.Gen.Kernel.Launch
import proofs.«136951_j35622458753573_2_alg».proof.Proof.Gen.Kernel.Points
import proofs.«136951_j35622458753573_2_alg».proof.Proof.Gen.Kernel.Frame
import proofs.«136951_j35622458753573_2_alg».proof.Proof.Gen.KernelIdeal
import proofs.«136951_j35622458753573_2_alg».proof.Proof.Gen.KernelIdeal.Skeleton
import proofs.«136951_j35622458753573_2_alg».proof.Proof.Gen.KernelIdeal.Launch
import proofs.«136951_j35622458753573_2_alg».proof.Proof.Gen.KernelIdeal.Points
import proofs.«136951_j35622458753573_2_alg».proof.Proof.Gen.KernelIdeal.Frame
import proofs.«136951_j35622458753573_2_alg».proof.Proof.Gen.ReferenceIdeal
import proofs.«136951_j35622458753573_2_alg».proof.Proof.Gen.Pre_finite_inputs
import proofs.«136951_j35622458753573_2_alg».proof.Proof.Gen.ReferenceIdeal.Run
import proofs.«136951_j35622458753573_2_alg».proof.Proof.Gen.ReferenceIdeal.Read
import proofs.«136951_j35622458753573_2_alg».proof.Proof.KernelRun
import proofs.«136951_j35622458753573_2_alg».proof.Proof.KChainB
import proofs.«136951_j35622458753573_2_alg».proof.Proof.Region0
import proofs.«136951_j35622458753573_2_alg».proof.Proof.Region1
import proofs.«136951_j35622458753573_2_alg».proof.Proof.Region2
import proofs.«136951_j35622458753573_2_alg».proof.Proof.Region3
import proofs.«136951_j35622458753573_2_alg».proof.Proof.Finite
import proofs.«136951_j35622458753573_2_alg».proof.Proof.Value
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end, from memories agreeing on the arguments, with the same result: the kernel program's closed
    function of the arguments, which the reference's stages equal when the features and first relation weights are real. -/
theorem algebraic : Cert.algebraic_KernelIdeal_ReferenceIdeal := by
  intro m ρ m' ρ' hpre hagree
  refine ⟨fun c => Cert.KernelIdeal.KVal.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run (Cert.KernelIdeal.defs (F := Ideal)) _ _).mono
      (fun _ h c => ⟨(h c).1.trans (Cert.KernelIdeal.KVal.kernel_value
          (fun V c => Cert.KernelIdeal.RegionValue.arr0 V c) (fun V c => Cert.KernelIdeal.RegionValue.arr1 V c)
          (fun V c => Cert.KernelIdeal.RegionValue.arr2 V c) (fun V c => Cert.KernelIdeal.RegionValue.arr3 V c) m ρ c), (h c).2⟩)
      (Cert.KernelIdeal.KVal.kernel_run_named m ρ)
  · refine (θ_run (Cert.ReferenceIdeal.defs (F := Ideal)) _ _).mono (fun _ h c => ⟨(h c).1.trans ?_, (h c).2⟩)
      (Cert.ReferenceIdeal.Value.run (F := Ideal) m' ρ')
    obtain ⟨hx0, hx3⟩ := Cert.Bridge.finite_of_pre _ _ _ _ _ _ _ _ _ _ _ _ _ (hpre c)
    rw [Cert.ReferenceIdeal.Read.val_main_v90_eq m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2.1, (hagree c).2.2.2.2.2.2.2.2.2.2.2.2]
    exact Cert.Bridge.ref_eq_kernel _ _ _ _ _ _ _ _ _ _ _ _ _ hx0 hx3

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
